-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S16x16 : Shape := ⟨2, ![16, 16]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part1 {F : FTy → Type} [FloatOps F] (main_arg4 : FVec F S64x16 .f32) (main_arg5 : FVec F S16 .f32) (main_arg6 : FVec F S16x16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x16 .f32 := Host.absf main_arg4
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x16 .f32 := Host.absf main_arg6
  let main_cst_10 : FVec F S_ .f32 := constant S_ .f32 0x7F800000#32
  let main_v30 : FVec F S16x16 .f32 := broadcastInDim S16x16 ![] bcast_S_S16x16 main_cst_10
  let main_v31 : IVec S16x16 1 := cmpf .olt main_v29 main_v30
  let main_c_11 : IVec S_ 1 := constantI S_ 1 1#1
  let main_v32 : IVec S_ 1 := (fun x v => Host.reduce IntOp.andi x v reducesTo_S16x16_S_d0_1 h_S_) main_v31 main_c_11
  let main_v33 : IVec S_ 1 := andi main_v28 main_v32
  main_v33

def fn {F : FTy → Type} [FloatOps F] (main_arg0 : FVec F S10000x10000 .f32) (main_arg1 : FVec F S10000x128 .f32) (main_arg2 : FVec F S128x64 .f32) (main_arg3 : FVec F S64 .f32) (main_arg4 : FVec F S64x16 .f32) (main_arg5 : FVec F S16 .f32) (main_arg6 : FVec F S16x16 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_v13 main_v16
-- ==== Kernel.lean ====
abbrev S10000x10000 : Shape := ⟨2, ![10000, 10000]⟩
abbrev S10000x128 : Shape := ⟨2, ![10000, 128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S16x16 : Shape := ⟨2, ![16, 16]⟩
abbrev S1x64 : Shape := ⟨2, ![1, 64]⟩
abbrev S1x16 : Shape := ⟨2, ![1, 16]⟩
abbrev S400x10000 : Shape := ⟨2, ![400, 10000]⟩
abbrev S80x10000 : Shape := ⟨2, ![80, 10000]⟩
abbrev S64x10000 : Shape := ⟨2, ![64, 10000]⟩
abbrev S10000x16 : Shape := ⟨2, ![10000, 16]⟩
abbrev S10000x64 : Shape := ⟨2, ![10000, 64]⟩
abbrev S80x64 : Shape := ⟨2, ![80, 64]⟩
abbrev S80x16 : Shape := ⟨2, ![80, 16]⟩

abbrev nBuf : Space → Nat
  | .hbm => 10
  | .vmem => 13
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S16x16, .f32⟩
  | .hbm, ⟨7, _⟩ => ⟨S1x64, .f32⟩
  | .hbm, ⟨8, _⟩ => ⟨S1x16, .f32⟩
  | .hbm, ⟨9, _⟩ => ⟨S10000x10000, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x64, .f32⟩
  | .local _ .vmem, ⟨4, _⟩ => ⟨S1x64, .f32⟩
  | .local _ .vmem, ⟨5, _⟩ => ⟨S64x16, .f32⟩
  | .local _ .vmem, ⟨6, _⟩ => ⟨S1x16, .f32⟩
  | .local _ .vmem, ⟨7, _⟩ => ⟨S16x16, .f32⟩
  | .local _ .vmem, ⟨8, _⟩ => ⟨S80x10000, .f32⟩
  | .local _ .vmem, ⟨9, _⟩ => ⟨S80x10000, .f32⟩
  | .local _ .vmem, ⟨10, _⟩ => ⟨S64x10000, .f32⟩
  | .local _ .vmem, ⟨11, _⟩ => ⟨S10000x16, .f32⟩
  | .local _ .vmem, ⟨12, _⟩ => ⟨S10000x16, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![3, 125], ![false, false]⟩

def k0_cond2 (i : grid0.Coords) : BitVec 1 :=
  let arg0 : BitVec 32 := BitVec.ofNat 32 (i 0).val
  let c0_i32_7 : BitVec 32 := 0#32
  let v17 : BitVec 1 := Scalar.cmpi .eq arg0 c0_i32_7
  let v18 : BitVec 32 := Scalar.extui v17
  let c0_i32_8 : BitVec 32 := 0#32
  let v19 : BitVec 1 := Scalar.cmpi .ne v18 c0_i32_8
  v19

def k0_off1 (i : grid0.Coords) : Fin 2 → Nat :=
  let arg1 : BitVec 32 := BitVec.ofNat 32 (i 1).val
  let c5_i32 : BitVec 32 := 5#32
  let c0_i32 : BitVec 32 := 0#32
  let v1 : BitVec 1 := Scalar.cmpi .eq c5_i32 c0_i32
  let c1_i32 : BitVec 32 := 1#32
  let v2 : BitVec 32 := Scalar.select v1 c1_i32 c5_i32
  let v3 : BitVec 32 := Scalar.remsi arg1 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c80_i32_3 : BitVec 32 := 80#32
  let v11 : BitVec 32 := Scalar.muli v10 c80_i32_3
  let v26 : Index := Scalar.indexCast v11
  let c0 : Index := 0#32
  ![v26.toNat, 0]
def k0_off2 (i : grid0.Coords) : Fin 2 → Nat :=
  let arg1 : BitVec 32 := BitVec.ofNat 32 (i 1).val
  let c80_i32 : BitVec 32 := 80#32
  let v0 : BitVec 32 := Scalar.muli arg1 c80_i32
  let v38 : Index := Scalar.indexCast v0
  let c0_20 : Index := 0#32
  ![v38.toNat, 0]
def k0_cond3 (i : grid0.Coords) : BitVec 1 :=
  let arg0 : BitVec 32 := BitVec.ofNat 32 (i 0).val
  let c1_i32_9 : BitVec 32 := 1#32
  let v20 : BitVec 1 := Scalar.cmpi .eq arg0 c1_i32_9
  let v21 : BitVec 32 := Scalar.extui v20
  let c0_i32_10 : BitVec 32 := 0#32
  let v22 : BitVec 1 := Scalar.cmpi .ne v21 c0_i32_10
  v22

def k0_off3 (i : grid0.Coords) : Fin 2 → Nat :=
  let arg1 : BitVec 32 := BitVec.ofNat 32 (i 1).val
  let c5_i32 : BitVec 32 := 5#32
  let c0_i32 : BitVec 32 := 0#32
  let v1 : BitVec 1 := Scalar.cmpi .eq c5_i32 c0_i32
  let c1_i32 : BitVec 32 := 1#32
  let v2 : BitVec 32 := Scalar.select v1 c1_i32 c5_i32
  let v3 : BitVec 32 := Scalar.remsi arg1 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c80_i32_3 : BitVec 32 := 80#32
  let v11 : BitVec 32 := Scalar.muli v10 c80_i32_3
  let v26 : Index := Scalar.indexCast v11
  let c0 : Index := 0#32
  ![v26.toNat, 0]
def k0_off4 (i : grid0.Coords) : Fin 2 → Nat :=
  let arg1 : BitVec 32 := BitVec.ofNat 32 (i 1).val
  let c80_i32 : BitVec 32 := 80#32
  let v0 : BitVec 32 := Scalar.muli arg1 c80_i32
  let v36 : Index := Scalar.indexCast v0
  let c0_17 : Index := 0#32
  ![v36.toNat, 0]
def k0_cond4 (i : grid0.Coords) : BitVec 1 :=
  let arg0 : BitVec 32 := BitVec.ofNat 32 (i 0).val
  let c2_i32 : BitVec 32 := 2#32
  let v23 : BitVec 1 := Scalar.cmpi .eq arg0 c2_i32
  let v24 : BitVec 32 := Scalar.extui v23
  let c0_i32_11 : BitVec 32 := 0#32
  let v25 : BitVec 1 := Scalar.cmpi .ne v24 c0_i32_11
  v25

def k0_off5 (i : grid0.Coords) : Fin 2 → Nat :=
  let arg1 : BitVec 32 := BitVec.ofNat 32 (i 1).val
  let c80_i32 : BitVec 32 := 80#32
  let v0 : BitVec 32 := Scalar.muli arg1 c80_i32
  let v26 : Index := Scalar.indexCast v0
  let c0 : Index := 0#32
  ![v26.toNat, 0]
def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c5_i32 : BitVec 32 := 5#32
  let v1 : BitVec 32 := Scalar.divsi arg1 c5_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c5_i32 c0_i32_1
  let v8 : BitVec 32 := Scalar.extui v7
  let c0_i32_2 : BitVec 32 := 0#32
  let v9 : BitVec 1 := Scalar.cmpi .slt c5_i32 c0_i32_2
  let v10 : BitVec 32 := Scalar.extui v9
  let v11 : BitVec 32 := Scalar.subi v8 v10
  let v12 : BitVec 1 := Scalar.cmpi .ne v6 v11
  let v13 : BitVec 32 := Scalar.remsi arg1 c5_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c24_i32 : BitVec 32 := 24#32
  let v18 : BitVec 32 := Scalar.select v0 c24_i32 v17
  let c0_i32_4 : BitVec 32 := 0#32
  let c0_i32_5 : BitVec 32 := 0#32
  ![v18.toNat, c0_i32_4.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S80x10000 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S64_S1x64 : S64.ShapeCasts S1x64
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  transposes_S10000x64_p1_0_S64x10000 : S10000x64.Transposes [1, 0] S64x10000
  inb_S64x10000_S64x10000_0_0 : ∀ a, (![0, 0] : Fin 2 → Nat) a + S64x10000.size a ≤ S64x10000.size a
  h_S64x10000 : 0 < S64x10000.numel
  shapeCasts_S64x10000_S64x10000 : S64x10000.ShapeCasts S64x10000
  h_S80x10000 : 0 < S80x10000.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S80x64 : S1x64.Broadcasts S80x64
  inb_S64x16_S64x16_0_0 : ∀ a, (![0, 0] : Fin 2 → Nat) a + S64x16.size a ≤ S64x16.size a
  h_S64x16 : 0 < S64x16.numel
  h_S80x16 : 0 < S80x16.numel
  shapeCasts_S80x16_S80x16 : S80x16.ShapeCasts S80x16
  inb_S10000x16_S10000x16_0_0 : ∀ a, (![0, 0] : Fin 2 → Nat) a + S10000x16.size a ≤ S10000x16.size a
  h_S10000x16 : 0 < S10000x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S80x16 : S1x16.Broadcasts S80x16
  inb_S16x16_S16x16_0_0 : ∀ a, (![0, 0] : Fin 2 → Nat) a + S16x16.size a ≤ S16x16.size a
  h_S16x16 : 0 < S16x16.numel
  inb_S80x10000_S80x10000_0_0 : ∀ a, (![0, 0] : Fin 2 → Nat) a + S80x10000.size a ≤ S80x10000.size a
  dot_S10000x128_S128x64_S10000x64_1_0_0_1_n_n_wf : DotDims.WF S10000x128 S128x64 S10000x64 [1] [0] [0] [1] [] []
  dot_S80x10000_S64x10000_S80x64_1_1_0_0_n_n_wf : DotDims.WF S80x10000 S64x10000 S80x64 [1] [1] [0] [0] [] []
  dot_S80x64_S64x16_S80x16_1_0_0_1_n_n_wf : DotDims.WF S80x64 S64x16 S80x16 [1] [0] [0] [1] [] []
  dot_S80x10000_S10000x16_S80x16_1_0_0_1_n_n_wf : DotDims.WF S80x10000 S10000x16 S80x16 [1] [0] [0] [1] [] []
  dot_S80x16_S16x16_S80x16_1_0_0_1_n_n_wf : DotDims.WF S80x16 S16x16 S80x16 [1] [0] [0] [1] [] []
  dot_S80x16_S10000x16_S80x10000_1_1_0_0_n_n_wf : DotDims.WF S80x16 S10000x16 S80x10000 [1] [1] [0] [0] [] []
  hrank0 : 0 < grid0.rank
  k0_off1_inb : ∀ i : grid0.Coords, ∀ (k0_h2 : k0_cond2 i = 1#1), ∀ a, (k0_off1 i) a + S80x10000.size a ≤ S400x10000.size a
  k0_off2_inb : ∀ i : grid0.Coords, ∀ (k0_h2 : k0_cond2 i = 1#1), ∀ a, (k0_off2 i) a + S80x16.size a ≤ S10000x16.size a
  k0_off3_inb : ∀ i : grid0.Coords, ∀ (k0_h3 : k0_cond3 i = 1#1), ∀ a, (k0_off3 i) a + S80x10000.size a ≤ S400x10000.size a
  k0_off4_inb : ∀ i : grid0.Coords, ∀ (k0_h3 : k0_cond3 i = 1#1), ∀ a, (k0_off4 i) a + S80x16.size a ≤ S10000x16.size a
  k0_off5_inb : ∀ i : grid0.Coords, ∀ (k0_h4 : k0_cond4 i = 1#1), ∀ a, (k0_off5 i) a + S80x16.size a ≤ S10000x16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x16.size a ≤ S64x16.size a
  hwx0_4 : ∀ i : grid0.Coords, EltTy.bits .f32 = 32 ∨ (Rect.block (s := S64x16) S64x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x16.size a ≤ S16x16.size a
  hwx0_6 : ∀ i : grid0.Coords, EltTy.bits .f32 = 32 ∨ (Rect.block (s := S16x16) S16x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S80x10000.size a ≤ S10000x10000.size a
  hwx0_7 : ∀ i : grid0.Coords, EltTy.bits .f32 = 32 ∨ (Rect.block (s := S10000x10000) S80x10000.size (cc0_transform_7 i) (hinb0_7 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S80x10000_S64x10000_S80x64_1_1_0_0_n_n : DotDims S80x10000 S64x10000 S80x64 where
  lhsContracting := [1]
  rhsContracting := [1]
  lhsNonContracting := [0]
  rhsNonContracting := [0]
  lhsBatch := []
  rhsBatch := []
  wf := dot_S80x10000_S64x10000_S80x64_1_1_0_0_n_n_wf
def dot_S80x64_S64x16_S80x16_1_0_0_1_n_n : DotDims S80x64 S64x16 S80x16 where
  lhsContracting := [1]
  rhsContracting := [0]
  lhsNonContracting := [0]
  rhsNonContracting := [1]
  lhsBatch := []
  rhsBatch := []
  wf := dot_S80x64_S64x16_S80x16_1_0_0_1_n_n_wf
def dot_S80x10000_S10000x16_S80x16_1_0_0_1_n_n : DotDims S80x10000 S10000x16 S80x16 where
  lhsContracting := [1]
  rhsContracting := [0]
  lhsNonContracting := [0]
  rhsNonContracting := [1]
  lhsBatch := []
  rhsBatch := []
  wf := dot_S80x10000_S10000x16_S80x16_1_0_0_1_n_n_wf
def dot_S80x16_S16x16_S80x16_1_0_0_1_n_n : DotDims S80x16 S16x16 S80x16 where
  lhsContracting := [1]
  rhsContracting := [0]
  lhsNonContracting := [0]
  rhsNonContracting := [1]
  lhsBatch := []
  rhsBatch := []
  wf := dot_S80x16_S16x16_S80x16_1_0_0_1_n_n_wf
def dot_S80x16_S10000x16_S80x10000_1_1_0_0_n_n : DotDims S80x16 S10000x16 S80x10000 where
  lhsContracting := [1]
  rhsContracting := [1]
  lhsNonContracting := [0]
  rhsNonContracting := [0]
  lhsBatch := []
  rhsBatch := []
  wf := dot_S80x16_S10000x16_S80x10000_1_1_0_0_n_n_wf

abbrev win0_0 : Pipeline.Window sig grid0 :=
  Pipeline.Window.ofSpec (Memref.whole main_arg0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S16x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S80x10000.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond4 i == 1#1) | ⟨_ + 8, h⟩ => absurd h (Nat.not_lt.2 (Nat.le_add_left _ _))

class Facts : Prop extends Facts₀ where

variable [Facts]
-- ==== ReferenceIdeal.lean ====
abbrev S10000x10000 : Shape := ⟨2, ![10000, 10000]⟩
abbrev S10000x128 : Shape := ⟨2, ![10000, 128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S16x16 : Shape := ⟨2, ![16, 16]⟩
abbrev S10000x64 : Shape := ⟨2, ![10000, 64]⟩
abbrev S1x64 : Shape := ⟨2, ![1, 64]⟩
abbrev S_ : Shape := ⟨0, ![]⟩
abbrev S10000x16 : Shape := ⟨2, ![10000, 16]⟩
abbrev S1x16 : Shape := ⟨2, ![1, 16]⟩
abbrev S16x10000 : Shape := ⟨2, ![16, 10000]⟩

abbrev nBuf : Space → Nat
  | .hbm => 26
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S16x16, .f32⟩
  | .hbm, ⟨7, _⟩ => ⟨S10000x64, .f32⟩
  | .hbm, ⟨8, _⟩ => ⟨S10000x64, .f32⟩
  | .hbm, ⟨9, _⟩ => ⟨S1x64, .f32⟩
  | .hbm, ⟨10, _⟩ => ⟨S10000x64, .f32⟩
  | .hbm, ⟨11, _⟩ => ⟨S10000x64, .f32⟩
  | .hbm, ⟨12, _⟩ => ⟨S_, .f32⟩
  | .hbm, ⟨13, _⟩ => ⟨S10000x64, .f32⟩
  | .hbm, ⟨14, _⟩ => ⟨S10000x64, .f32⟩
  | .hbm, ⟨15, _⟩ => ⟨S10000x16, .f32⟩
  | .hbm, ⟨16, _⟩ => ⟨S10000x16, .f32⟩
  | .hbm, ⟨17, _⟩ => ⟨S1x16, .f32⟩
  | .hbm, ⟨18, _⟩ => ⟨S10000x16, .f32⟩
  | .hbm, ⟨19, _⟩ => ⟨S10000x16, .f32⟩
  | .hbm, ⟨20, _⟩ => ⟨S_, .f32⟩
  | .hbm, ⟨21, _⟩ => ⟨S10000x16, .f32⟩
  | .hbm, ⟨22, _⟩ => ⟨S10000x16, .f32⟩
  | .hbm, ⟨23, _⟩ => ⟨S10000x16, .f32⟩
  | .hbm, ⟨24, _⟩ => ⟨S16x10000, .f32⟩
  | .hbm, ⟨25, _⟩ => ⟨S10000x10000, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call1_cst : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  transposes_S10000x16_S16x10000_1_0 : S10000x16.Transposes [1, 0] S16x10000
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x16_S10000x16_1_0_0_1_n_n_wf : DotDims.WF S10000x64 S64x16 S10000x16 [1] [0] [0] [1] [] []
  dot_S10000x10000_S10000x16_S10000x16_1_0_0_1_n_n_wf : DotDims.WF S10000x10000 S10000x16 S10000x16 [1] [0] [0] [1] [] []
  dot_S10000x16_S16x16_S10000x16_1_0_0_1_n_n_wf : DotDims.WF S10000x16 S16x16 S10000x16 [1] [0] [0] [1] [] []
  dot_S10000x16_S16x10000_S10000x10000_1_0_0_1_n_n_wf : DotDims.WF S10000x16 S16x10000 S10000x10000 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf
def dot_S10000x16_S16x10000_S10000x10000_1_0_0_1_n_n : DotDims S10000x16 S16x10000 S10000x10000 where
  lhsContracting := [1]
  rhsContracting := [0]
  lhsNonContracting := [0]
  rhsNonContracting := [1]
  lhsBatch := []
  rhsBatch := []
  wf := dot_S10000x16_S16x10000_S10000x10000_1_0_0_1_n_n_wf

class Facts : Prop extends Facts₀ where

variable [Facts]
-- ==== Proof.Kernel.BodyRuns.lean ====
import proofs.«149746_g67903432950113_cont_9to1_m_218_26_alg».proof.Proof.Gen.Kernel.Frame
import proofs.«149746_g67903432950113_cont_9to1_m_218_26_alg».proof.Proof.Gen.Kernel.Skeleton
import Idealize.ShloMosaic.Lib.Pipeline.FrameBody
import Idealize.ShloMosaic.Lib.Ring
import Idealize.ShloMosaic.Lib.Tactic
import Idealize.ShloMosaic.Lib.WritesUnit

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's four branch conditions

The kernel body is four conditionals on the grid point `(p, i)`: the first holds at `(0, 0)` only, the second on
phase `p = 0`, the third on `p = 1`, the fourth on `p = 2`. A point meets exactly one of four cases: A (the first
point: branches one and two), B (the rest of phase 0: branch two), C (phase 1: branch three), D (phase 2: branch four). -/

/-- The first branch's condition: the point is the grid's first. -/
abbrev condA (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The second branch's condition: phase 0. -/
abbrev cond2 (i : grid0.Coords) : Prop := k0_cond2 i = 1#1
/-- The third branch's condition: phase 1. -/
abbrev cond3 (i : grid0.Coords) : Prop := k0_cond3 i = 1#1
/-- The fourth branch's condition: phase 2. -/
abbrev cond4 (i : grid0.Coords) : Prop := k0_cond4 i = 1#1

/-! ## The body run case by case

Each run is stated over the buffers its case touches and nothing else; the pieces each stored buffer ends with are found by
the run. A buffer stored whole ends at its pieces over anything; a buffer stored in part (80 rows of the 10000) ends at
its pieces over the contents it was handed. -/

set_option maxHeartbeats 1000000 in
/-- Case A, the first point: the first-layer support `(x · W1)ᵀ` is stored whole into the first scratch, then rows
    `[0, 80)` of the second scratch are stored from it. -/
noncomputable def kernelRunA (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S80x10000 .f32) (harg9 : arg9.IsWhole) (arg10 : Memref sig .tc .vmem S64x10000 .f32) (harg10 : arg10.IsWhole) (arg11 : Memref sig .tc .vmem S10000x16 .f32) (harg11 : arg11.IsWhole) (arg12 : Memref sig .tc .vmem S10000x16 .f32) (harg12 : arg12.IsWhole)
    (hc1 : condA i) (hc2 : cond2 i) (hc3 : ¬cond3 i) (hc4 : ¬cond4 i)
    (x0 : Vec F S400x10000 .f32) (x1 : Vec F S10000x128 .f32) (x2 : Vec F S128x64 .f32) (x3 : Vec F S1x64 .f32) (x4 : Vec F S64x16 .f32)
    (s2 : Vec F S10000x16 .f32) :
    Σ' (L10 : List (View.Piece (Elt F) S64x10000 .f32)), { L11 : List (View.Piece (Elt F) S10000x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ (∃ d, owns (c : Thread nD τ) arg10 fullShare d) ∗ owns (c : Thread nD τ) arg11 fullShare s2
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ (∃ f, arg10.view.loc (c : Thread nD τ) ↦[arg10.view.set]{fullShare} arg10.view.writes (Elt F) f L10)
                ∗ (arg11.view.loc (c : Thread nD τ) ↦[arg11.view.set]{fullShare} arg11.view.writes (Elt F) (harg11.unread s2) L11)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d10, %f10, -, H10⟩, ⟨%f11, %hf11, H11⟩, Hk⟩
    obtain rfl := harg2.eq_unread hf0; obtain rfl := harg3.eq_unread hf1; obtain rfl := harg4.eq_unread hf2
    obtain rfl := harg5.eq_unread hf3; obtain rfl := harg6.eq_unread hf4; obtain rfl := harg11.eq_unread hf11
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H10]; · iexists _; iexact H10
    iexact H11

set_option maxHeartbeats 1000000 in
/-- Case B, the rest of phase 0: rows `[80 i, 80 i + 80)` of the second scratch are stored from the adjacency rows, the
    first scratch, the first bias and `W2`. -/
noncomputable def kernelRunB (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S80x10000 .f32) (harg9 : arg9.IsWhole) (arg10 : Memref sig .tc .vmem S64x10000 .f32) (harg10 : arg10.IsWhole) (arg11 : Memref sig .tc .vmem S10000x16 .f32) (harg11 : arg11.IsWhole) (arg12 : Memref sig .tc .vmem S10000x16 .f32) (harg12 : arg12.IsWhole)
    (hc1 : ¬condA i) (hc2 : cond2 i) (hc3 : ¬cond3 i) (hc4 : ¬cond4 i)
    (x0 : Vec F S400x10000 .f32) (x3 : Vec F S1x64 .f32) (x4 : Vec F S64x16 .f32)
    (s1 : Vec F S64x10000 .f32) (s2 : Vec F S10000x16 .f32) :
    { L11 : List (View.Piece (Elt F) S10000x16 .f32) //
      ∀ (E : Set ℕ) (K : PUnit → sProp 𝕄),
        iprop(owns (c : Thread nD τ) arg2 fullShare x0 ∗ owns (c : Thread nD τ) arg5 fullShare x3 ∗ owns (c : Thread nD τ) arg6 fullShare x4
            ∗ owns (c : Thread nD τ) arg10 fullShare s1 ∗ owns (c : Thread nD τ) arg11 fullShare s2
            ∗ (iprop(owns (c : Thread nD τ) arg2 fullShare x0 ∗ owns (c : Thread nD τ) arg5 fullShare x3 ∗ owns (c : Thread nD τ) arg6 fullShare x4
                ∗ owns (c : Thread nD τ) arg10 fullShare s1
                ∗ (arg11.view.loc (c : Thread nD τ) ↦[arg11.view.set]{fullShare} arg11.view.writes (Elt F) (harg11.unread s2) L11)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__gcn_kernel_eq_skeleton]; unfold cc0__gcn_kernel_skel
    unfold owns
    iintro ⟨⟨%f0, %hf0, H0⟩, ⟨%f3, %hf3, H3⟩, ⟨%f4, %hf4, H4⟩, ⟨%f10, %hf10, H10⟩, ⟨%f11, %hf11, H11⟩, Hk⟩
    obtain rfl := harg2.eq_unread hf0; obtain rfl := harg5.eq_unread hf3; obtain rfl := harg6.eq_unread hf4
    obtain rfl := harg10.eq_unread hf10; obtain rfl := harg11.eq_unread hf11
    sl_exec (disch := first | exact hc1 | exact hc2 | exact hc3 | exact hc4)
    sl_step
    iapply Hk
    isplitl [H0]
    · iexists _; isplitr; · ipureintro; exact harg2.read_unread _
      iexact H0
    isplitl [H3]
    · iexists _; isplitr; · ipureintro; exact harg5.read_unread _
      iexact H3
    isplitl [H4]
    · iexists _; isplitr; · ipureintro; exact harg6.read_unread _
      iexact H4
    isplitl [H10]
    · iexists _; isplitr; · ipureintro; exact harg10.read_unread _
      iexact H10
    iexact H11

set_option maxHeartbeats 1000000 in
/-- Case C, phase 1: rows `[80 i, 80 i + 80)` of the third scratch are stored from the adjacency rows, the whole second
    scratch and the second bias. -/
noncomputable def kernelRunC (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S80x10000 .f32) (harg9 : arg9.IsWhole) (arg10 : Memref sig .tc .vmem S64x10000 .f32) (harg10 : arg10.IsWhole) (arg11 : Memref sig .tc .vmem S10000x16 .f32) (harg11 : arg11.IsWhole) (arg12 : Memref sig .tc .vmem S10000x16 .f32) (harg12 : arg12.IsWhole)
    (hc1 : ¬condA i) (hc2 : ¬cond2 i) (hc3 : cond3 i) (hc4 : ¬cond4 i)
    (x0 : Vec F S400x10000 .f32) (x5 : Vec F S1x16 .f32)
    (s2 : Vec F S10000x16 .f32) (s3 : Vec F S10000x16 .f32) :
    { L12 : List (View.Piece (Elt F) S10000x16 .f32) //
      ∀ (E : Set ℕ) (K : PUnit → sProp 𝕄),
        iprop(owns (c : Thread nD τ) arg2 fullShare x0 ∗ owns (c : Thread nD τ) arg7 fullShare x5
            ∗ owns (c : Thread nD τ) arg11 fullShare s2 ∗ owns (c : Thread nD τ) arg12 fullShare s3
            ∗ (iprop(owns (c : Thread nD τ) arg2 fullShare x0 ∗ owns (c : Thread nD τ) arg7 fullShare x5
                ∗ owns (c : Thread nD τ) arg11 fullShare s2
                ∗ (arg12.view.loc (c : Thread nD τ) ↦[arg12.view.set]{fullShare} arg12.view.writes (Elt F) (harg12.unread s3) L12)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__gcn_kernel_eq_skeleton]; unfold cc0__gcn_kernel_skel
    unfold owns
    iintro ⟨⟨%f0, %hf0, H0⟩, ⟨%f5, %hf5, H5⟩, ⟨%f11, %hf11, H11⟩, ⟨%f12, %hf12, H12⟩, Hk⟩
    obtain rfl := harg2.eq_unread hf0; obtain rfl := harg7.eq_unread hf5
    obtain rfl := harg11.eq_unread hf11; obtain rfl := harg12.eq_unread hf12
    sl_exec (disch := first | exact hc1 | exact hc2 | exact hc3 | exact hc4)
    sl_step
    iapply Hk
    isplitl [H0]
    · iexists _; isplitr; · ipureintro; exact harg2.read_unread _
      iexact H0
    isplitl [H5]
    · iexists _; isplitr; · ipureintro; exact harg7.read_unread _
      iexact H5
    isplitl [H11]
    · iexists _; isplitr; · ipureintro; exact harg11.read_unread _
      iexact H11
    iexact H12

set_option maxHeartbeats 1000000 in
/-- Case D, phase 2: the output block is stored whole from rows `[80 i, 80 i + 80)` of the third scratch, `Wd` and the
    whole third scratch. -/
noncomputable def kernelRunD (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S80x10000 .f32) (harg9 : arg9.IsWhole) (arg10 : Memref sig .tc .vmem S64x10000 .f32) (harg10 : arg10.IsWhole) (arg11 : Memref sig .tc .vmem S10000x16 .f32) (harg11 : arg11.IsWhole) (arg12 : Memref sig .tc .vmem S10000x16 .f32) (harg12 : arg12.IsWhole)
    (hc1 : ¬condA i) (hc2 : ¬cond2 i) (hc3 : ¬cond3 i) (hc4 : cond4 i)
    (x6 : Vec F S16x16 .f32) (s3 : Vec F S10000x16 .f32) :
    { L9 : List (View.Piece (Elt F) S80x10000 .f32) //
      ∀ (E : Set ℕ) (K : PUnit → sProp 𝕄),
        iprop(owns (c : Thread nD τ) arg8 fullShare x6 ∗ (∃ d, owns (c : Thread nD τ) arg9 fullShare d) ∗ owns (c : Thread nD τ) arg12 fullShare s3
            ∗ (iprop(owns (c : Thread nD τ) arg8 fullShare x6 ∗ (∃ f, arg9.view.loc (c : Thread nD τ) ↦[arg9.view.set]{fullShare} arg9.view.writes (Elt F) f L9) ∗ owns (c : Thread nD τ) arg12 fullShare s3) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__gcn_kernel_eq_skeleton]; unfold cc0__gcn_kernel_skel
    unfold owns
    iintro ⟨⟨%f6, %hf6, H6⟩, ⟨%d9, %f9, -, H9⟩, ⟨%f12, %hf12, H12⟩, Hk⟩
    obtain rfl := harg8.eq_unread hf6; obtain rfl := harg12.eq_unread hf12
    sl_exec (disch := first | exact hc1 | exact hc2 | exact hc3 | exact hc4)
    sl_step
    iapply Hk
    isplitl [H6]
    · iexists _; isplitr; · ipureintro; exact harg8.read_unread _
      iexact H6
    isplitl [H9]; · iexists _; iexact H9
    iexists _; isplitr; · ipureintro; exact harg12.read_unread _
    iexact H12

end Cert.Kernel.Body

end
-- ==== Proof.Kernel.BodyPieces.lean ====
import proofs.«149746_g67903432950113_cont_9to1_m_218_26_alg».proof.Proof.Kernel.BodyRuns
import Idealize.ShloMosaic.Lib.Pipeline.FrameBody
import Idealize.ShloMosaic.Lib.Ring
import Idealize.ShloMosaic.Lib.Tactic
import Idealize.ShloMosaic.Lib.WritesUnit
import Idealize.ShloMosaic.Lib.ValueIdx
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The pieces each case stores

Each run's witness is one piece per store: the store's rectangle and the payload of what the case loaded — a whole buffer
at its contents, 80 rows at their rectangle of the contents. -/

theorem zeros2 : (![0, 0] : Fin 2 → ℕ) = fun _ => 0 := by
  funext a; match a with | ⟨0, _⟩ => rfl | ⟨1, _⟩ => rfl

/-- Case A stores `(x · W1)ᵀ`, the first payload, over the whole first scratch, -/
theorem runA_pieces10 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S80x10000 .f32) (harg9 : arg9.IsWhole) (arg10 : Memref sig .tc .vmem S64x10000 .f32) (harg10 : arg10.IsWhole) (arg11 : Memref sig .tc .vmem S10000x16 .f32) (harg11 : arg11.IsWhole) (arg12 : Memref sig .tc .vmem S10000x16 .f32) (harg12 : arg12.IsWhole)
    (hc1 : condA i) (hc2 : cond2 i) (hc3 : ¬cond3 i) (hc4 : ¬cond4 i)
    (x0 : Vec F S400x10000 .f32) (x1 : Vec F S10000x128 .f32) (x2 : Vec F S128x64 .f32) (x3 : Vec F S1x64 .f32) (x4 : Vec F S64x16 .f32)
    (s2 : Vec F S10000x16 .f32) :
    (kernelRunA c i arg2 harg2 arg3 harg3 arg4 harg4 arg5 harg5 arg6 harg6 arg7 harg7 arg8 harg8 arg9 harg9 arg10 harg10 arg11 harg11 arg12 harg12 hc1 hc2 hc3 hc4 x0 x1 x2 x3 x4 s2).1
      = [⟨Rect.unit (s := S64x10000) ![0, 0] S64x10000.size inb_S64x10000_S64x10000_0_0, k0_pay1 x1 x2⟩] := by
  unfold kernelRunA; dsimp only
  sl_unfold_run_names
  simp only [View.readAt_eq_ld, harg3.read_unread, harg4.read_unread]
  rw [View.ld_unit_zero (S := S10000x128) zeros2, View.ld_unit_zero (S := S128x64) zeros2]

/-- and then, at rows `k0_off2 i` of the second scratch, the second payload of the 80 adjacency rows and that first
    scratch (read back whole after the store that covers it). -/
theorem runA_pieces11 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S80x10000 .f32) (harg9 : arg9.IsWhole) (arg10 : Memref sig .tc .vmem S64x10000 .f32) (harg10 : arg10.IsWhole) (arg11 : Memref sig .tc .vmem S10000x16 .f32) (harg11 : arg11.IsWhole) (arg12 : Memref sig .tc .vmem S10000x16 .f32) (harg12 : arg12.IsWhole)
    (hc1 : condA i) (hc2 : cond2 i) (hc3 : ¬cond3 i) (hc4 : ¬cond4 i)
    (x0 : Vec F S400x10000 .f32) (x1 : Vec F S10000x128 .f32) (x2 : Vec F S128x64 .f32) (x3 : Vec F S1x64 .f32) (x4 : Vec F S64x16 .f32)
    (s2 : Vec F S10000x16 .f32) :
    (kernelRunA c i arg2 harg2 arg3 harg3 arg4 harg4 arg5 harg5 arg6 harg6 arg7 harg7 arg8 harg8 arg9 harg9 arg10 harg10 arg11 harg11 arg12 harg12 hc1 hc2 hc3 hc4 x0 x1 x2 x3 x4 s2).2.1
      = [⟨Rect.unit (s := S10000x16) (k0_off2 i) ![80, 16] (k0_off2_inb i hc2),
          k0_pay2 (View.ld x0 (Rect.unit (s := S400x10000) (k0_off1 i) ![80, 10000] (k0_off1_inb i hc2))) (k0_pay1 x1 x2) x3 x4⟩] := by
  unfold kernelRunA; dsimp only
  sl_unfold_run_names
  simp only [View.readAt_eq_ld, harg2.read_unread, harg3.read_unread, harg4.read_unread, harg5.read_unread, harg6.read_unread]
  rw [View.ld_unit_zero (S := S10000x128) zeros2, View.ld_unit_zero (S := S128x64) zeros2, View.ld_unit_zero (S := S1x64) zeros2, View.ld_unit_zero (S := S64x16) zeros2]
  rw [View.readCov_unit_zero _ zeros2]

/-- Case B stores, at rows `k0_off2 i` of the second scratch, the second payload of the 80 adjacency rows, the first
    scratch, the first bias row and `W2`. -/
theorem runB_pieces (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S80x10000 .f32) (harg9 : arg9.IsWhole) (arg10 : Memref sig .tc .vmem S64x10000 .f32) (harg10 : arg10.IsWhole) (arg11 : Memref sig .tc .vmem S10000x16 .f32) (harg11 : arg11.IsWhole) (arg12 : Memref sig .tc .vmem S10000x16 .f32) (harg12 : arg12.IsWhole)
    (hc1 : ¬condA i) (hc2 : cond2 i) (hc3 : ¬cond3 i) (hc4 : ¬cond4 i)
    (x0 : Vec F S400x10000 .f32) (x3 : Vec F S1x64 .f32) (x4 : Vec F S64x16 .f32)
    (s1 : Vec F S64x10000 .f32) (s2 : Vec F S10000x16 .f32) :
    (kernelRunB c i arg2 harg2 arg3 harg3 arg4 harg4 arg5 harg5 arg6 harg6 arg7 harg7 arg8 harg8 arg9 harg9 arg10 harg10 arg11 harg11 arg12 harg12 hc1 hc2 hc3 hc4 x0 x3 x4 s1 s2).1
      = [⟨Rect.unit (s := S10000x16) (k0_off2 i) ![80, 16] (k0_off2_inb i hc2),
          k0_pay2 (View.ld x0 (Rect.unit (s := S400x10000) (k0_off1 i) ![80, 10000] (k0_off1_inb i hc2))) s1 x3 x4⟩] := by
  unfold kernelRunB; dsimp only
  simp only [View.readAt_eq_ld, harg2.read_unread, harg10.read_unread, harg5.read_unread, harg6.read_unread]
  rw [View.ld_unit_zero (S := S64x10000) zeros2, View.ld_unit_zero (S := S1x64) zeros2, View.ld_unit_zero (S := S64x16) zeros2]

/-- Case C stores, at rows `k0_off4 i` of the third scratch, the third payload of the 80 adjacency rows, the whole second
    scratch and the second bias row. -/
theorem runC_pieces (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S80x10000 .f32) (harg9 : arg9.IsWhole) (arg10 : Memref sig .tc .vmem S64x10000 .f32) (harg10 : arg10.IsWhole) (arg11 : Memref sig .tc .vmem S10000x16 .f32) (harg11 : arg11.IsWhole) (arg12 : Memref sig .tc .vmem S10000x16 .f32) (harg12 : arg12.IsWhole)
    (hc1 : ¬condA i) (hc2 : ¬cond2 i) (hc3 : cond3 i) (hc4 : ¬cond4 i)
    (x0 : Vec F S400x10000 .f32) (x5 : Vec F S1x16 .f32)
    (s2 : Vec F S10000x16 .f32) (s3 : Vec F S10000x16 .f32) :
    (kernelRunC c i arg2 harg2 arg3 harg3 arg4 harg4 arg5 harg5 arg6 harg6 arg7 harg7 arg8 harg8 arg9 harg9 arg10 harg10 arg11 harg11 arg12 harg12 hc1 hc2 hc3 hc4 x0 x5 s2 s3).1
      = [⟨Rect.unit (s := S10000x16) (k0_off4 i) ![80, 16] (k0_off4_inb i hc3),
          k0_pay3 (View.ld x0 (Rect.unit (s := S400x10000) (k0_off3 i) ![80, 10000] (k0_off3_inb i hc3))) s2 x5⟩] := by
  unfold kernelRunC; dsimp only
  simp only [View.readAt_eq_ld, harg2.read_unread, harg11.read_unread, harg7.read_unread]
  rw [View.ld_unit_zero (S := S10000x16) zeros2, View.ld_unit_zero (S := S1x16) zeros2]

/-- Case D stores, over the whole output block, the fourth payload of rows `k0_off5 i` of the third scratch, `Wd` and the
    whole third scratch. -/
theorem runD_pieces (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S80x10000 .f32) (harg9 : arg9.IsWhole) (arg10 : Memref sig .tc .vmem S64x10000 .f32) (harg10 : arg10.IsWhole) (arg11 : Memref sig .tc .vmem S10000x16 .f32) (harg11 : arg11.IsWhole) (arg12 : Memref sig .tc .vmem S10000x16 .f32) (harg12 : arg12.IsWhole)
    (hc1 : ¬condA i) (hc2 : ¬cond2 i) (hc3 : ¬cond3 i) (hc4 : cond4 i)
    (x6 : Vec F S16x16 .f32) (s3 : Vec F S10000x16 .f32) :
    (kernelRunD c i arg2 harg2 arg3 harg3 arg4 harg4 arg5 harg5 arg6 harg6 arg7 harg7 arg8 harg8 arg9 harg9 arg10 harg10 arg11 harg11 arg12 harg12 hc1 hc2 hc3 hc4 x6 s3).1
      = [⟨Rect.unit (s := S80x10000) ![0, 0] S80x10000.size inb_S80x10000_S80x10000_0_0,
          k0_pay4 (View.ld s3 (Rect.unit (s := S10000x16) (k0_off5 i) ![80, 16] (k0_off5_inb i hc4))) x6 s3⟩] := by
  unfold kernelRunD; dsimp only
  simp only [View.readAt_eq_ld, harg12.read_unread, harg8.read_unread]
  rw [View.ld_unit_zero (S := S16x16) zeros2, View.ld_unit_zero (S := S10000x16) zeros2]

end Cert.Kernel.Body

end
-- ==== Proof.Kernel.BodySchedule.lean ====
import proofs.«149746_g67903432950113_cont_9to1_m_218_26_alg».proof.Proof.Kernel.BodyRuns
import Idealize.ShloMosaic.Lib.Pipeline.FrameBody
import Idealize.ShloMosaic.Lib.Ring
import Idealize.ShloMosaic.Lib.Tactic
import Idealize.ShloMosaic.Lib.WritesUnit

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The schedule in closed form

Point `t` of the 375 is phase `t / 125`, row block `t % 125`. Everything the body and the pipeline compute from the point —
which branch runs, where the adjacency rows sit in the fetched block of 400, which block each window is on, where the
output window is idle or written back — is decided once over the grid. -/

theorem hcondA : ∀ t : Fin cfg0.N, condA (grid0.coords t) ↔ t.val = 0 :=
  (by decide +kernel : ∀ t : Fin grid0.N, condA (grid0.coords t) ↔ t.val = 0)
theorem hcond2 : ∀ t : Fin cfg0.N, cond2 (grid0.coords t) ↔ t.val < 125 :=
  (by decide +kernel : ∀ t : Fin grid0.N, cond2 (grid0.coords t) ↔ t.val < 125)
theorem hcond3 : ∀ t : Fin cfg0.N, cond3 (grid0.coords t) ↔ (125 ≤ t.val ∧ t.val < 250) :=
  (by decide +kernel : ∀ t : Fin grid0.N, cond3 (grid0.coords t) ↔ (125 ≤ t.val ∧ t.val < 250))
theorem hcond4 : ∀ t : Fin cfg0.N, cond4 (grid0.coords t) ↔ 250 ≤ t.val :=
  (by decide +kernel : ∀ t : Fin grid0.N, cond4 (grid0.coords t) ↔ 250 ≤ t.val)

/-- The second grid coordinate is the row block. -/
theorem coord1 : ∀ t : Fin cfg0.N, ((grid0.coords t) 1).val = t.val % 125 :=
  (by decide +kernel : ∀ t : Fin grid0.N, ((grid0.coords t) 1).val = t.val % 125)

/-- The 80 adjacency rows of row block `b` start at row `80 (b % 5)` of the fetched block of 400 (phase 0's load). -/
theorem off1_eq : ∀ t : Fin cfg0.N, k0_off1 (grid0.coords t) = ![80 * (t.val % 5), 0] :=
  (by decide +kernel : ∀ t : Fin grid0.N, k0_off1 (grid0.coords t) = ![80 * (t.val % 5), 0])
/-- The same for phase 1's load. -/
theorem off3_eq : ∀ t : Fin cfg0.N, k0_off3 (grid0.coords t) = ![80 * (t.val % 5), 0] :=
  (by decide +kernel : ∀ t : Fin grid0.N, k0_off3 (grid0.coords t) = ![80 * (t.val % 5), 0])

/-- In phases 0 and 1 the adjacency window is on block `b / 5` of the 25. -/
theorem index0_eq : ∀ t : Fin cfg0.N, t.val < 250 → win0_0.index t 0 = (t.val % 125) / 5 ∧ win0_0.index t 1 = 0 :=
  (by decide +kernel : ∀ t : Fin grid0.N, t.val < 250 → win0_0.index t 0 = (t.val % 125) / 5 ∧ win0_0.index t 1 = 0)
/-- The six whole-array windows are on their one block at every point. -/
theorem index1_eq : ∀ (t : Fin cfg0.N) (a : Fin 2), win0_1.index t a = 0 := (by decide +kernel : ∀ (t : Fin grid0.N) (a : Fin 2), win0_1.index t a = 0)
theorem index2_eq : ∀ (t : Fin cfg0.N) (a : Fin 2), win0_2.index t a = 0 := (by decide +kernel : ∀ (t : Fin grid0.N) (a : Fin 2), win0_2.index t a = 0)
theorem index3_eq : ∀ (t : Fin cfg0.N) (a : Fin 2), win0_3.index t a = 0 := (by decide +kernel : ∀ (t : Fin grid0.N) (a : Fin 2), win0_3.index t a = 0)
theorem index4_eq : ∀ (t : Fin cfg0.N) (a : Fin 2), win0_4.index t a = 0 := (by decide +kernel : ∀ (t : Fin grid0.N) (a : Fin 2), win0_4.index t a = 0)
theorem index5_eq : ∀ (t : Fin cfg0.N) (a : Fin 2), win0_5.index t a = 0 := (by decide +kernel : ∀ (t : Fin grid0.N) (a : Fin 2), win0_5.index t a = 0)
theorem index6_eq : ∀ (t : Fin cfg0.N) (a : Fin 2), win0_6.index t a = 0 := (by decide +kernel : ∀ (t : Fin grid0.N) (a : Fin 2), win0_6.index t a = 0)
/-- In phase 2 the output window is on row block `b`. -/
theorem index7_eq : ∀ t : Fin cfg0.N, 250 ≤ t.val → win0_7.index t 0 = t.val - 250 ∧ win0_7.index t 1 = 0 :=
  (by decide +kernel : ∀ t : Fin grid0.N, 250 ≤ t.val → win0_7.index t 0 = t.val - 250 ∧ win0_7.index t 1 = 0)

/-! ### Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel
theorem liveAt6 : ∀ t : Fin cfg0.N, cfg0.idle 6 (grid0.coords t) = false := by decide +kernel
/-- Through phases 0 and 1 the body stores nothing into the output window: the window is idle there, -/
theorem idleAt7 : ∀ t : Fin cfg0.N, t.val < 250 → cfg0.idle 7 (grid0.coords t) = true := by decide +kernel
/-- and its block is not written back there; -/
theorem noFlush7 : ∀ t : Fin cfg0.N, t.val < 250 → (cfg0.win 7).flush t = false := by decide +kernel
/-- in phase 2 it is live -/
theorem liveAt7 : ∀ t : Fin cfg0.N, 250 ≤ t.val → cfg0.idle 7 (grid0.coords t) = false := by decide +kernel
/-- and written back at every point. -/
theorem flush7 : ∀ t : Fin cfg0.N, 250 ≤ t.val → (cfg0.win 7).flush t = true := by decide +kernel

end Cert.Kernel.Body

end
-- ==== Proof.Kernel.BodySpec.lean ====
import proofs.«149746_g67903432950113_cont_9to1_m_218_26_alg».proof.Proof.Kernel.BodySchedule
import Idealize.ShloMosaic.Lib.Pipeline.FrameBody
import Idealize.ShloMosaic.Lib.Ring
import Idealize.ShloMosaic.Lib.Tactic
import Idealize.ShloMosaic.Lib.WritesUnit
import Idealize.ShloMosaic.Lib.ValueIdx
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

/-! ## What the three scratch buffers and the output blocks hold, as functions of the argument arrays

Stated with the body's own arithmetic (the payload terms of its four stores), at any float instance: the first scratch
holds `(x · W1)ᵀ`; row block `b` of the second is the second store's payload of row block `b` of the adjacency matrix and
the first scratch; row block `b` of the third is the third store's payload of row block `b` of the adjacency matrix and the
whole second scratch; output block `b` is the fourth store's payload of row block `b` of the third scratch and the whole
third scratch. -/

/-- Row block `b` (80 rows) of an array of 10000 rows. -/
def rowBlock {C : ℕ} {α : Type} (X : (⟨2, ![10000, C]⟩ : Shape).Idx → α) (b : Fin 125) :
    (⟨2, ![80, C]⟩ : Shape).Idx → α :=
  fun x => X (ix2 ⟨80 * b.val + (x 0).val, by have := idx2_lt0 x; have := b.isLt; omega⟩ ⟨(x 1).val, idx2_lt1 x⟩)

/-- The row block of a row. -/
def blockOf {C : ℕ} (y : (⟨2, ![10000, C]⟩ : Shape).Idx) : Fin 125 := ⟨(y 0).val / 80, by have := idx2_lt0 y; omega⟩
/-- A row's place in its block, with the column. -/
def inBlock {C : ℕ} (y : (⟨2, ![10000, C]⟩ : Shape).Idx) : (⟨2, ![80, C]⟩ : Shape).Idx :=
  ix2 ⟨(y 0).val % 80, Nat.mod_lt _ (by decide)⟩ ⟨(y 1).val, idx2_lt1 y⟩

/-- The seven arrays as the body meets them: the adjacency matrix, the features, the three weight matrices, and the two
    biases as rows `[1, n]`. -/
structure Args (F : FTy → Type) where
  adj : Vec F S10000x10000 .f32
  x : Vec F S10000x128 .f32
  w1 : Vec F S128x64 .f32
  b1 : Vec F S1x64 .f32
  w2 : Vec F S64x16 .f32
  b2 : Vec F S1x16 .f32
  wd : Vec F S16x16 .f32

/-- The first scratch after the first point: `(x · W1)ᵀ`. -/
def s1Spec (A : Args F) : Vec F S64x10000 .f32 := k0_pay1 A.x A.w1

/-- The second scratch after phase 0. -/
def s2Spec (A : Args F) : Vec F S10000x16 .f32 := fun y =>
  k0_pay2 (rowBlock A.adj (blockOf y)) (s1Spec A) A.b1 A.w2 (inBlock y)

/-- The third scratch after phase 1. -/
def s3Spec (A : Args F) : Vec F S10000x16 .f32 := fun y =>
  k0_pay3 (rowBlock A.adj (blockOf y)) (s2Spec A) A.b2 (inBlock y)

/-- Output block `b`, stored at point `250 + b`. -/
def outSpec (A : Args F) (b : Fin 125) : Vec F S80x10000 .f32 :=
  k0_pay4 (rowBlock (s3Spec A) b) A.wd (s3Spec A)

/-- Row `80 b + p` is in block `b` at place `p`. -/
theorem blockOf_row {C : ℕ} (b : Fin 125) (p : Fin 80) (q : Fin C) (h : 80 * b.val + p.val < 10000) :
    blockOf (C := C) (ix2 ⟨80 * b.val + p.val, h⟩ q) = b := Fin.ext (by show (80 * b.val + p.val) / 80 = b.val; omega)
theorem inBlock_row {C : ℕ} (b : Fin 125) (p : Fin 80) (q : Fin C) (h : 80 * b.val + p.val < 10000) :
    inBlock (C := C) (ix2 ⟨80 * b.val + p.val, h⟩ q) = ix2 p q :=
  congrArg₂ (ix2 (n0 := 80) (n1 := C)) (Fin.ext (by show (80 * b.val + p.val) % 80 = p.val; omega)) (Fin.ext rfl)

/-- At row `80 b + p` the second scratch's specification is place `p` of block `b`'s payload. -/
theorem s2Spec_row (A : Args F) (b : Fin 125) (p : Fin 80) (q : Fin 16) (h : 80 * b.val + p.val < 10000) :
    s2Spec A (ix2 ⟨80 * b.val + p.val, h⟩ q) = k0_pay2 (rowBlock A.adj b) (s1Spec A) A.b1 A.w2 (ix2 p q) := by
  unfold s2Spec; rw [blockOf_row, inBlock_row]
/-- The same for the third scratch. -/
theorem s3Spec_row (A : Args F) (b : Fin 125) (p : Fin 80) (q : Fin 16) (h : 80 * b.val + p.val < 10000) :
    s3Spec A (ix2 ⟨80 * b.val + p.val, h⟩ q) = k0_pay3 (rowBlock A.adj b) (s2Spec A) A.b2 (ix2 p q) := by
  unfold s3Spec; rw [blockOf_row, inBlock_row]

/-! ## The arrays and the windows' blocks -/

variable (m : (ℓ : Loc nD τ sig) → Buf (Elt F) ℓ)

/-- The seven arrays as the region finds them on core `c`: the arguments, the two biases as the reshaped rows. -/
def argsOf (c : Dev nD) : Args F where
  adj := V m c main_arg0
  x := V m c main_arg1
  w1 := V m c main_arg2
  b1 := V m c main_v0
  w2 := V m c main_arg4
  b2 := V m c main_v1
  wd := V m c main_arg6

/-- Each whole-array window's block is its array, at every point. -/
theorem iblk1 (c : Dev nD) (t : Fin cfg0.N) : iblk m c 1 t = (argsOf m c).x := by
  funext y
  show V m c main_arg1 (((cfg0.win 1).blk t).view.emb y) = V m c main_arg1 y
  congr 1; funext a; apply Fin.ext
  show win0_1.index t a * _ + 1 * (y a).val = (y a).val
  rw [index1_eq t a]; omega

end Cert.Kernel.Body

end
-- ==== Proof.Kernel.BodyLoads.lean ====
import proofs.«149746_g67903432950113_cont_9to1_m_218_26_alg».proof.Proof.Kernel.BodySpec
import Idealize.ShloMosaic.Lib.Pipeline.FrameBody
import Idealize.ShloMosaic.Lib.Ring
import Idealize.ShloMosaic.Lib.Tactic
import Idealize.ShloMosaic.Lib.WritesUnit
import Idealize.ShloMosaic.Lib.ValueIdx
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-! ## What the body's loads read

The five other whole-array windows are their arrays at every point, as the second is; the 80 rows the body loads from the
fetched block of 400 adjacency rows are row block `t % 125` of the adjacency matrix; 80 rows loaded from a scratch buffer
are its row block. -/

theorem iblk2 (c : Dev nD) (t : Fin cfg0.N) : iblk m c 2 t = (argsOf m c).w1 := by
  funext y
  show V m c main_arg2 (((cfg0.win 2).blk t).view.emb y) = V m c main_arg2 y
  congr 1; funext a; apply Fin.ext
  show win0_2.index t a * _ + 1 * (y a).val = (y a).val
  rw [index2_eq t a]; omega
theorem iblk3 (c : Dev nD) (t : Fin cfg0.N) : iblk m c 3 t = (argsOf m c).b1 := by
  funext y
  show V m c main_v0 (((cfg0.win 3).blk t).view.emb y) = V m c main_v0 y
  congr 1; funext a; apply Fin.ext
  show win0_3.index t a * _ + 1 * (y a).val = (y a).val
  rw [index3_eq t a]; omega
theorem iblk4 (c : Dev nD) (t : Fin cfg0.N) : iblk m c 4 t = (argsOf m c).w2 := by
  funext y
  show V m c main_arg4 (((cfg0.win 4).blk t).view.emb y) = V m c main_arg4 y
  congr 1; funext a; apply Fin.ext
  show win0_4.index t a * _ + 1 * (y a).val = (y a).val
  rw [index4_eq t a]; omega
theorem iblk5 (c : Dev nD) (t : Fin cfg0.N) : iblk m c 5 t = (argsOf m c).b2 := by
  funext y
  show V m c main_v1 (((cfg0.win 5).blk t).view.emb y) = V m c main_v1 y
  congr 1; funext a; apply Fin.ext
  show win0_5.index t a * _ + 1 * (y a).val = (y a).val
  rw [index5_eq t a]; omega
theorem iblk6 (c : Dev nD) (t : Fin cfg0.N) : iblk m c 6 t = (argsOf m c).wd := by
  funext y
  show V m c main_arg6 (((cfg0.win 6).blk t).view.emb y) = V m c main_arg6 y
  congr 1; funext a; apply Fin.ext
  show win0_6.index t a * _ + 1 * (y a).val = (y a).val
  rw [index6_eq t a]; omega

/-- Rows `[80 b, 80 b + 80)` loaded from an array of 10000 rows: its row block `b`. -/
theorem ld_rows {C : ℕ} {α : EltTy → Type} {e : EltTy} (X : (⟨2, ![10000, C]⟩ : Shape).Idx → α e) (b : Fin 125) (off : Fin 2 → ℕ)
    (hoff : off = ![80 * b.val, 0]) (inb : ∀ a, off a + (![80, C] : Fin 2 → ℕ) a ≤ (⟨2, ![10000, C]⟩ : Shape).size a) :
    View.ld X (Rect.unit (s := ⟨2, ![10000, C]⟩) off ![80, C] inb) = rowBlock X b := by
  subst hoff; funext x
  show X _ = X _
  congr 1; funext a; apply Fin.ext
  match a with
  | ⟨0, _⟩ => show 80 * b.val + 1 * (x 0).val = 80 * b.val + (x 0).val; omega
  | ⟨1, _⟩ => show 0 + 1 * (x 1).val = (x 1).val; omega

/-- The adjacency rows the body loads at a point of phase 0 or 1: row block `t % 125` of the adjacency matrix (the fetched
    block is block `(t % 125) / 5` of 400 rows, the load starts at its row `80 (t % 5)`). -/
theorem ld_adj (c : Dev nD) (t : Fin cfg0.N) (ht : t.val < 250) (off : Fin 2 → ℕ) (hoff : off = ![80 * (t.val % 5), 0])
    (inb : ∀ a, off a + (![80, 10000] : Fin 2 → ℕ) a ≤ S400x10000.size a) :
    View.ld (iblk m c 0 t) (Rect.unit (s := S400x10000) off ![80, 10000] inb)
      = rowBlock (argsOf m c).adj ⟨t.val % 125, Nat.mod_lt _ (by decide)⟩ := by
  subst hoff; funext x
  show V m c main_arg0 (((cfg0.win 0).blk t).view.emb _) = V m c main_arg0 _
  congr 1; funext a; apply Fin.ext
  match a with
  | ⟨0, _⟩ =>
    show win0_0.index t 0 * 400 + 1 * (80 * (t.val % 5) + 1 * (x 0).val) = 80 * (t.val % 125) + (x 0).val
    rw [(index0_eq t ht).1]; omega
  | ⟨1, _⟩ =>
    show win0_0.index t 1 * 10000 + 1 * (0 + 1 * (x 1).val) = (x 1).val
    rw [(index0_eq t ht).2]; omega

end Cert.Kernel.Body

end
-- ==== Proof.Kernel.BodySteps.lean ====
import proofs.«149746_g67903432950113_cont_9to1_m_218_26_alg».proof.Proof.Kernel.BodyPieces
import proofs.«149746_g67903432950113_cont_9to1_m_218_26_alg».proof.Proof.Kernel.BodyLoads
import Idealize.ShloMosaic.Lib.Pipeline.FrameBody
import Idealize.ShloMosaic.Lib.Ring
import Idealize.ShloMosaic.Lib.Tactic
import Idealize.ShloMosaic.Lib.WritesUnit
import Idealize.ShloMosaic.Lib.ValueIdx
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The staging and scratch memrefs the body is called with -/

abbrev ms0 (t : Fin cfg0.N) : Memref sig .tc .vmem S400x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64x16 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x16 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S16x16 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S80x10000 .f32 := win0_7.stage (cfg0.slots t 7)
abbrev hs7 (t : Fin cfg0.N) : (ms7 t).IsWhole := hstage0_7 ((cfg0.slots t 7).cast nbuf0_7)
/-- The three scratch operands: whole scoped buffers of the kernel's own. -/
abbrev scM0 : Memref sig .tc .vmem S64x10000 .f32 := Memref.whole cc0_scratch0
abbrev scM1 : Memref sig .tc .vmem S10000x16 .f32 := Memref.whole cc0_scratch1
abbrev scM2 : Memref sig .tc .vmem S10000x16 .f32 := Memref.whole cc0_scratch2
abbrev hsc0 : (scM0 : Memref sig .tc .vmem S64x10000 .f32).IsWhole := Memref.isWhole_whole _
abbrev hsc1 : (scM1 : Memref sig .tc .vmem S10000x16 .f32).IsWhole := Memref.isWhole_whole _
abbrev hsc2 : (scM2 : Memref sig .tc .vmem S10000x16 .f32).IsWhole := Memref.isWhole_whole _

/-- The class invariant with the three scratch operands as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-! ## Storing 80 rows -/

/-- One store covering a whole rank-2 buffer leaves its payload, whatever the buffer held. -/
theorem read_writes_whole {κ : Kind} {sp : Space} {d : Fin 2 → ℕ} (v : View sig κ sp (⟨2, d⟩ : Shape) .f32) (f : v.ty.Contents (Elt F))
    (inb : ∀ a, (![0, 0] : Fin 2 → ℕ) a + d a ≤ d a) (w : (⟨2, d⟩ : Shape).Idx → Elt F .f32) :
    v.read (Elt F) (v.writes (Elt F) f [(⟨Rect.unit (s := ⟨2, d⟩) ![0, 0] d inb, w⟩ : View.Piece (Elt F) (⟨2, d⟩ : Shape) .f32)]) = w :=
  (View.read_writes_eq_canon v f _ (fun y => ⟨_, List.mem_singleton_self _, View.mem_set_unit_zero zeros2 inb y⟩)).trans
    (View.canon_unit_zero zeros2 inb w)

/-- A buffer of 10000 rows whose rows below `80 b` already agree with `G`, after a store of rows `[80 b, 80 b + 80)` whose
    payload is `G` on those rows, agrees with `G` on the rows below `80 (b + 1)`. -/
theorem rows_store (M : Memref sig .tc .vmem S10000x16 .f32) (hM : M.IsWhole) (s G : Vec F S10000x16 .f32) (off : Fin 2 → ℕ) (b : ℕ)
    (hb : b < 125) (hoff : off = ![80 * b, 0]) (inb : ∀ a : Fin 2, off a + (![80, 16] : Fin 2 → ℕ) a ≤ (![10000, 16] : Fin 2 → ℕ) a)
    (w : (Rect.unit (s := S10000x16) off ![80, 16] inb).shape.Idx → Elt F .f32)
    (hold : ∀ y : S10000x16.Idx, (y 0).val < 80 * b → s y = G y)
    (hnew : ∀ (p : Fin 80) (q : Fin 16), w (ix2 p q) = G (ix2 ⟨80 * b + p.val, by omega⟩ q)) :
    ∀ y : S10000x16.Idx, (y 0).val < 80 * (b + 1) →
      M.view.read (Elt F) (M.view.writes (Elt F) (hM.unread s) [(⟨Rect.unit (s := S10000x16) off ![80, 16] inb, w⟩ : View.Piece (Elt F) S10000x16 .f32)]) y = G y := by
  intro y hy
  by_cases h : (y 0).val < 80 * b
  · rw [View.read_writes_cons_rows_of_not_mem M.view _ inb w [] y hoff rfl (Or.inl h)]
    rw [View.writes_nil, hM.read_unread]; exact hold y h
  · have hx0 : (y 0).val - 80 * b < 80 := by omega
    rw [View.read_writes_cons_rows_of_mem M.view _ inb w [] y (ix2 (n0 := 80) (n1 := 16) ⟨(y 0).val - 80 * b, hx0⟩ ⟨(y 1).val, idx2_lt1 y⟩) hoff
      (by show (y 0).val = 80 * b + ((y 0).val - 80 * b); omega) rfl]
    rw [hnew]; congr 1
    funext a; apply Fin.ext
    match a with
    | ⟨0, _⟩ => show 80 * b + ((y 0).val - 80 * b) = (y 0).val; omega
    | ⟨1, _⟩ => rfl

/-! ## The invariant: the rows written so far

Before point `n`: the rows of the second scratch below `80 n` and the rows `y` of the third with `y + 10000 < 80 n` hold
their specification (from point 125 on that is all of the second, from point 250 on all of the third). -/

def Inv (A : Args F) (n : ℕ) (s2 s3 : Vec F S10000x16 .f32) : Prop :=
  (∀ y : S10000x16.Idx, (y 0).val < 80 * n → s2 y = s2Spec A y)
    ∧ (∀ y : S10000x16.Idx, (y 0).val + 10000 < 80 * n → s3 y = s3Spec A y)

/-- From point 125 on the second scratch is its specification. -/
theorem Inv.s2_eq {A : Args F} {n : ℕ} {s2 s3 : Vec F S10000x16 .f32} (h : Inv A n s2 s3) (hn : 125 ≤ n) : s2 = s2Spec A :=
  funext fun y => h.1 y (by have := idx2_lt0 y; omega)
/-- From point 250 on the third scratch is its specification. -/
theorem Inv.s3_eq {A : Args F} {n : ℕ} {s2 s3 : Vec F S10000x16 .f32} (h : Inv A n s2 s3) (hn : 250 ≤ n) : s3 = s3Spec A :=
  funext fun y => h.2 y (by have := idx2_lt0 y; omega)
/-- Once both are complete the invariant holds at every later point. -/
theorem Inv.succ_of_full {A : Args F} {n : ℕ} {s2 s3 : Vec F S10000x16 .f32} (h : Inv A n s2 s3) (hn : 250 ≤ n) : Inv A (n + 1) s2 s3 :=
  ⟨fun y _ => h.1 y (by have := idx2_lt0 y; omega), fun y _ => h.2 y (by have := idx2_lt0 y; omega)⟩

/-- The row block of a point. -/
abbrev blk125 (t : Fin cfg0.N) : Fin 125 := ⟨t.val % 125, Nat.mod_lt _ (by decide)⟩

/-- The rows the point stores into a scratch start at `80 (t % 125)`. -/
theorem off2_at (t : Fin cfg0.N) : k0_off2 (grid0.coords t) = ![80 * (blk125 t).val, 0] := by
  rw [k0_off2_eq, coord1]
theorem off4_at (t : Fin cfg0.N) : k0_off4 (grid0.coords t) = ![80 * (blk125 t).val, 0] := by
  rw [k0_off4_eq, coord1]
theorem off5_at (t : Fin cfg0.N) : k0_off5 (grid0.coords t) = ![80 * (blk125 t).val, 0] := by
  rw [k0_off5_eq, coord1]

/-- What the second scratch holds after a point of phase 0 that found it at `s2` (case B's store over `s2`). -/
def newS2B (c : Dev nD) (t : Fin cfg0.N) (hc1 : ¬condA (grid0.coords t)) (hc2 : cond2 (grid0.coords t)) (hc3 : ¬cond3 (grid0.coords t)) (hc4 : ¬cond4 (grid0.coords t))
    (s1 : Vec F S64x10000 .f32) (s2 : Vec F S10000x16 .f32) : Vec F S10000x16 .f32 :=
  scM1.view.read (Elt F) (scM1.view.writes (Elt F) (hsc1.unread s2)
    (kernelRunB c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 hsc0 scM1 hsc1 scM2 hsc2 hc1 hc2 hc3 hc4 (iblk m c 0 t) (iblk m c 3 t) (iblk m c 4 t) s1 s2).1)

/-- The step of phase 0 after its first point: the invariant moves one row block on. -/
theorem stepB (c : Dev nD) (t : Fin cfg0.N) (ht : t.val < 125) (hc1 : ¬condA (grid0.coords t)) (hc2 : cond2 (grid0.coords t)) (hc3 : ¬cond3 (grid0.coords t)) (hc4 : ¬cond4 (grid0.coords t))
    (s2 s3 : Vec F S10000x16 .f32) (h : Inv (argsOf m c) t.val s2 s3) :
    Inv (argsOf m c) (t.val + 1) (newS2B m c t hc1 hc2 hc3 hc4 (s1Spec (argsOf m c)) s2) s3 := by
  have hb : (blk125 t).val = t.val := Nat.mod_eq_of_lt ht
  refine ⟨fun y hy => ?_, fun y hy => by exfalso; omega⟩
  unfold newS2B
  rw [runB_pieces]
  refine rows_store scM1 hsc1 s2 (s2Spec (argsOf m c)) _ (blk125 t).val (blk125 t).isLt (off2_at t) _ _
    (fun y hy => h.1 y (by omega)) (fun p q => ?_) y (by omega)
  rw [s2Spec_row (argsOf m c) (blk125 t) p q, ld_adj m c t (by omega) _ (off1_eq t), iblk3, iblk4]

/-- What the second scratch holds after the first point, which found it at `d1`. -/
def newS2A (c : Dev nD) (t : Fin cfg0.N) (hc1 : condA (grid0.coords t)) (hc2 : cond2 (grid0.coords t)) (hc3 : ¬cond3 (grid0.coords t)) (hc4 : ¬cond4 (grid0.coords t))
    (d1 : Vec F S10000x16 .f32) : Vec F S10000x16 .f32 :=
  scM1.view.read (Elt F) (scM1.view.writes (Elt F) (hsc1.unread d1)
    (kernelRunA c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 hsc0 scM1 hsc1 scM2 hsc2 hc1 hc2 hc3 hc4 (iblk m c 0 t) (iblk m c 1 t) (iblk m c 2 t) (iblk m c 3 t) (iblk m c 4 t) d1).2.1)

/-- The first point leaves the first scratch at `(x · W1)ᵀ`, whatever it held, -/
theorem coverA (c : Dev nD) (t : Fin cfg0.N) (hc1 : condA (grid0.coords t)) (hc2 : cond2 (grid0.coords t)) (hc3 : ¬cond3 (grid0.coords t)) (hc4 : ¬cond4 (grid0.coords t))
    (d1 : Vec F S10000x16 .f32) (f : scM0.view.ty.Contents (Elt F)) :
    scM0.view.read (Elt F) (scM0.view.writes (Elt F) f
      (kernelRunA c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 hsc0 scM1 hsc1 scM2 hsc2 hc1 hc2 hc3 hc4 (iblk m c 0 t) (iblk m c 1 t) (iblk m c 2 t) (iblk m c 3 t) (iblk m c 4 t) d1).1)
      = s1Spec (argsOf m c) := by
  rw [runA_pieces10, read_writes_whole, iblk1, iblk2]; rfl

/-- and the invariant at point 1: the first row block of the second scratch. -/
theorem stepA (c : Dev nD) (t : Fin cfg0.N) (h0 : t.val = 0) (hc1 : condA (grid0.coords t)) (hc2 : cond2 (grid0.coords t)) (hc3 : ¬cond3 (grid0.coords t)) (hc4 : ¬cond4 (grid0.coords t))
    (d1 d2 : Vec F S10000x16 .f32) :
    Inv (argsOf m c) (t.val + 1) (newS2A m c t hc1 hc2 hc3 hc4 d1) d2 := by
  have hb : (blk125 t).val = 0 := by show t.val % 125 = 0; omega
  refine ⟨fun y hy => ?_, fun y hy => by exfalso; omega⟩
  unfold newS2A
  rw [runA_pieces11]
  refine rows_store scM1 hsc1 d1 (s2Spec (argsOf m c)) _ (blk125 t).val (blk125 t).isLt (off2_at t) _ _
    (fun y hy => by exfalso; omega) (fun p q => ?_) y (by omega)
  rw [s2Spec_row (argsOf m c) (blk125 t) p q, ld_adj m c t (by omega) _ (off1_eq t), iblk3, iblk4, iblk1, iblk2]; rfl

/-- What the third scratch holds after a point of phase 1 that found it at `s3`. -/
def newS3C (c : Dev nD) (t : Fin cfg0.N) (hc1 : ¬condA (grid0.coords t)) (hc2 : ¬cond2 (grid0.coords t)) (hc3 : cond3 (grid0.coords t)) (hc4 : ¬cond4 (grid0.coords t))
    (s2 s3 : Vec F S10000x16 .f32) : Vec F S10000x16 .f32 :=
  scM2.view.read (Elt F) (scM2.view.writes (Elt F) (hsc2.unread s3)
    (kernelRunC c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 hsc0 scM1 hsc1 scM2 hsc2 hc1 hc2 hc3 hc4 (iblk m c 0 t) (iblk m c 5 t) s2 s3).1)

/-- The step of phase 1: the second scratch is complete and untouched, the third moves one row block on. -/
theorem stepC (c : Dev nD) (t : Fin cfg0.N) (ht : 125 ≤ t.val) (ht2 : t.val < 250) (hc1 : ¬condA (grid0.coords t)) (hc2 : ¬cond2 (grid0.coords t)) (hc3 : cond3 (grid0.coords t)) (hc4 : ¬cond4 (grid0.coords t))
    (s2 s3 : Vec F S10000x16 .f32) (h : Inv (argsOf m c) t.val s2 s3) :
    Inv (argsOf m c) (t.val + 1) s2 (newS3C m c t hc1 hc2 hc3 hc4 s2 s3) := by
  have hb : (blk125 t).val = t.val - 125 := by show t.val % 125 = _; omega
  have hs2 := h.s2_eq ht
  refine ⟨fun y _ => h.1 y (by have := idx2_lt0 y; omega), fun y hy => ?_⟩
  unfold newS3C
  rw [runC_pieces]
  refine rows_store scM2 hsc2 s3 (s3Spec (argsOf m c)) _ (blk125 t).val (blk125 t).isLt (off4_at t) _ _
    (fun y hy => h.2 y (by omega)) (fun p q => ?_) y (by omega)
  rw [s3Spec_row (argsOf m c) (blk125 t) p q, ld_adj m c t ht2 _ (off3_eq t), iblk5, hs2]

/-- What a point of phase 2 leaves in the output window's buffer: output block `t % 125`. -/
def outAt (c : Dev nD) (t : Fin cfg0.N) : Vec F S80x10000 .f32 := outSpec (argsOf m c) (blk125 t)

/-- The step of phase 2: the third scratch is complete, and the one store covers the output block with its specification. -/
theorem coverD (c : Dev nD) (t : Fin cfg0.N) (ht : 250 ≤ t.val) (hc1 : ¬condA (grid0.coords t)) (hc2 : ¬cond2 (grid0.coords t)) (hc3 : ¬cond3 (grid0.coords t)) (hc4 : cond4 (grid0.coords t))
    (s2 s3 : Vec F S10000x16 .f32) (h : Inv (argsOf m c) t.val s2 s3) (f : (ms7 t).view.ty.Contents (Elt F)) :
    (ms7 t).view.read (Elt F) ((ms7 t).view.writes (Elt F) f
      (kernelRunD c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 hsc0 scM1 hsc1 scM2 hsc2 hc1 hc2 hc3 hc4 (iblk m c 6 t) s3).1) = outAt m c t := by
  rw [runD_pieces, read_writes_whole, ld_rows s3 (blk125 t) _ (off5_at t), iblk6, h.s3_eq ht]; rfl

end Cert.Kernel.Body

end
-- ==== Proof.Kernel.BodyData.lean ====
import proofs.«149746_g67903432950113_cont_9to1_m_218_26_alg».proof.Proof.Kernel.BodySteps
import Idealize.ShloMosaic.Lib.Pipeline.FrameBody
import Idealize.ShloMosaic.Lib.Ring
import Idealize.ShloMosaic.Lib.Tactic
import Idealize.ShloMosaic.Lib.WritesUnit
import Idealize.ShloMosaic.Lib.ValueIdx
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The region invariant point by point -/

/-- Before the first point the class invariant (every scratch at anything); before point `n + 1` the first scratch at
    `(x · W1)ᵀ` and the other two at contents whose rows written so far hold their specification. -/
def PhiS (c : Dev nD) : (n : ℕ) → n ≤ cfg0.N → sProp 𝕄
  | 0, _ => Pipeline.ΦA spec0 c
  | n + 1, _ => iprop(iprop(owns (c : Thread nD τ) scM0 fullShare (s1Spec (argsOf m c))
      ∗ (∃ s2, ∃ s3, ⌜Inv (argsOf m c) (n + 1) s2 s3⌝ ∗ owns (c : Thread nD τ) scM1 fullShare s2 ∗ owns (c : Thread nD τ) scM2 fullShare s3))
      ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare (s1Spec (argsOf m c))
      ∗ (∃ s2, ∃ s3, ⌜Inv (argsOf m c) (n + 1) s2 s3⌝ ∗ owns (c : Thread nD τ) scM1 fullShare s2 ∗ owns (c : Thread nD τ) scM2 fullShare s3))
      ∗ (∃ r, prngReg c r)) := rfl

theorem PhiS_pos (c : Dev nD) (n : ℕ) (h : n ≤ cfg0.N) (hz : n ≠ 0) :
    PhiS m c n h = iprop(iprop(owns (c : Thread nD τ) scM0 fullShare (s1Spec (argsOf m c))
      ∗ (∃ s2, ∃ s3, ⌜Inv (argsOf m c) n s2 s3⌝ ∗ owns (c : Thread nD τ) scM1 fullShare s2 ∗ owns (c : Thread nD τ) scM2 fullShare s3))
      ∗ (∃ r, prngReg c r)) := by
  cases n with
  | zero => exact absurd rfl hz
  | succ n => rfl

/-! ## The pipeline's proof data -/

/-- The arrays as the region finds them; after the body each input's buffer at its block and the output's at output block
    `t % 125` (consulted only in phase 2, where the body stores it); the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

theorem leaves_in0 (c : Dev nD) (t : Fin cfg0.N) :
    (dats m 0 c).leavesExact 0 t = owns (c : Thread nD τ) (ms0 t) fullShare (iblk m c 0 t) := by
  unfold Dat.leavesExact; rw [liveAt0 t, after0_0]
theorem leaves_in1 (c : Dev nD) (t : Fin cfg0.N) :
    (dats m 0 c).leavesExact 1 t = owns (c : Thread nD τ) (ms1 t) fullShare (iblk m c 1 t) := by
  unfold Dat.leavesExact; rw [liveAt1 t, after0_1]
theorem leaves_in2 (c : Dev nD) (t : Fin cfg0.N) :
    (dats m 0 c).leavesExact 2 t = owns (c : Thread nD τ) (ms2 t) fullShare (iblk m c 2 t) := by
  unfold Dat.leavesExact; rw [liveAt2 t, after0_2]
theorem leaves_in3 (c : Dev nD) (t : Fin cfg0.N) :
    (dats m 0 c).leavesExact 3 t = owns (c : Thread nD τ) (ms3 t) fullShare (iblk m c 3 t) := by
  unfold Dat.leavesExact; rw [liveAt3 t, after0_3]
theorem leaves_in4 (c : Dev nD) (t : Fin cfg0.N) :
    (dats m 0 c).leavesExact 4 t = owns (c : Thread nD τ) (ms4 t) fullShare (iblk m c 4 t) := by
  unfold Dat.leavesExact; rw [liveAt4 t, after0_4]
theorem leaves_in5 (c : Dev nD) (t : Fin cfg0.N) :
    (dats m 0 c).leavesExact 5 t = owns (c : Thread nD τ) (ms5 t) fullShare (iblk m c 5 t) := by
  unfold Dat.leavesExact; rw [liveAt5 t, after0_5]
theorem leaves_in6 (c : Dev nD) (t : Fin cfg0.N) :
    (dats m 0 c).leavesExact 6 t = owns (c : Thread nD τ) (ms6 t) fullShare (iblk m c 6 t) := by
  unfold Dat.leavesExact; rw [liveAt6 t, after0_6]
/-- Through phases 0 and 1 the output window's buffer is handed back as found; -/
theorem leaves7_idle (c : Dev nD) (t : Fin cfg0.N) (ht : t.val < 250) :
    (dats m 0 c).leavesExact 7 t = iprop(∃ d, owns (c : Thread nD τ) (ms7 t) fullShare ((dats m 0 c).before 7 t d)) :=
  Dat.leavesExact_idle (dats m 0 c) 7 t (idleAt7 t ht) (noFlush7 t ht)
/-- in phase 2 it is left at the output block. -/
theorem leaves7_live (c : Dev nD) (t : Fin cfg0.N) (ht : 250 ≤ t.val) :
    (dats m 0 c).leavesExact 7 t = owns (c : Thread nD τ) (ms7 t) fullShare (outAt m c t) := by
  unfold Dat.leavesExact; rw [liveAt7 t ht, after0_7]

/-! ## The body obligation, case by case -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
/-- The first point: both scratch stores, from scratch buffers at anything. -/
theorem soundA (c : Dev nD) (t : Fin cfg0.N) (h0 : t.val = 0) :
    bodyPre m c t ⊢ wp frame (wpE (defs₀ (F := F)) Variants.none c none) Set.univ (bodyAt0 t) (fun _ => bodyPost m c t) := by
  have hc1 : condA (grid0.coords t) := (hcondA t).mpr h0
  have hc2 : cond2 (grid0.coords t) := (hcond2 t).mpr (by omega)
  have hc3 : ¬cond3 (grid0.coords t) := fun h => by have := (hcond3 t).mp h; omega
  have hc4 : ¬cond4 (grid0.coords t) := fun h => by have := (hcond4 t).mp h; omega
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [leaves_in0 m c t, leaves_in1 m c t, leaves_in2 m c t, leaves_in3 m c t, leaves_in4 m c t, leaves_in5 m c t, leaves_in6 m c t]
  rw [leaves7_idle m c t (by omega)]
  rw [PhiS_castSucc m c t, PhiS_zero m c _ _ h0, PhiA0_eq]
  iintro ⟨⟨⟨⟨%d0, HS0⟩, ⟨%d1, HS1⟩, ⟨%d2, HS2⟩⟩, Hg⟩, Ho, ⟨%e0, H0⟩, ⟨%e1, H1⟩, ⟨%e2, H2⟩, ⟨%e3, H3⟩, ⟨%e4, H4⟩, ⟨%e5, H5⟩, ⟨%e6, H6⟩, H7⟩
  iapply ((kernelRunA c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 hsc0 scM1 hsc1 scM2 hsc2 hc1 hc2 hc3 hc4 (iblk m c 0 t) (iblk m c 1 t) (iblk m c 2 t) (iblk m c 3 t) (iblk m c 4 t) d1).2.2 Set.univ _)
  isplitl [H0]; · iexact H0
  isplitl [H1]; · iexact H1
  isplitl [H2]; · iexact H2
  isplitl [H3]; · iexact H3
  isplitl [H4]; · iexact H4
  isplitl [HS0]; · iexists _; iexact HS0
  isplitl [HS1]; · iexact HS1
  iintro ⟨H0, H1, H2, H3, H4, ⟨%f10, HS0⟩, HS1⟩
  isplitl [HS0 HS1 HS2 Hg]
  · isplitl [HS0 HS1 HS2]
    · isplitl [HS0]
      · unfold owns; iexists _; isplitr
        swap; · iexact HS0
        ipureintro; exact coverA m c t hc1 hc2 hc3 hc4 d1 _
      iexists (newS2A m c t hc1 hc2 hc3 hc4 d1); iexists d2
      isplitr; · ipureintro; exact stepA m c t h0 hc1 hc2 hc3 hc4 d1 d2
      isplitl [HS1]
      · unfold owns; iexists _; isplitr
        swap; · iexact HS1
        ipureintro; rfl
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 4800000 in
/-- The rest of phase 0: one more row block of the second scratch. -/
theorem soundB (c : Dev nD) (t : Fin cfg0.N) (h1 : t.val ≠ 0) (h2 : t.val < 125) :
    bodyPre m c t ⊢ wp frame (wpE (defs₀ (F := F)) Variants.none c none) Set.univ (bodyAt0 t) (fun _ => bodyPost m c t) := by
  have hc1 : ¬condA (grid0.coords t) := fun h => h1 ((hcondA t).mp h)
  have hc2 : cond2 (grid0.coords t) := (hcond2 t).mpr h2
  have hc3 : ¬cond3 (grid0.coords t) := fun h => by have := (hcond3 t).mp h; omega
  have hc4 : ¬cond4 (grid0.coords t) := fun h => by have := (hcond4 t).mp h; omega
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [leaves_in0 m c t, leaves_in1 m c t, leaves_in2 m c t, leaves_in3 m c t, leaves_in4 m c t, leaves_in5 m c t, leaves_in6 m c t]
  rw [leaves7_idle m c t (by omega)]
  rw [PhiS_castSucc m c t, PhiS_pos m c _ _ h1]
  iintro ⟨⟨⟨HS0, ⟨%s2, %s3, %hinv, HS1, HS2⟩⟩, Hg⟩, Ho, ⟨%e0, H0⟩, ⟨%e1, H1⟩, ⟨%e2, H2⟩, ⟨%e3, H3⟩, ⟨%e4, H4⟩, ⟨%e5, H5⟩, ⟨%e6, H6⟩, H7⟩
  iapply ((kernelRunB c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 hsc0 scM1 hsc1 scM2 hsc2 hc1 hc2 hc3 hc4 (iblk m c 0 t) (iblk m c 3 t) (iblk m c 4 t) (s1Spec (argsOf m c)) s2).2 Set.univ _)
  isplitl [H0]; · iexact H0
  isplitl [H3]; · iexact H3
  isplitl [H4]; · iexact H4
  isplitl [HS0]; · iexact HS0
  isplitl [HS1]; · iexact HS1
  iintro ⟨H0, H3, H4, HS0, HS1⟩
  isplitl [HS0 HS1 HS2 Hg]
  · isplitl [HS0 HS1 HS2]
    · isplitl [HS0]; · iexact HS0
      iexists (newS2B m c t hc1 hc2 hc3 hc4 (s1Spec (argsOf m c)) s2); iexists s3
      isplitr; · ipureintro; exact stepB m c t h2 hc1 hc2 hc3 hc4 s2 s3 hinv
      isplitl [HS1]
      · unfold owns; iexists _; isplitr
        swap; · iexact HS1
        ipureintro; rfl
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 4800000 in
/-- Phase 1: one more row block of the third scratch, from the complete second. -/
theorem soundC (c : Dev nD) (t : Fin cfg0.N) (h2 : 125 ≤ t.val) (h3 : t.val < 250) :
    bodyPre m c t ⊢ wp frame (wpE (defs₀ (F := F)) Variants.none c none) Set.univ (bodyAt0 t) (fun _ => bodyPost m c t) := by
  have hc1 : ¬condA (grid0.coords t) := fun h => by have := (hcondA t).mp h; omega
  have hc2 : ¬cond2 (grid0.coords t) := fun h => by have := (hcond2 t).mp h; omega
  have hc3 : cond3 (grid0.coords t) := (hcond3 t).mpr ⟨h2, h3⟩
  have hc4 : ¬cond4 (grid0.coords t) := fun h => by have := (hcond4 t).mp h; omega
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [leaves_in0 m c t, leaves_in1 m c t, leaves_in2 m c t, leaves_in3 m c t, leaves_in4 m c t, leaves_in5 m c t, leaves_in6 m c t]
  rw [leaves7_idle m c t h3]
  rw [PhiS_castSucc m c t, PhiS_pos m c _ _ (by omega)]
  iintro ⟨⟨⟨HS0, ⟨%s2, %s3, %hinv, HS1, HS2⟩⟩, Hg⟩, Ho, ⟨%e0, H0⟩, ⟨%e1, H1⟩, ⟨%e2, H2⟩, ⟨%e3, H3⟩, ⟨%e4, H4⟩, ⟨%e5, H5⟩, ⟨%e6, H6⟩, H7⟩
  iapply ((kernelRunC c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 hsc0 scM1 hsc1 scM2 hsc2 hc1 hc2 hc3 hc4 (iblk m c 0 t) (iblk m c 5 t) s2 s3).2 Set.univ _)
  isplitl [H0]; · iexact H0
  isplitl [H5]; · iexact H5
  isplitl [HS1]; · iexact HS1
  isplitl [HS2]; · iexact HS2
  iintro ⟨H0, H5, HS1, HS2⟩
  isplitl [HS0 HS1 HS2 Hg]
  · isplitl [HS0 HS1 HS2]
    · isplitl [HS0]; · iexact HS0
      iexists s2; iexists (newS3C m c t hc1 hc2 hc3 hc4 s2 s3)
      isplitr; · ipureintro; exact stepC m c t h2 h3 hc1 hc2 hc3 hc4 s2 s3 hinv
      isplitl [HS1]; · iexact HS1
      unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 4800000 in
/-- Phase 2: the output block, from the complete third scratch. -/
theorem soundD (c : Dev nD) (t : Fin cfg0.N) (h3 : 250 ≤ t.val) :
    bodyPre m c t ⊢ wp frame (wpE (defs₀ (F := F)) Variants.none c none) Set.univ (bodyAt0 t) (fun _ => bodyPost m c t) := by
  have hc1 : ¬condA (grid0.coords t) := fun h => by have := (hcondA t).mp h; omega
  have hc2 : ¬cond2 (grid0.coords t) := fun h => by have := (hcond2 t).mp h; omega
  have hc3 : ¬cond3 (grid0.coords t) := fun h => by have := (hcond3 t).mp h; omega
  have hc4 : cond4 (grid0.coords t) := (hcond4 t).mpr h3
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [leaves_in0 m c t, leaves_in1 m c t, leaves_in2 m c t, leaves_in3 m c t, leaves_in4 m c t, leaves_in5 m c t, leaves_in6 m c t]
  rw [leaves7_live m c t h3]
  rw [PhiS_castSucc m c t, PhiS_pos m c _ _ (by omega)]
  iintro ⟨⟨⟨HS0, ⟨%s2, %s3, %hinv, HS1, HS2⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
  iapply ((kernelRunD c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 hsc0 scM1 hsc1 scM2 hsc2 hc1 hc2 hc3 hc4 (iblk m c 6 t) s3).2 Set.univ _)
  isplitl [H6]; · iexact H6
  isplitl [H7]; · iexists _; iexact H7
  isplitl [HS2]; · iexact HS2
  iintro ⟨H6, ⟨%f9, H7⟩, HS2⟩
  isplitl [HS0 HS1 HS2 Hg]
  · isplitl [HS0 HS1 HS2]
    · isplitl [HS0]; · iexact HS0
      iexists s2; iexists s3
      isplitr; · ipureintro; exact hinv.succ_of_full h3
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact coverD m c t h3 hc1 hc2 hc3 hc4 s2 s3 hinv _

/-- The body at any point: the point is in exactly one of the four cases. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact soundA m c t h0
  · by_cases h2 : t.val < 125
    · exact soundB m c t h0 h2
    · by_cases h3 : t.val < 250
      · exact soundC m c t (by omega) h3
      · exact soundD m c t (by omega)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class invariant back: the scratch contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 375 := N_0; omega), PhiA0_eq]
  iintro ⟨⟨HS0, ⟨%s2, %s3, -, HS1, HS2⟩⟩, Hg⟩
  isplitl [HS0 HS1 HS2]
  · isplitl [HS0]; · iexists _; iexact HS0
    isplitl [HS1]; · iexists _; iexact HS1
    iexists _; iexact HS2
  iexact Hg

/-! ## The run and the frame -/

set_option backward.isDefEq.respectTransparency.types false in
/-- Every weakly fair execution of @main terminates, and every final state has every array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: @main runs to the end without a fault and leaves its seven arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Body

end
-- ==== Proof.KernelIdeal.BodyRuns.lean ====
import proofs.«149746_g67903432950113_cont_9to1_m_218_26_alg».proof.Proof.Gen.KernelIdeal.Frame
import proofs.«149746_g67903432950113_cont_9to1_m_218_26_alg».proof.Proof.Gen.KernelIdeal.Skeleton
import Idealize.ShloMosaic.Lib.Pipeline.FrameBody
import Idealize.ShloMosaic.Lib.Ring
import Idealize.ShloMosaic.Lib.Tactic
import Idealize.ShloMosaic.Lib.WritesUnit

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's four branch conditions

The kernel body is four conditionals on the grid point `(p, i)`: the first holds at `(0, 0)` only, the second on
phase `p = 0`, the third on `p = 1`, the fourth on `p = 2`. A point meets exactly one of four cases: A (the first
point: branches one and two), B (the rest of phase 0: branch two), C (phase 1: branch three), D (phase 2: branch four). -/

/-- The first branch's condition: the point is the grid's first. -/
abbrev condA (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The second branch's condition: phase 0. -/
abbrev cond2 (i : grid0.Coords) : Prop := k0_cond2 i = 1#1
/-- The third branch's condition: phase 1. -/
abbrev cond3 (i : grid0.Coords) : Prop := k0_cond3 i = 1#1
/-- The fourth branch's condition: phase 2. -/
abbrev cond4 (i : grid0.Coords) : Prop := k0_cond4 i = 1#1

/-! ## The body run case by case

Each run is stated over the buffers its case touches and nothing else; the pieces each stored buffer ends with are found by
the run. A buffer stored whole ends at its pieces over anything; a buffer stored in part (80 rows of the 10000) ends at
its pieces over the contents it was handed. -/

set_option maxHeartbeats 1000000 in
/-- Case A, the first point: the first-layer support `(x · W1)ᵀ` is stored whole into the first scratch, then rows
    `[0, 80)` of the second scratch are stored from it. -/
noncomputable def kernelRunA (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S80x10000 .f32) (harg9 : arg9.IsWhole) (arg10 : Memref sig .tc .vmem S64x10000 .f32) (harg10 : arg10.IsWhole) (arg11 : Memref sig .tc .vmem S10000x16 .f32) (harg11 : arg11.IsWhole) (arg12 : Memref sig .tc .vmem S10000x16 .f32) (harg12 : arg12.IsWhole)
    (hc1 : condA i) (hc2 : cond2 i) (hc3 : ¬cond3 i) (hc4 : ¬cond4 i)
    (x0 : Vec F S400x10000 .f32) (x1 : Vec F S10000x128 .f32) (x2 : Vec F S128x64 .f32) (x3 : Vec F S1x64 .f32) (x4 : Vec F S64x16 .f32)
    (s2 : Vec F S10000x16 .f32) :
    Σ' (L10 : List (View.Piece (Elt F) S64x10000 .f32)), { L11 : List (View.Piece (Elt F) S10000x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ (∃ d, owns (c : Thread nD τ) arg10 fullShare d) ∗ owns (c : Thread nD τ) arg11 fullShare s2
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ (∃ f, arg10.view.loc (c : Thread nD τ) ↦[arg10.view.set]{fullShare} arg10.view.writes (Elt F) f L10)
                ∗ (arg11.view.loc (c : Thread nD τ) ↦[arg11.view.set]{fullShare} arg11.view.writes (Elt F) (harg11.unread s2) L11)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d10, %f10, -, H10⟩, ⟨%f11, %hf11, H11⟩, Hk⟩
    obtain rfl := harg2.eq_unread hf0; obtain rfl := harg3.eq_unread hf1; obtain rfl := harg4.eq_unread hf2
    obtain rfl := harg5.eq_unread hf3; obtain rfl := harg6.eq_unread hf4; obtain rfl := harg11.eq_unread hf11
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H10]; · iexists _; iexact H10
    iexact H11

set_option maxHeartbeats 1000000 in
/-- Case B, the rest of phase 0: rows `[80 i, 80 i + 80)` of the second scratch are stored from the adjacency rows, the
    first scratch, the first bias and `W2`. -/
noncomputable def kernelRunB (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S80x10000 .f32) (harg9 : arg9.IsWhole) (arg10 : Memref sig .tc .vmem S64x10000 .f32) (harg10 : arg10.IsWhole) (arg11 : Memref sig .tc .vmem S10000x16 .f32) (harg11 : arg11.IsWhole) (arg12 : Memref sig .tc .vmem S10000x16 .f32) (harg12 : arg12.IsWhole)
    (hc1 : ¬condA i) (hc2 : cond2 i) (hc3 : ¬cond3 i) (hc4 : ¬cond4 i)
    (x0 : Vec F S400x10000 .f32) (x3 : Vec F S1x64 .f32) (x4 : Vec F S64x16 .f32)
    (s1 : Vec F S64x10000 .f32) (s2 : Vec F S10000x16 .f32) :
    { L11 : List (View.Piece (Elt F) S10000x16 .f32) //
      ∀ (E : Set ℕ) (K : PUnit → sProp 𝕄),
        iprop(owns (c : Thread nD τ) arg2 fullShare x0 ∗ owns (c : Thread nD τ) arg5 fullShare x3 ∗ owns (c : Thread nD τ) arg6 fullShare x4
            ∗ owns (c : Thread nD τ) arg10 fullShare s1 ∗ owns (c : Thread nD τ) arg11 fullShare s2
            ∗ (iprop(owns (c : Thread nD τ) arg2 fullShare x0 ∗ owns (c : Thread nD τ) arg5 fullShare x3 ∗ owns (c : Thread nD τ) arg6 fullShare x4
                ∗ owns (c : Thread nD τ) arg10 fullShare s1
                ∗ (arg11.view.loc (c : Thread nD τ) ↦[arg11.view.set]{fullShare} arg11.view.writes (Elt F) (harg11.unread s2) L11)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__gcn_kernel_eq_skeleton]; unfold cc0__gcn_kernel_skel
    unfold owns
    iintro ⟨⟨%f0, %hf0, H0⟩, ⟨%f3, %hf3, H3⟩, ⟨%f4, %hf4, H4⟩, ⟨%f10, %hf10, H10⟩, ⟨%f11, %hf11, H11⟩, Hk⟩
    obtain rfl := harg2.eq_unread hf0; obtain rfl := harg5.eq_unread hf3; obtain rfl := harg6.eq_unread hf4
    obtain rfl := harg10.eq_unread hf10; obtain rfl := harg11.eq_unread hf11
    sl_exec (disch := first | exact hc1 | exact hc2 | exact hc3 | exact hc4)
    sl_step
    iapply Hk
    isplitl [H0]
    · iexists _; isplitr; · ipureintro; exact harg2.read_unread _
      iexact H0
    isplitl [H3]
    · iexists _; isplitr; · ipureintro; exact harg5.read_unread _
      iexact H3
    isplitl [H4]
    · iexists _; isplitr; · ipureintro; exact harg6.read_unread _
      iexact H4
    isplitl [H10]
    · iexists _; isplitr; · ipureintro; exact harg10.read_unread _
      iexact H10
    iexact H11

set_option maxHeartbeats 1000000 in
/-- Case C, phase 1: rows `[80 i, 80 i + 80)` of the third scratch are stored from the adjacency rows, the whole second
    scratch and the second bias. -/
noncomputable def kernelRunC (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S80x10000 .f32) (harg9 : arg9.IsWhole) (arg10 : Memref sig .tc .vmem S64x10000 .f32) (harg10 : arg10.IsWhole) (arg11 : Memref sig .tc .vmem S10000x16 .f32) (harg11 : arg11.IsWhole) (arg12 : Memref sig .tc .vmem S10000x16 .f32) (harg12 : arg12.IsWhole)
    (hc1 : ¬condA i) (hc2 : ¬cond2 i) (hc3 : cond3 i) (hc4 : ¬cond4 i)
    (x0 : Vec F S400x10000 .f32) (x5 : Vec F S1x16 .f32)
    (s2 : Vec F S10000x16 .f32) (s3 : Vec F S10000x16 .f32) :
    { L12 : List (View.Piece (Elt F) S10000x16 .f32) //
      ∀ (E : Set ℕ) (K : PUnit → sProp 𝕄),
        iprop(owns (c : Thread nD τ) arg2 fullShare x0 ∗ owns (c : Thread nD τ) arg7 fullShare x5
            ∗ owns (c : Thread nD τ) arg11 fullShare s2 ∗ owns (c : Thread nD τ) arg12 fullShare s3
            ∗ (iprop(owns (c : Thread nD τ) arg2 fullShare x0 ∗ owns (c : Thread nD τ) arg7 fullShare x5
                ∗ owns (c : Thread nD τ) arg11 fullShare s2
                ∗ (arg12.view.loc (c : Thread nD τ) ↦[arg12.view.set]{fullShare} arg12.view.writes (Elt F) (harg12.unread s3) L12)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__gcn_kernel_eq_skeleton]; unfold cc0__gcn_kernel_skel
    unfold owns
    iintro ⟨⟨%f0, %hf0, H0⟩, ⟨%f5, %hf5, H5⟩, ⟨%f11, %hf11, H11⟩, ⟨%f12, %hf12, H12⟩, Hk⟩
    obtain rfl := harg2.eq_unread hf0; obtain rfl := harg7.eq_unread hf5
    obtain rfl := harg11.eq_unread hf11; obtain rfl := harg12.eq_unread hf12
    sl_exec (disch := first | exact hc1 | exact hc2 | exact hc3 | exact hc4)
    sl_step
    iapply Hk
    isplitl [H0]
    · iexists _; isplitr; · ipureintro; exact harg2.read_unread _
      iexact H0
    isplitl [H5]
    · iexists _; isplitr; · ipureintro; exact harg7.read_unread _
      iexact H5
    isplitl [H11]
    · iexists _; isplitr; · ipureintro; exact harg11.read_unread _
      iexact H11
    iexact H12

set_option maxHeartbeats 1000000 in
/-- Case D, phase 2: the output block is stored whole from rows `[80 i, 80 i + 80)` of the third scratch, `Wd` and the
    whole third scratch. -/
noncomputable def kernelRunD (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S80x10000 .f32) (harg9 : arg9.IsWhole) (arg10 : Memref sig .tc .vmem S64x10000 .f32) (harg10 : arg10.IsWhole) (arg11 : Memref sig .tc .vmem S10000x16 .f32) (harg11 : arg11.IsWhole) (arg12 : Memref sig .tc .vmem S10000x16 .f32) (harg12 : arg12.IsWhole)
    (hc1 : ¬condA i) (hc2 : ¬cond2 i) (hc3 : ¬cond3 i) (hc4 : cond4 i)
    (x6 : Vec F S16x16 .f32) (s3 : Vec F S10000x16 .f32) :
    { L9 : List (View.Piece (Elt F) S80x10000 .f32) //
      ∀ (E : Set ℕ) (K : PUnit → sProp 𝕄),
        iprop(owns (c : Thread nD τ) arg8 fullShare x6 ∗ (∃ d, owns (c : Thread nD τ) arg9 fullShare d) ∗ owns (c : Thread nD τ) arg12 fullShare s3
            ∗ (iprop(owns (c : Thread nD τ) arg8 fullShare x6 ∗ (∃ f, arg9.view.loc (c : Thread nD τ) ↦[arg9.view.set]{fullShare} arg9.view.writes (Elt F) f L9) ∗ owns (c : Thread nD τ) arg12 fullShare s3) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__gcn_kernel_eq_skeleton]; unfold cc0__gcn_kernel_skel
    unfold owns
    iintro ⟨⟨%f6, %hf6, H6⟩, ⟨%d9, %f9, -, H9⟩, ⟨%f12, %hf12, H12⟩, Hk⟩
    obtain rfl := harg8.eq_unread hf6; obtain rfl := harg12.eq_unread hf12
    sl_exec (disch := first | exact hc1 | exact hc2 | exact hc3 | exact hc4)
    sl_step
    iapply Hk
    isplitl [H6]
    · iexists _; isplitr; · ipureintro; exact harg8.read_unread _
      iexact H6
    isplitl [H9]; · iexists _; iexact H9
    iexists _; isplitr; · ipureintro; exact harg12.read_unread _
    iexact H12

end Cert.KernelIdeal.Body

end
-- ==== Proof.KernelIdeal.BodyPieces.lean ====
import proofs.«149746_g67903432950113_cont_9to1_m_218_26_alg».proof.Proof.KernelIdeal.BodyRuns
import Idealize.ShloMosaic.Lib.Pipeline.FrameBody
import Idealize.ShloMosaic.Lib.Ring
import Idealize.ShloMosaic.Lib.Tactic
import Idealize.ShloMosaic.Lib.WritesUnit
import Idealize.ShloMosaic.Lib.ValueIdx
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The pieces each case stores

Each run's witness is one piece per store: the store's rectangle and the payload of what the case loaded — a whole buffer
at its contents, 80 rows at their rectangle of the contents. -/

theorem zeros2 : (![0, 0] : Fin 2 → ℕ) = fun _ => 0 := by
  funext a; match a with | ⟨0, _⟩ => rfl | ⟨1, _⟩ => rfl

/-- Case A stores `(x · W1)ᵀ`, the first payload, over the whole first scratch, -/
theorem runA_pieces10 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S80x10000 .f32) (harg9 : arg9.IsWhole) (arg10 : Memref sig .tc .vmem S64x10000 .f32) (harg10 : arg10.IsWhole) (arg11 : Memref sig .tc .vmem S10000x16 .f32) (harg11 : arg11.IsWhole) (arg12 : Memref sig .tc .vmem S10000x16 .f32) (harg12 : arg12.IsWhole)
    (hc1 : condA i) (hc2 : cond2 i) (hc3 : ¬cond3 i) (hc4 : ¬cond4 i)
    (x0 : Vec F S400x10000 .f32) (x1 : Vec F S10000x128 .f32) (x2 : Vec F S128x64 .f32) (x3 : Vec F S1x64 .f32) (x4 : Vec F S64x16 .f32)
    (s2 : Vec F S10000x16 .f32) :
    (kernelRunA c i arg2 harg2 arg3 harg3 arg4 harg4 arg5 harg5 arg6 harg6 arg7 harg7 arg8 harg8 arg9 harg9 arg10 harg10 arg11 harg11 arg12 harg12 hc1 hc2 hc3 hc4 x0 x1 x2 x3 x4 s2).1
      = [⟨Rect.unit (s := S64x10000) ![0, 0] S64x10000.size inb_S64x10000_S64x10000_0_0, k0_pay1 x1 x2⟩] := by
  unfold kernelRunA; dsimp only
  sl_unfold_run_names
  simp only [View.readAt_eq_ld, harg3.read_unread, harg4.read_unread]
  rw [View.ld_unit_zero (S := S10000x128) zeros2, View.ld_unit_zero (S := S128x64) zeros2]

/-- and then, at rows `k0_off2 i` of the second scratch, the second payload of the 80 adjacency rows and that first
    scratch (read back whole after the store that covers it). -/
theorem runA_pieces11 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S80x10000 .f32) (harg9 : arg9.IsWhole) (arg10 : Memref sig .tc .vmem S64x10000 .f32) (harg10 : arg10.IsWhole) (arg11 : Memref sig .tc .vmem S10000x16 .f32) (harg11 : arg11.IsWhole) (arg12 : Memref sig .tc .vmem S10000x16 .f32) (harg12 : arg12.IsWhole)
    (hc1 : condA i) (hc2 : cond2 i) (hc3 : ¬cond3 i) (hc4 : ¬cond4 i)
    (x0 : Vec F S400x10000 .f32) (x1 : Vec F S10000x128 .f32) (x2 : Vec F S128x64 .f32) (x3 : Vec F S1x64 .f32) (x4 : Vec F S64x16 .f32)
    (s2 : Vec F S10000x16 .f32) :
    (kernelRunA c i arg2 harg2 arg3 harg3 arg4 harg4 arg5 harg5 arg6 harg6 arg7 harg7 arg8 harg8 arg9 harg9 arg10 harg10 arg11 harg11 arg12 harg12 hc1 hc2 hc3 hc4 x0 x1 x2 x3 x4 s2).2.1
      = [⟨Rect.unit (s := S10000x16) (k0_off2 i) ![80, 16] (k0_off2_inb i hc2),
          k0_pay2 (View.ld x0 (Rect.unit (s := S400x10000) (k0_off1 i) ![80, 10000] (k0_off1_inb i hc2))) (k0_pay1 x1 x2) x3 x4⟩] := by
  unfold kernelRunA; dsimp only
  sl_unfold_run_names
  simp only [View.readAt_eq_ld, harg2.read_unread, harg3.read_unread, harg4.read_unread, harg5.read_unread, harg6.read_unread]
  rw [View.ld_unit_zero (S := S10000x128) zeros2, View.ld_unit_zero (S := S128x64) zeros2, View.ld_unit_zero (S := S1x64) zeros2, View.ld_unit_zero (S := S64x16) zeros2]
  rw [View.readCov_unit_zero _ zeros2]

/-- Case B stores, at rows `k0_off2 i` of the second scratch, the second payload of the 80 adjacency rows, the first
    scratch, the first bias row and `W2`. -/
theorem runB_pieces (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S80x10000 .f32) (harg9 : arg9.IsWhole) (arg10 : Memref sig .tc .vmem S64x10000 .f32) (harg10 : arg10.IsWhole) (arg11 : Memref sig .tc .vmem S10000x16 .f32) (harg11 : arg11.IsWhole) (arg12 : Memref sig .tc .vmem S10000x16 .f32) (harg12 : arg12.IsWhole)
    (hc1 : ¬condA i) (hc2 : cond2 i) (hc3 : ¬cond3 i) (hc4 : ¬cond4 i)
    (x0 : Vec F S400x10000 .f32) (x3 : Vec F S1x64 .f32) (x4 : Vec F S64x16 .f32)
    (s1 : Vec F S64x10000 .f32) (s2 : Vec F S10000x16 .f32) :
    (kernelRunB c i arg2 harg2 arg3 harg3 arg4 harg4 arg5 harg5 arg6 harg6 arg7 harg7 arg8 harg8 arg9 harg9 arg10 harg10 arg11 harg11 arg12 harg12 hc1 hc2 hc3 hc4 x0 x3 x4 s1 s2).1
      = [⟨Rect.unit (s := S10000x16) (k0_off2 i) ![80, 16] (k0_off2_inb i hc2),
          k0_pay2 (View.ld x0 (Rect.unit (s := S400x10000) (k0_off1 i) ![80, 10000] (k0_off1_inb i hc2))) s1 x3 x4⟩] := by
  unfold kernelRunB; dsimp only
  simp only [View.readAt_eq_ld, harg2.read_unread, harg10.read_unread, harg5.read_unread, harg6.read_unread]
  rw [View.ld_unit_zero (S := S64x10000) zeros2, View.ld_unit_zero (S := S1x64) zeros2, View.ld_unit_zero (S := S64x16) zeros2]

/-- Case C stores, at rows `k0_off4 i` of the third scratch, the third payload of the 80 adjacency rows, the whole second
    scratch and the second bias row. -/
theorem runC_pieces (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S80x10000 .f32) (harg9 : arg9.IsWhole) (arg10 : Memref sig .tc .vmem S64x10000 .f32) (harg10 : arg10.IsWhole) (arg11 : Memref sig .tc .vmem S10000x16 .f32) (harg11 : arg11.IsWhole) (arg12 : Memref sig .tc .vmem S10000x16 .f32) (harg12 : arg12.IsWhole)
    (hc1 : ¬condA i) (hc2 : ¬cond2 i) (hc3 : cond3 i) (hc4 : ¬cond4 i)
    (x0 : Vec F S400x10000 .f32) (x5 : Vec F S1x16 .f32)
    (s2 : Vec F S10000x16 .f32) (s3 : Vec F S10000x16 .f32) :
    (kernelRunC c i arg2 harg2 arg3 harg3 arg4 harg4 arg5 harg5 arg6 harg6 arg7 harg7 arg8 harg8 arg9 harg9 arg10 harg10 arg11 harg11 arg12 harg12 hc1 hc2 hc3 hc4 x0 x5 s2 s3).1
      = [⟨Rect.unit (s := S10000x16) (k0_off4 i) ![80, 16] (k0_off4_inb i hc3),
          k0_pay3 (View.ld x0 (Rect.unit (s := S400x10000) (k0_off3 i) ![80, 10000] (k0_off3_inb i hc3))) s2 x5⟩] := by
  unfold kernelRunC; dsimp only
  simp only [View.readAt_eq_ld, harg2.read_unread, harg11.read_unread, harg7.read_unread]
  rw [View.ld_unit_zero (S := S10000x16) zeros2, View.ld_unit_zero (S := S1x16) zeros2]

/-- Case D stores, over the whole output block, the fourth payload of rows `k0_off5 i` of the third scratch, `Wd` and the
    whole third scratch. -/
theorem runD_pieces (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S80x10000 .f32) (harg9 : arg9.IsWhole) (arg10 : Memref sig .tc .vmem S64x10000 .f32) (harg10 : arg10.IsWhole) (arg11 : Memref sig .tc .vmem S10000x16 .f32) (harg11 : arg11.IsWhole) (arg12 : Memref sig .tc .vmem S10000x16 .f32) (harg12 : arg12.IsWhole)
    (hc1 : ¬condA i) (hc2 : ¬cond2 i) (hc3 : ¬cond3 i) (hc4 : cond4 i)
    (x6 : Vec F S16x16 .f32) (s3 : Vec F S10000x16 .f32) :
    (kernelRunD c i arg2 harg2 arg3 harg3 arg4 harg4 arg5 harg5 arg6 harg6 arg7 harg7 arg8 harg8 arg9 harg9 arg10 harg10 arg11 harg11 arg12 harg12 hc1 hc2 hc3 hc4 x6 s3).1
      = [⟨Rect.unit (s := S80x10000) ![0, 0] S80x10000.size inb_S80x10000_S80x10000_0_0,
          k0_pay4 (View.ld s3 (Rect.unit (s := S10000x16) (k0_off5 i) ![80, 16] (k0_off5_inb i hc4))) x6 s3⟩] := by
  unfold kernelRunD; dsimp only
  simp only [View.readAt_eq_ld, harg12.read_unread, harg8.read_unread]
  rw [View.ld_unit_zero (S := S16x16) zeros2, View.ld_unit_zero (S := S10000x16) zeros2]

end Cert.KernelIdeal.Body

end
-- ==== Proof.KernelIdeal.BodySchedule.lean ====
import proofs.«149746_g67903432950113_cont_9to1_m_218_26_alg».proof.Proof.KernelIdeal.BodyRuns
import Idealize.ShloMosaic.Lib.Pipeline.FrameBody
import Idealize.ShloMosaic.Lib.Ring
import Idealize.ShloMosaic.Lib.Tactic
import Idealize.ShloMosaic.Lib.WritesUnit

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The schedule in closed form

Point `t` of the 375 is phase `t / 125`, row block `t % 125`. Everything the body and the pipeline compute from the point —
which branch runs, where the adjacency rows sit in the fetched block of 400, which block each window is on, where the
output window is idle or written back — is decided once over the grid. -/

theorem hcondA : ∀ t : Fin cfg0.N, condA (grid0.coords t) ↔ t.val = 0 :=
  (by decide +kernel : ∀ t : Fin grid0.N, condA (grid0.coords t) ↔ t.val = 0)
theorem hcond2 : ∀ t : Fin cfg0.N, cond2 (grid0.coords t) ↔ t.val < 125 :=
  (by decide +kernel : ∀ t : Fin grid0.N, cond2 (grid0.coords t) ↔ t.val < 125)
theorem hcond3 : ∀ t : Fin cfg0.N, cond3 (grid0.coords t) ↔ (125 ≤ t.val ∧ t.val < 250) :=
  (by decide +kernel : ∀ t : Fin grid0.N, cond3 (grid0.coords t) ↔ (125 ≤ t.val ∧ t.val < 250))
theorem hcond4 : ∀ t : Fin cfg0.N, cond4 (grid0.coords t) ↔ 250 ≤ t.val :=
  (by decide +kernel : ∀ t : Fin grid0.N, cond4 (grid0.coords t) ↔ 250 ≤ t.val)

/-- The second grid coordinate is the row block. -/
theorem coord1 : ∀ t : Fin cfg0.N, ((grid0.coords t) 1).val = t.val % 125 :=
  (by decide +kernel : ∀ t : Fin grid0.N, ((grid0.coords t) 1).val = t.val % 125)

/-- The 80 adjacency rows of row block `b` start at row `80 (b % 5)` of the fetched block of 400 (phase 0's load). -/
theorem off1_eq : ∀ t : Fin cfg0.N, k0_off1 (grid0.coords t) = ![80 * (t.val % 5), 0] :=
  (by decide +kernel : ∀ t : Fin grid0.N, k0_off1 (grid0.coords t) = ![80 * (t.val % 5), 0])
/-- The same for phase 1's load. -/
theorem off3_eq : ∀ t : Fin cfg0.N, k0_off3 (grid0.coords t) = ![80 * (t.val % 5), 0] :=
  (by decide +kernel : ∀ t : Fin grid0.N, k0_off3 (grid0.coords t) = ![80 * (t.val % 5), 0])

/-- In phases 0 and 1 the adjacency window is on block `b / 5` of the 25. -/
theorem index0_eq : ∀ t : Fin cfg0.N, t.val < 250 → win0_0.index t 0 = (t.val % 125) / 5 ∧ win0_0.index t 1 = 0 :=
  (by decide +kernel : ∀ t : Fin grid0.N, t.val < 250 → win0_0.index t 0 = (t.val % 125) / 5 ∧ win0_0.index t 1 = 0)
/-- The six whole-array windows are on their one block at every point. -/
theorem index1_eq : ∀ (t : Fin cfg0.N) (a : Fin 2), win0_1.index t a = 0 := (by decide +kernel : ∀ (t : Fin grid0.N) (a : Fin 2), win0_1.index t a = 0)
theorem index2_eq : ∀ (t : Fin cfg0.N) (a : Fin 2), win0_2.index t a = 0 := (by decide +kernel : ∀ (t : Fin grid0.N) (a : Fin 2), win0_2.index t a = 0)
theorem index3_eq : ∀ (t : Fin cfg0.N) (a : Fin 2), win0_3.index t a = 0 := (by decide +kernel : ∀ (t : Fin grid0.N) (a : Fin 2), win0_3.index t a = 0)
theorem index4_eq : ∀ (t : Fin cfg0.N) (a : Fin 2), win0_4.index t a = 0 := (by decide +kernel : ∀ (t : Fin grid0.N) (a : Fin 2), win0_4.index t a = 0)
theorem index5_eq : ∀ (t : Fin cfg0.N) (a : Fin 2), win0_5.index t a = 0 := (by decide +kernel : ∀ (t : Fin grid0.N) (a : Fin 2), win0_5.index t a = 0)
theorem index6_eq : ∀ (t : Fin cfg0.N) (a : Fin 2), win0_6.index t a = 0 := (by decide +kernel : ∀ (t : Fin grid0.N) (a : Fin 2), win0_6.index t a = 0)
/-- In phase 2 the output window is on row block `b`. -/
theorem index7_eq : ∀ t : Fin cfg0.N, 250 ≤ t.val → win0_7.index t 0 = t.val - 250 ∧ win0_7.index t 1 = 0 :=
  (by decide +kernel : ∀ t : Fin grid0.N, 250 ≤ t.val → win0_7.index t 0 = t.val - 250 ∧ win0_7.index t 1 = 0)

/-! ### Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel
theorem liveAt6 : ∀ t : Fin cfg0.N, cfg0.idle 6 (grid0.coords t) = false := by decide +kernel
/-- Through phases 0 and 1 the body stores nothing into the output window: the window is idle there, -/
theorem idleAt7 : ∀ t : Fin cfg0.N, t.val < 250 → cfg0.idle 7 (grid0.coords t) = true := by decide +kernel
/-- and its block is not written back there; -/
theorem noFlush7 : ∀ t : Fin cfg0.N, t.val < 250 → (cfg0.win 7).flush t = false := by decide +kernel
/-- in phase 2 it is live -/
theorem liveAt7 : ∀ t : Fin cfg0.N, 250 ≤ t.val → cfg0.idle 7 (grid0.coords t) = false := by decide +kernel
/-- and written back at every point. -/
theorem flush7 : ∀ t : Fin cfg0.N, 250 ≤ t.val → (cfg0.win 7).flush t = true := by decide +kernel

end Cert.KernelIdeal.Body

end
-- ==== Proof.KernelIdeal.BodySpec.lean ====
import proofs.«149746_g67903432950113_cont_9to1_m_218_26_alg».proof.Proof.KernelIdeal.BodySchedule
import Idealize.ShloMosaic.Lib.Pipeline.FrameBody
import Idealize.ShloMosaic.Lib.Ring
import Idealize.ShloMosaic.Lib.Tactic
import Idealize.ShloMosaic.Lib.WritesUnit
import Idealize.ShloMosaic.Lib.ValueIdx
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-! ## What the three scratch buffers and the output blocks hold, as functions of the argument arrays

Stated with the body's own arithmetic (the payload terms of its four stores), at any float instance: the first scratch
holds `(x · W1)ᵀ`; row block `b` of the second is the second store's payload of row block `b` of the adjacency matrix and
the first scratch; row block `b` of the third is the third store's payload of row block `b` of the adjacency matrix and the
whole second scratch; output block `b` is the fourth store's payload of row block `b` of the third scratch and the whole
third scratch. -/

/-- Row block `b` (80 rows) of an array of 10000 rows. -/
def rowBlock {C : ℕ} {α : Type} (X : (⟨2, ![10000, C]⟩ : Shape).Idx → α) (b : Fin 125) :
    (⟨2, ![80, C]⟩ : Shape).Idx → α :=
  fun x => X (ix2 ⟨80 * b.val + (x 0).val, by have := idx2_lt0 x; have := b.isLt; omega⟩ ⟨(x 1).val, idx2_lt1 x⟩)

/-- The row block of a row. -/
def blockOf {C : ℕ} (y : (⟨2, ![10000, C]⟩ : Shape).Idx) : Fin 125 := ⟨(y 0).val / 80, by have := idx2_lt0 y; omega⟩
/-- A row's place in its block, with the column. -/
def inBlock {C : ℕ} (y : (⟨2, ![10000, C]⟩ : Shape).Idx) : (⟨2, ![80, C]⟩ : Shape).Idx :=
  ix2 ⟨(y 0).val % 80, Nat.mod_lt _ (by decide)⟩ ⟨(y 1).val, idx2_lt1 y⟩

/-- The seven arrays as the body meets them: the adjacency matrix, the features, the three weight matrices, and the two
    biases as rows `[1, n]`. -/
structure Args (F : FTy → Type) where
  adj : Vec F S10000x10000 .f32
  x : Vec F S10000x128 .f32
  w1 : Vec F S128x64 .f32
  b1 : Vec F S1x64 .f32
  w2 : Vec F S64x16 .f32
  b2 : Vec F S1x16 .f32
  wd : Vec F S16x16 .f32

/-- The first scratch after the first point: `(x · W1)ᵀ`. -/
def s1Spec (A : Args F) : Vec F S64x10000 .f32 := k0_pay1 A.x A.w1

/-- The second scratch after phase 0. -/
def s2Spec (A : Args F) : Vec F S10000x16 .f32 := fun y =>
  k0_pay2 (rowBlock A.adj (blockOf y)) (s1Spec A) A.b1 A.w2 (inBlock y)

/-- The third scratch after phase 1. -/
def s3Spec (A : Args F) : Vec F S10000x16 .f32 := fun y =>
  k0_pay3 (rowBlock A.adj (blockOf y)) (s2Spec A) A.b2 (inBlock y)

/-- Output block `b`, stored at point `250 + b`. -/
def outSpec (A : Args F) (b : Fin 125) : Vec F S80x10000 .f32 :=
  k0_pay4 (rowBlock (s3Spec A) b) A.wd (s3Spec A)

/-- Row `80 b + p` is in block `b` at place `p`. -/
theorem blockOf_row {C : ℕ} (b : Fin 125) (p : Fin 80) (q : Fin C) (h : 80 * b.val + p.val < 10000) :
    blockOf (C := C) (ix2 ⟨80 * b.val + p.val, h⟩ q) = b := Fin.ext (by show (80 * b.val + p.val) / 80 = b.val; omega)
theorem inBlock_row {C : ℕ} (b : Fin 125) (p : Fin 80) (q : Fin C) (h : 80 * b.val + p.val < 10000) :
    inBlock (C := C) (ix2 ⟨80 * b.val + p.val, h⟩ q) = ix2 p q :=
  congrArg₂ (ix2 (n0 := 80) (n1 := C)) (Fin.ext (by show (80 * b.val + p.val) % 80 = p.val; omega)) (Fin.ext rfl)

/-- At row `80 b + p` the second scratch's specification is place `p` of block `b`'s payload. -/
theorem s2Spec_row (A : Args F) (b : Fin 125) (p : Fin 80) (q : Fin 16) (h : 80 * b.val + p.val < 10000) :
    s2Spec A (ix2 ⟨80 * b.val + p.val, h⟩ q) = k0_pay2 (rowBlock A.adj b) (s1Spec A) A.b1 A.w2 (ix2 p q) := by
  unfold s2Spec; rw [blockOf_row, inBlock_row]
/-- The same for the third scratch. -/
theorem s3Spec_row (A : Args F) (b : Fin 125) (p : Fin 80) (q : Fin 16) (h : 80 * b.val + p.val < 10000) :
    s3Spec A (ix2 ⟨80 * b.val + p.val, h⟩ q) = k0_pay3 (rowBlock A.adj b) (s2Spec A) A.b2 (ix2 p q) := by
  unfold s3Spec; rw [blockOf_row, inBlock_row]

/-! ## The arrays and the windows' blocks -/

variable (m : (ℓ : Loc nD τ sig) → Buf (Elt F) ℓ)

/-- The seven arrays as the region finds them on core `c`: the arguments, the two biases as the reshaped rows. -/
def argsOf (c : Dev nD) : Args F where
  adj := V m c main_arg0
  x := V m c main_arg1
  w1 := V m c main_arg2
  b1 := V m c main_v0
  w2 := V m c main_arg4
  b2 := V m c main_v1
  wd := V m c main_arg6

/-- Each whole-array window's block is its array, at every point. -/
theorem iblk1 (c : Dev nD) (t : Fin cfg0.N) : iblk m c 1 t = (argsOf m c).x := by
  funext y
  show V m c main_arg1 (((cfg0.win 1).blk t).view.emb y) = V m c main_arg1 y
  congr 1; funext a; apply Fin.ext
  show win0_1.index t a * _ + 1 * (y a).val = (y a).val
  rw [index1_eq t a]; omega

end Cert.KernelIdeal.Body

end
-- ==== Proof.KernelIdeal.BodyLoads.lean ====
import proofs.«149746_g67903432950113_cont_9to1_m_218_26_alg».proof.Proof.KernelIdeal.BodySpec
import Idealize.ShloMosaic.Lib.Pipeline.FrameBody
import Idealize.ShloMosaic.Lib.Ring
import Idealize.ShloMosaic.Lib.Tactic
import Idealize.ShloMosaic.Lib.WritesUnit
import Idealize.ShloMosaic.Lib.ValueIdx
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-! ## What the body's loads read

The five other whole-array windows are their arrays at every point, as the second is; the 80 rows the body loads from the
fetched block of 400 adjacency rows are row block `t % 125` of the adjacency matrix; 80 rows loaded from a scratch buffer
are its row block. -/

theorem iblk2 (c : Dev nD) (t : Fin cfg0.N) : iblk m c 2 t = (argsOf m c).w1 := by
  funext y
  show V m c main_arg2 (((cfg0.win 2).blk t).view.emb y) = V m c main_arg2 y
  congr 1; funext a; apply Fin.ext
  show win0_2.index t a * _ + 1 * (y a).val = (y a).val
  rw [index2_eq t a]; omega
theorem iblk3 (c : Dev nD) (t : Fin cfg0.N) : iblk m c 3 t = (argsOf m c).b1 := by
  funext y
  show V m c main_v0 (((cfg0.win 3).blk t).view.emb y) = V m c main_v0 y
  congr 1; funext a; apply Fin.ext
  show win0_3.index t a * _ + 1 * (y a).val = (y a).val
  rw [index3_eq t a]; omega
theorem iblk4 (c : Dev nD) (t : Fin cfg0.N) : iblk m c 4 t = (argsOf m c).w2 := by
  funext y
  show V m c main_arg4 (((cfg0.win 4).blk t).view.emb y) = V m c main_arg4 y
  congr 1; funext a; apply Fin.ext
  show win0_4.index t a * _ + 1 * (y a).val = (y a).val
  rw [index4_eq t a]; omega
theorem iblk5 (c : Dev nD) (t : Fin cfg0.N) : iblk m c 5 t = (argsOf m c).b2 := by
  funext y
  show V m c main_v1 (((cfg0.win 5).blk t).view.emb y) = V m c main_v1 y
  congr 1; funext a; apply Fin.ext
  show win0_5.index t a * _ + 1 * (y a).val = (y a).val
  rw [index5_eq t a]; omega
theorem iblk6 (c : Dev nD) (t : Fin cfg0.N) : iblk m c 6 t = (argsOf m c).wd := by
  funext y
  show V m c main_arg6 (((cfg0.win 6).blk t).view.emb y) = V m c main_arg6 y
  congr 1; funext a; apply Fin.ext
  show win0_6.index t a * _ + 1 * (y a).val = (y a).val
  rw [index6_eq t a]; omega

/-- Rows `[80 b, 80 b + 80)` loaded from an array of 10000 rows: its row block `b`. -/
theorem ld_rows {C : ℕ} {α : EltTy → Type} {e : EltTy} (X : (⟨2, ![10000, C]⟩ : Shape).Idx → α e) (b : Fin 125) (off : Fin 2 → ℕ)
    (hoff : off = ![80 * b.val, 0]) (inb : ∀ a, off a + (![80, C] : Fin 2 → ℕ) a ≤ (⟨2, ![10000, C]⟩ : Shape).size a) :
    View.ld X (Rect.unit (s := ⟨2, ![10000, C]⟩) off ![80, C] inb) = rowBlock X b := by
  subst hoff; funext x
  show X _ = X _
  congr 1; funext a; apply Fin.ext
  match a with
  | ⟨0, _⟩ => show 80 * b.val + 1 * (x 0).val = 80 * b.val + (x 0).val; omega
  | ⟨1, _⟩ => show 0 + 1 * (x 1).val = (x 1).val; omega

/-- The adjacency rows the body loads at a point of phase 0 or 1: row block `t % 125` of the adjacency matrix (the fetched
    block is block `(t % 125) / 5` of 400 rows, the load starts at its row `80 (t % 5)`). -/
theorem ld_adj (c : Dev nD) (t : Fin cfg0.N) (ht : t.val < 250) (off : Fin 2 → ℕ) (hoff : off = ![80 * (t.val % 5), 0])
    (inb : ∀ a, off a + (![80, 10000] : Fin 2 → ℕ) a ≤ S400x10000.size a) :
    View.ld (iblk m c 0 t) (Rect.unit (s := S400x10000) off ![80, 10000] inb)
      = rowBlock (argsOf m c).adj ⟨t.val % 125, Nat.mod_lt _ (by decide)⟩ := by
  subst hoff; funext x
  show V m c main_arg0 (((cfg0.win 0).blk t).view.emb _) = V m c main_arg0 _
  congr 1; funext a; apply Fin.ext
  match a with
  | ⟨0, _⟩ =>
    show win0_0.index t 0 * 400 + 1 * (80 * (t.val % 5) + 1 * (x 0).val) = 80 * (t.val % 125) + (x 0).val
    rw [(index0_eq t ht).1]; omega
  | ⟨1, _⟩ =>
    show win0_0.index t 1 * 10000 + 1 * (0 + 1 * (x 1).val) = (x 1).val
    rw [(index0_eq t ht).2]; omega

end Cert.KernelIdeal.Body

end
-- ==== Proof.KernelIdeal.BodySteps.lean ====
import proofs.«149746_g67903432950113_cont_9to1_m_218_26_alg».proof.Proof.KernelIdeal.BodyPieces
import proofs.«149746_g67903432950113_cont_9to1_m_218_26_alg».proof.Proof.KernelIdeal.BodyLoads
import Idealize.ShloMosaic.Lib.Pipeline.FrameBody
import Idealize.ShloMosaic.Lib.Ring
import Idealize.ShloMosaic.Lib.Tactic
import Idealize.ShloMosaic.Lib.WritesUnit
import Idealize.ShloMosaic.Lib.ValueIdx
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The staging and scratch memrefs the body is called with -/

abbrev ms0 (t : Fin cfg0.N) : Memref sig .tc .vmem S400x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64x16 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x16 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S16x16 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S80x10000 .f32 := win0_7.stage (cfg0.slots t 7)
abbrev hs7 (t : Fin cfg0.N) : (ms7 t).IsWhole := hstage0_7 ((cfg0.slots t 7).cast nbuf0_7)
/-- The three scratch operands: whole scoped buffers of the kernel's own. -/
abbrev scM0 : Memref sig .tc .vmem S64x10000 .f32 := Memref.whole cc0_scratch0
abbrev scM1 : Memref sig .tc .vmem S10000x16 .f32 := Memref.whole cc0_scratch1
abbrev scM2 : Memref sig .tc .vmem S10000x16 .f32 := Memref.whole cc0_scratch2
abbrev hsc0 : (scM0 : Memref sig .tc .vmem S64x10000 .f32).IsWhole := Memref.isWhole_whole _
abbrev hsc1 : (scM1 : Memref sig .tc .vmem S10000x16 .f32).IsWhole := Memref.isWhole_whole _
abbrev hsc2 : (scM2 : Memref sig .tc .vmem S10000x16 .f32).IsWhole := Memref.isWhole_whole _

/-- The class invariant with the three scratch operands as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-! ## Storing 80 rows -/

/-- One store covering a whole rank-2 buffer leaves its payload, whatever the buffer held. -/
theorem read_writes_whole {κ : Kind} {sp : Space} {d : Fin 2 → ℕ} (v : View sig κ sp (⟨2, d⟩ : Shape) .f32) (f : v.ty.Contents (Elt F))
    (inb : ∀ a, (![0, 0] : Fin 2 → ℕ) a + d a ≤ d a) (w : (⟨2, d⟩ : Shape).Idx → Elt F .f32) :
    v.read (Elt F) (v.writes (Elt F) f [(⟨Rect.unit (s := ⟨2, d⟩) ![0, 0] d inb, w⟩ : View.Piece (Elt F) (⟨2, d⟩ : Shape) .f32)]) = w :=
  (View.read_writes_eq_canon v f _ (fun y => ⟨_, List.mem_singleton_self _, View.mem_set_unit_zero zeros2 inb y⟩)).trans
    (View.canon_unit_zero zeros2 inb w)

/-- A buffer of 10000 rows whose rows below `80 b` already agree with `G`, after a store of rows `[80 b, 80 b + 80)` whose
    payload is `G` on those rows, agrees with `G` on the rows below `80 (b + 1)`. -/
theorem rows_store (M : Memref sig .tc .vmem S10000x16 .f32) (hM : M.IsWhole) (s G : Vec F S10000x16 .f32) (off : Fin 2 → ℕ) (b : ℕ)
    (hb : b < 125) (hoff : off = ![80 * b, 0]) (inb : ∀ a : Fin 2, off a + (![80, 16] : Fin 2 → ℕ) a ≤ (![10000, 16] : Fin 2 → ℕ) a)
    (w : (Rect.unit (s := S10000x16) off ![80, 16] inb).shape.Idx → Elt F .f32)
    (hold : ∀ y : S10000x16.Idx, (y 0).val < 80 * b → s y = G y)
    (hnew : ∀ (p : Fin 80) (q : Fin 16), w (ix2 p q) = G (ix2 ⟨80 * b + p.val, by omega⟩ q)) :
    ∀ y : S10000x16.Idx, (y 0).val < 80 * (b + 1) →
      M.view.read (Elt F) (M.view.writes (Elt F) (hM.unread s) [(⟨Rect.unit (s := S10000x16) off ![80, 16] inb, w⟩ : View.Piece (Elt F) S10000x16 .f32)]) y = G y := by
  intro y hy
  by_cases h : (y 0).val < 80 * b
  · rw [View.read_writes_cons_rows_of_not_mem M.view _ inb w [] y hoff rfl (Or.inl h)]
    rw [View.writes_nil, hM.read_unread]; exact hold y h
  · have hx0 : (y 0).val - 80 * b < 80 := by omega
    rw [View.read_writes_cons_rows_of_mem M.view _ inb w [] y (ix2 (n0 := 80) (n1 := 16) ⟨(y 0).val - 80 * b, hx0⟩ ⟨(y 1).val, idx2_lt1 y⟩) hoff
      (by show (y 0).val = 80 * b + ((y 0).val - 80 * b); omega) rfl]
    rw [hnew]; congr 1
    funext a; apply Fin.ext
    match a with
    | ⟨0, _⟩ => show 80 * b + ((y 0).val - 80 * b) = (y 0).val; omega
    | ⟨1, _⟩ => rfl

/-! ## The invariant: the rows written so far

Before point `n`: the rows of the second scratch below `80 n` and the rows `y` of the third with `y + 10000 < 80 n` hold
their specification (from point 125 on that is all of the second, from point 250 on all of the third). -/

def Inv (A : Args F) (n : ℕ) (s2 s3 : Vec F S10000x16 .f32) : Prop :=
  (∀ y : S10000x16.Idx, (y 0).val < 80 * n → s2 y = s2Spec A y)
    ∧ (∀ y : S10000x16.Idx, (y 0).val + 10000 < 80 * n → s3 y = s3Spec A y)

/-- From point 125 on the second scratch is its specification. -/
theorem Inv.s2_eq {A : Args F} {n : ℕ} {s2 s3 : Vec F S10000x16 .f32} (h : Inv A n s2 s3) (hn : 125 ≤ n) : s2 = s2Spec A :=
  funext fun y => h.1 y (by have := idx2_lt0 y; omega)
/-- From point 250 on the third scratch is its specification. -/
theorem Inv.s3_eq {A : Args F} {n : ℕ} {s2 s3 : Vec F S10000x16 .f32} (h : Inv A n s2 s3) (hn : 250 ≤ n) : s3 = s3Spec A :=
  funext fun y => h.2 y (by have := idx2_lt0 y; omega)
/-- Once both are complete the invariant holds at every later point. -/
theorem Inv.succ_of_full {A : Args F} {n : ℕ} {s2 s3 : Vec F S10000x16 .f32} (h : Inv A n s2 s3) (hn : 250 ≤ n) : Inv A (n + 1) s2 s3 :=
  ⟨fun y _ => h.1 y (by have := idx2_lt0 y; omega), fun y _ => h.2 y (by have := idx2_lt0 y; omega)⟩

/-- The row block of a point. -/
abbrev blk125 (t : Fin cfg0.N) : Fin 125 := ⟨t.val % 125, Nat.mod_lt _ (by decide)⟩

/-- The rows the point stores into a scratch start at `80 (t % 125)`. -/
theorem off2_at (t : Fin cfg0.N) : k0_off2 (grid0.coords t) = ![80 * (blk125 t).val, 0] := by
  rw [k0_off2_eq, coord1]
theorem off4_at (t : Fin cfg0.N) : k0_off4 (grid0.coords t) = ![80 * (blk125 t).val, 0] := by
  rw [k0_off4_eq, coord1]
theorem off5_at (t : Fin cfg0.N) : k0_off5 (grid0.coords t) = ![80 * (blk125 t).val, 0] := by
  rw [k0_off5_eq, coord1]

/-- What the second scratch holds after a point of phase 0 that found it at `s2` (case B's store over `s2`). -/
def newS2B (c : Dev nD) (t : Fin cfg0.N) (hc1 : ¬condA (grid0.coords t)) (hc2 : cond2 (grid0.coords t)) (hc3 : ¬cond3 (grid0.coords t)) (hc4 : ¬cond4 (grid0.coords t))
    (s1 : Vec F S64x10000 .f32) (s2 : Vec F S10000x16 .f32) : Vec F S10000x16 .f32 :=
  scM1.view.read (Elt F) (scM1.view.writes (Elt F) (hsc1.unread s2)
    (kernelRunB c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 hsc0 scM1 hsc1 scM2 hsc2 hc1 hc2 hc3 hc4 (iblk m c 0 t) (iblk m c 3 t) (iblk m c 4 t) s1 s2).1)

/-- The step of phase 0 after its first point: the invariant moves one row block on. -/
theorem stepB (c : Dev nD) (t : Fin cfg0.N) (ht : t.val < 125) (hc1 : ¬condA (grid0.coords t)) (hc2 : cond2 (grid0.coords t)) (hc3 : ¬cond3 (grid0.coords t)) (hc4 : ¬cond4 (grid0.coords t))
    (s2 s3 : Vec F S10000x16 .f32) (h : Inv (argsOf m c) t.val s2 s3) :
    Inv (argsOf m c) (t.val + 1) (newS2B m c t hc1 hc2 hc3 hc4 (s1Spec (argsOf m c)) s2) s3 := by
  have hb : (blk125 t).val = t.val := Nat.mod_eq_of_lt ht
  refine ⟨fun y hy => ?_, fun y hy => by exfalso; omega⟩
  unfold newS2B
  rw [runB_pieces]
  refine rows_store scM1 hsc1 s2 (s2Spec (argsOf m c)) _ (blk125 t).val (blk125 t).isLt (off2_at t) _ _
    (fun y hy => h.1 y (by omega)) (fun p q => ?_) y (by omega)
  rw [s2Spec_row (argsOf m c) (blk125 t) p q, ld_adj m c t (by omega) _ (off1_eq t), iblk3, iblk4]

/-- What the second scratch holds after the first point, which found it at `d1`. -/
def newS2A (c : Dev nD) (t : Fin cfg0.N) (hc1 : condA (grid0.coords t)) (hc2 : cond2 (grid0.coords t)) (hc3 : ¬cond3 (grid0.coords t)) (hc4 : ¬cond4 (grid0.coords t))
    (d1 : Vec F S10000x16 .f32) : Vec F S10000x16 .f32 :=
  scM1.view.read (Elt F) (scM1.view.writes (Elt F) (hsc1.unread d1)
    (kernelRunA c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 hsc0 scM1 hsc1 scM2 hsc2 hc1 hc2 hc3 hc4 (iblk m c 0 t) (iblk m c 1 t) (iblk m c 2 t) (iblk m c 3 t) (iblk m c 4 t) d1).2.1)

/-- The first point leaves the first scratch at `(x · W1)ᵀ`, whatever it held, -/
theorem coverA (c : Dev nD) (t : Fin cfg0.N) (hc1 : condA (grid0.coords t)) (hc2 : cond2 (grid0.coords t)) (hc3 : ¬cond3 (grid0.coords t)) (hc4 : ¬cond4 (grid0.coords t))
    (d1 : Vec F S10000x16 .f32) (f : scM0.view.ty.Contents (Elt F)) :
    scM0.view.read (Elt F) (scM0.view.writes (Elt F) f
      (kernelRunA c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 hsc0 scM1 hsc1 scM2 hsc2 hc1 hc2 hc3 hc4 (iblk m c 0 t) (iblk m c 1 t) (iblk m c 2 t) (iblk m c 3 t) (iblk m c 4 t) d1).1)
      = s1Spec (argsOf m c) := by
  rw [runA_pieces10, read_writes_whole, iblk1, iblk2]; rfl

/-- and the invariant at point 1: the first row block of the second scratch. -/
theorem stepA (c : Dev nD) (t : Fin cfg0.N) (h0 : t.val = 0) (hc1 : condA (grid0.coords t)) (hc2 : cond2 (grid0.coords t)) (hc3 : ¬cond3 (grid0.coords t)) (hc4 : ¬cond4 (grid0.coords t))
    (d1 d2 : Vec F S10000x16 .f32) :
    Inv (argsOf m c) (t.val + 1) (newS2A m c t hc1 hc2 hc3 hc4 d1) d2 := by
  have hb : (blk125 t).val = 0 := by show t.val % 125 = 0; omega
  refine ⟨fun y hy => ?_, fun y hy => by exfalso; omega⟩
  unfold newS2A
  rw [runA_pieces11]
  refine rows_store scM1 hsc1 d1 (s2Spec (argsOf m c)) _ (blk125 t).val (blk125 t).isLt (off2_at t) _ _
    (fun y hy => by exfalso; omega) (fun p q => ?_) y (by omega)
  rw [s2Spec_row (argsOf m c) (blk125 t) p q, ld_adj m c t (by omega) _ (off1_eq t), iblk3, iblk4, iblk1, iblk2]; rfl

/-- What the third scratch holds after a point of phase 1 that found it at `s3`. -/
def newS3C (c : Dev nD) (t : Fin cfg0.N) (hc1 : ¬condA (grid0.coords t)) (hc2 : ¬cond2 (grid0.coords t)) (hc3 : cond3 (grid0.coords t)) (hc4 : ¬cond4 (grid0.coords t))
    (s2 s3 : Vec F S10000x16 .f32) : Vec F S10000x16 .f32 :=
  scM2.view.read (Elt F) (scM2.view.writes (Elt F) (hsc2.unread s3)
    (kernelRunC c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 hsc0 scM1 hsc1 scM2 hsc2 hc1 hc2 hc3 hc4 (iblk m c 0 t) (iblk m c 5 t) s2 s3).1)

/-- The step of phase 1: the second scratch is complete and untouched, the third moves one row block on. -/
theorem stepC (c : Dev nD) (t : Fin cfg0.N) (ht : 125 ≤ t.val) (ht2 : t.val < 250) (hc1 : ¬condA (grid0.coords t)) (hc2 : ¬cond2 (grid0.coords t)) (hc3 : cond3 (grid0.coords t)) (hc4 : ¬cond4 (grid0.coords t))
    (s2 s3 : Vec F S10000x16 .f32) (h : Inv (argsOf m c) t.val s2 s3) :
    Inv (argsOf m c) (t.val + 1) s2 (newS3C m c t hc1 hc2 hc3 hc4 s2 s3) := by
  have hb : (blk125 t).val = t.val - 125 := by show t.val % 125 = _; omega
  have hs2 := h.s2_eq ht
  refine ⟨fun y _ => h.1 y (by have := idx2_lt0 y; omega), fun y hy => ?_⟩
  unfold newS3C
  rw [runC_pieces]
  refine rows_store scM2 hsc2 s3 (s3Spec (argsOf m c)) _ (blk125 t).val (blk125 t).isLt (off4_at t) _ _
    (fun y hy => h.2 y (by omega)) (fun p q => ?_) y (by omega)
  rw [s3Spec_row (argsOf m c) (blk125 t) p q, ld_adj m c t ht2 _ (off3_eq t), iblk5, hs2]

/-- What a point of phase 2 leaves in the output window's buffer: output block `t % 125`. -/
def outAt (c : Dev nD) (t : Fin cfg0.N) : Vec F S80x10000 .f32 := outSpec (argsOf m c) (blk125 t)

/-- The step of phase 2: the third scratch is complete, and the one store covers the output block with its specification. -/
theorem coverD (c : Dev nD) (t : Fin cfg0.N) (ht : 250 ≤ t.val) (hc1 : ¬condA (grid0.coords t)) (hc2 : ¬cond2 (grid0.coords t)) (hc3 : ¬cond3 (grid0.coords t)) (hc4 : cond4 (grid0.coords t))
    (s2 s3 : Vec F S10000x16 .f32) (h : Inv (argsOf m c) t.val s2 s3) (f : (ms7 t).view.ty.Contents (Elt F)) :
    (ms7 t).view.read (Elt F) ((ms7 t).view.writes (Elt F) f
      (kernelRunD c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 hsc0 scM1 hsc1 scM2 hsc2 hc1 hc2 hc3 hc4 (iblk m c 6 t) s3).1) = outAt m c t := by
  rw [runD_pieces, read_writes_whole, ld_rows s3 (blk125 t) _ (off5_at t), iblk6, h.s3_eq ht]; rfl

end Cert.KernelIdeal.Body

end
-- ==== Proof.KernelIdeal.BodyData.lean ====
import proofs.«149746_g67903432950113_cont_9to1_m_218_26_alg».proof.Proof.KernelIdeal.BodySteps
import Idealize.ShloMosaic.Lib.Pipeline.FrameBody
import Idealize.ShloMosaic.Lib.Ring
import Idealize.ShloMosaic.Lib.Tactic
import Idealize.ShloMosaic.Lib.WritesUnit
import Idealize.ShloMosaic.Lib.ValueIdx
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The region invariant point by point -/

/-- Before the first point the class invariant (every scratch at anything); before point `n + 1` the first scratch at
    `(x · W1)ᵀ` and the other two at contents whose rows written so far hold their specification. -/
def PhiS (c : Dev nD) : (n : ℕ) → n ≤ cfg0.N → sProp 𝕄
  | 0, _ => Pipeline.ΦA spec0 c
  | n + 1, _ => iprop(iprop(owns (c : Thread nD τ) scM0 fullShare (s1Spec (argsOf m c))
      ∗ (∃ s2, ∃ s3, ⌜Inv (argsOf m c) (n + 1) s2 s3⌝ ∗ owns (c : Thread nD τ) scM1 fullShare s2 ∗ owns (c : Thread nD τ) scM2 fullShare s3))
      ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare (s1Spec (argsOf m c))
      ∗ (∃ s2, ∃ s3, ⌜Inv (argsOf m c) (n + 1) s2 s3⌝ ∗ owns (c : Thread nD τ) scM1 fullShare s2 ∗ owns (c : Thread nD τ) scM2 fullShare s3))
      ∗ (∃ r, prngReg c r)) := rfl

theorem PhiS_pos (c : Dev nD) (n : ℕ) (h : n ≤ cfg0.N) (hz : n ≠ 0) :
    PhiS m c n h = iprop(iprop(owns (c : Thread nD τ) scM0 fullShare (s1Spec (argsOf m c))
      ∗ (∃ s2, ∃ s3, ⌜Inv (argsOf m c) n s2 s3⌝ ∗ owns (c : Thread nD τ) scM1 fullShare s2 ∗ owns (c : Thread nD τ) scM2 fullShare s3))
      ∗ (∃ r, prngReg c r)) := by
  cases n with
  | zero => exact absurd rfl hz
  | succ n => rfl

/-! ## The pipeline's proof data -/

/-- The arrays as the region finds them; after the body each input's buffer at its block and the output's at output block
    `t % 125` (consulted only in phase 2, where the body stores it); the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

theorem leaves_in0 (c : Dev nD) (t : Fin cfg0.N) :
    (dats m 0 c).leavesExact 0 t = owns (c : Thread nD τ) (ms0 t) fullShare (iblk m c 0 t) := by
  unfold Dat.leavesExact; rw [liveAt0 t, after0_0]
theorem leaves_in1 (c : Dev nD) (t : Fin cfg0.N) :
    (dats m 0 c).leavesExact 1 t = owns (c : Thread nD τ) (ms1 t) fullShare (iblk m c 1 t) := by
  unfold Dat.leavesExact; rw [liveAt1 t, after0_1]
theorem leaves_in2 (c : Dev nD) (t : Fin cfg0.N) :
    (dats m 0 c).leavesExact 2 t = owns (c : Thread nD τ) (ms2 t) fullShare (iblk m c 2 t) := by
  unfold Dat.leavesExact; rw [liveAt2 t, after0_2]
theorem leaves_in3 (c : Dev nD) (t : Fin cfg0.N) :
    (dats m 0 c).leavesExact 3 t = owns (c : Thread nD τ) (ms3 t) fullShare (iblk m c 3 t) := by
  unfold Dat.leavesExact; rw [liveAt3 t, after0_3]
theorem leaves_in4 (c : Dev nD) (t : Fin cfg0.N) :
    (dats m 0 c).leavesExact 4 t = owns (c : Thread nD τ) (ms4 t) fullShare (iblk m c 4 t) := by
  unfold Dat.leavesExact; rw [liveAt4 t, after0_4]
theorem leaves_in5 (c : Dev nD) (t : Fin cfg0.N) :
    (dats m 0 c).leavesExact 5 t = owns (c : Thread nD τ) (ms5 t) fullShare (iblk m c 5 t) := by
  unfold Dat.leavesExact; rw [liveAt5 t, after0_5]
theorem leaves_in6 (c : Dev nD) (t : Fin cfg0.N) :
    (dats m 0 c).leavesExact 6 t = owns (c : Thread nD τ) (ms6 t) fullShare (iblk m c 6 t) := by
  unfold Dat.leavesExact; rw [liveAt6 t, after0_6]
/-- Through phases 0 and 1 the output window's buffer is handed back as found; -/
theorem leaves7_idle (c : Dev nD) (t : Fin cfg0.N) (ht : t.val < 250) :
    (dats m 0 c).leavesExact 7 t = iprop(∃ d, owns (c : Thread nD τ) (ms7 t) fullShare ((dats m 0 c).before 7 t d)) :=
  Dat.leavesExact_idle (dats m 0 c) 7 t (idleAt7 t ht) (noFlush7 t ht)
/-- in phase 2 it is left at the output block. -/
theorem leaves7_live (c : Dev nD) (t : Fin cfg0.N) (ht : 250 ≤ t.val) :
    (dats m 0 c).leavesExact 7 t = owns (c : Thread nD τ) (ms7 t) fullShare (outAt m c t) := by
  unfold Dat.leavesExact; rw [liveAt7 t ht, after0_7]

/-! ## The body obligation, case by case -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
/-- The first point: both scratch stores, from scratch buffers at anything. -/
theorem soundA (c : Dev nD) (t : Fin cfg0.N) (h0 : t.val = 0) :
    bodyPre m c t ⊢ wp frame (wpE (defs₀ (F := F)) Variants.none c none) Set.univ (bodyAt0 t) (fun _ => bodyPost m c t) := by
  have hc1 : condA (grid0.coords t) := (hcondA t).mpr h0
  have hc2 : cond2 (grid0.coords t) := (hcond2 t).mpr (by omega)
  have hc3 : ¬cond3 (grid0.coords t) := fun h => by have := (hcond3 t).mp h; omega
  have hc4 : ¬cond4 (grid0.coords t) := fun h => by have := (hcond4 t).mp h; omega
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [leaves_in0 m c t, leaves_in1 m c t, leaves_in2 m c t, leaves_in3 m c t, leaves_in4 m c t, leaves_in5 m c t, leaves_in6 m c t]
  rw [leaves7_idle m c t (by omega)]
  rw [PhiS_castSucc m c t, PhiS_zero m c _ _ h0, PhiA0_eq]
  iintro ⟨⟨⟨⟨%d0, HS0⟩, ⟨%d1, HS1⟩, ⟨%d2, HS2⟩⟩, Hg⟩, Ho, ⟨%e0, H0⟩, ⟨%e1, H1⟩, ⟨%e2, H2⟩, ⟨%e3, H3⟩, ⟨%e4, H4⟩, ⟨%e5, H5⟩, ⟨%e6, H6⟩, H7⟩
  iapply ((kernelRunA c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 hsc0 scM1 hsc1 scM2 hsc2 hc1 hc2 hc3 hc4 (iblk m c 0 t) (iblk m c 1 t) (iblk m c 2 t) (iblk m c 3 t) (iblk m c 4 t) d1).2.2 Set.univ _)
  isplitl [H0]; · iexact H0
  isplitl [H1]; · iexact H1
  isplitl [H2]; · iexact H2
  isplitl [H3]; · iexact H3
  isplitl [H4]; · iexact H4
  isplitl [HS0]; · iexists _; iexact HS0
  isplitl [HS1]; · iexact HS1
  iintro ⟨H0, H1, H2, H3, H4, ⟨%f10, HS0⟩, HS1⟩
  isplitl [HS0 HS1 HS2 Hg]
  · isplitl [HS0 HS1 HS2]
    · isplitl [HS0]
      · unfold owns; iexists _; isplitr
        swap; · iexact HS0
        ipureintro; exact coverA m c t hc1 hc2 hc3 hc4 d1 _
      iexists (newS2A m c t hc1 hc2 hc3 hc4 d1); iexists d2
      isplitr; · ipureintro; exact stepA m c t h0 hc1 hc2 hc3 hc4 d1 d2
      isplitl [HS1]
      · unfold owns; iexists _; isplitr
        swap; · iexact HS1
        ipureintro; rfl
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 4800000 in
/-- The rest of phase 0: one more row block of the second scratch. -/
theorem soundB (c : Dev nD) (t : Fin cfg0.N) (h1 : t.val ≠ 0) (h2 : t.val < 125) :
    bodyPre m c t ⊢ wp frame (wpE (defs₀ (F := F)) Variants.none c none) Set.univ (bodyAt0 t) (fun _ => bodyPost m c t) := by
  have hc1 : ¬condA (grid0.coords t) := fun h => h1 ((hcondA t).mp h)
  have hc2 : cond2 (grid0.coords t) := (hcond2 t).mpr h2
  have hc3 : ¬cond3 (grid0.coords t) := fun h => by have := (hcond3 t).mp h; omega
  have hc4 : ¬cond4 (grid0.coords t) := fun h => by have := (hcond4 t).mp h; omega
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [leaves_in0 m c t, leaves_in1 m c t, leaves_in2 m c t, leaves_in3 m c t, leaves_in4 m c t, leaves_in5 m c t, leaves_in6 m c t]
  rw [leaves7_idle m c t (by omega)]
  rw [PhiS_castSucc m c t, PhiS_pos m c _ _ h1]
  iintro ⟨⟨⟨HS0, ⟨%s2, %s3, %hinv, HS1, HS2⟩⟩, Hg⟩, Ho, ⟨%e0, H0⟩, ⟨%e1, H1⟩, ⟨%e2, H2⟩, ⟨%e3, H3⟩, ⟨%e4, H4⟩, ⟨%e5, H5⟩, ⟨%e6, H6⟩, H7⟩
  iapply ((kernelRunB c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 hsc0 scM1 hsc1 scM2 hsc2 hc1 hc2 hc3 hc4 (iblk m c 0 t) (iblk m c 3 t) (iblk m c 4 t) (s1Spec (argsOf m c)) s2).2 Set.univ _)
  isplitl [H0]; · iexact H0
  isplitl [H3]; · iexact H3
  isplitl [H4]; · iexact H4
  isplitl [HS0]; · iexact HS0
  isplitl [HS1]; · iexact HS1
  iintro ⟨H0, H3, H4, HS0, HS1⟩
  isplitl [HS0 HS1 HS2 Hg]
  · isplitl [HS0 HS1 HS2]
    · isplitl [HS0]; · iexact HS0
      iexists (newS2B m c t hc1 hc2 hc3 hc4 (s1Spec (argsOf m c)) s2); iexists s3
      isplitr; · ipureintro; exact stepB m c t h2 hc1 hc2 hc3 hc4 s2 s3 hinv
      isplitl [HS1]
      · unfold owns; iexists _; isplitr
        swap; · iexact HS1
        ipureintro; rfl
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 4800000 in
/-- Phase 1: one more row block of the third scratch, from the complete second. -/
theorem soundC (c : Dev nD) (t : Fin cfg0.N) (h2 : 125 ≤ t.val) (h3 : t.val < 250) :
    bodyPre m c t ⊢ wp frame (wpE (defs₀ (F := F)) Variants.none c none) Set.univ (bodyAt0 t) (fun _ => bodyPost m c t) := by
  have hc1 : ¬condA (grid0.coords t) := fun h => by have := (hcondA t).mp h; omega
  have hc2 : ¬cond2 (grid0.coords t) := fun h => by have := (hcond2 t).mp h; omega
  have hc3 : cond3 (grid0.coords t) := (hcond3 t).mpr ⟨h2, h3⟩
  have hc4 : ¬cond4 (grid0.coords t) := fun h => by have := (hcond4 t).mp h; omega
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [leaves_in0 m c t, leaves_in1 m c t, leaves_in2 m c t, leaves_in3 m c t, leaves_in4 m c t, leaves_in5 m c t, leaves_in6 m c t]
  rw [leaves7_idle m c t h3]
  rw [PhiS_castSucc m c t, PhiS_pos m c _ _ (by omega)]
  iintro ⟨⟨⟨HS0, ⟨%s2, %s3, %hinv, HS1, HS2⟩⟩, Hg⟩, Ho, ⟨%e0, H0⟩, ⟨%e1, H1⟩, ⟨%e2, H2⟩, ⟨%e3, H3⟩, ⟨%e4, H4⟩, ⟨%e5, H5⟩, ⟨%e6, H6⟩, H7⟩
  iapply ((kernelRunC c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 hsc0 scM1 hsc1 scM2 hsc2 hc1 hc2 hc3 hc4 (iblk m c 0 t) (iblk m c 5 t) s2 s3).2 Set.univ _)
  isplitl [H0]; · iexact H0
  isplitl [H5]; · iexact H5
  isplitl [HS1]; · iexact HS1
  isplitl [HS2]; · iexact HS2
  iintro ⟨H0, H5, HS1, HS2⟩
  isplitl [HS0 HS1 HS2 Hg]
  · isplitl [HS0 HS1 HS2]
    · isplitl [HS0]; · iexact HS0
      iexists s2; iexists (newS3C m c t hc1 hc2 hc3 hc4 s2 s3)
      isplitr; · ipureintro; exact stepC m c t h2 h3 hc1 hc2 hc3 hc4 s2 s3 hinv
      isplitl [HS1]; · iexact HS1
      unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 4800000 in
/-- Phase 2: the output block, from the complete third scratch. -/
theorem soundD (c : Dev nD) (t : Fin cfg0.N) (h3 : 250 ≤ t.val) :
    bodyPre m c t ⊢ wp frame (wpE (defs₀ (F := F)) Variants.none c none) Set.univ (bodyAt0 t) (fun _ => bodyPost m c t) := by
  have hc1 : ¬condA (grid0.coords t) := fun h => by have := (hcondA t).mp h; omega
  have hc2 : ¬cond2 (grid0.coords t) := fun h => by have := (hcond2 t).mp h; omega
  have hc3 : ¬cond3 (grid0.coords t) := fun h => by have := (hcond3 t).mp h; omega
  have hc4 : cond4 (grid0.coords t) := (hcond4 t).mpr h3
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [leaves_in0 m c t, leaves_in1 m c t, leaves_in2 m c t, leaves_in3 m c t, leaves_in4 m c t, leaves_in5 m c t, leaves_in6 m c t]
  rw [leaves7_live m c t h3]
  rw [PhiS_castSucc m c t, PhiS_pos m c _ _ (by omega)]
  iintro ⟨⟨⟨HS0, ⟨%s2, %s3, %hinv, HS1, HS2⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
  iapply ((kernelRunD c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 hsc0 scM1 hsc1 scM2 hsc2 hc1 hc2 hc3 hc4 (iblk m c 6 t) s3).2 Set.univ _)
  isplitl [H6]; · iexact H6
  isplitl [H7]; · iexists _; iexact H7
  isplitl [HS2]; · iexact HS2
  iintro ⟨H6, ⟨%f9, H7⟩, HS2⟩
  isplitl [HS0 HS1 HS2 Hg]
  · isplitl [HS0 HS1 HS2]
    · isplitl [HS0]; · iexact HS0
      iexists s2; iexists s3
      isplitr; · ipureintro; exact hinv.succ_of_full h3
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact coverD m c t h3 hc1 hc2 hc3 hc4 s2 s3 hinv _

/-- The body at any point: the point is in exactly one of the four cases. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact soundA m c t h0
  · by_cases h2 : t.val < 125
    · exact soundB m c t h0 h2
    · by_cases h3 : t.val < 250
      · exact soundC m c t (by omega) h3
      · exact soundD m c t (by omega)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class invariant back: the scratch contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 375 := N_0; omega), PhiA0_eq]
  iintro ⟨⟨HS0, ⟨%s2, %s3, -, HS1, HS2⟩⟩, Hg⟩
  isplitl [HS0 HS1 HS2]
  · isplitl [HS0]; · iexists _; iexact HS0
    isplitl [HS1]; · iexists _; iexact HS1
    iexists _; iexact HS2
  iexact Hg

/-! ## The run and the frame -/

set_option backward.isDefEq.respectTransparency.types false in
/-- Every weakly fair execution of @main terminates, and every final state has every array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: @main runs to the end without a fault and leaves its seven arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Body

end
-- ==== Proof.Spec.lean ====
/-
  The two-layer graph convolution and its bilinear decoder, as one function of the seven argument arrays, element by
  element on the extended reals:

    support1 = x · W1                       [10000 × 64]
    hidden1  = max (adj · support1 + b1) 0  [10000 × 64]
    support2 = hidden1 · W2                 [10000 × 16]
    hidden2  = max (adj · support2 + b2) 0  [10000 × 16]
    proj     = hidden2 · Wd                 [10000 × 16]
    score    = proj · hidden2ᵀ              [10000 × 10000]

  Every product is a finite sum over the contracted coordinate; the zero the maxima are taken against is the value of the
  f32 word 0x00000000, kept as that word.
-/
import Idealize.ShloMosaic.PureOps.Ideal
import Idealize.ShloMosaic.Lib.ValueIdx

noncomputable section

open scoped BigOperators

namespace Cert.GcnSpec

open Idealize.ShloMosaic Idealize.ShloMosaic.ValueIdx

/-- A matrix of extended reals with `a` rows and `b` columns, indexed as the printed programs index a rank-2 array. -/
abbrev Mat (a b : Nat) : Type := (⟨2, ![a, b]⟩ : Shape).Idx → EReal
/-- A vector of extended reals of length `a`, indexed as the printed programs index a rank-1 array. -/
abbrev Vect (a : Nat) : Type := (⟨1, ![a]⟩ : Shape).Idx → EReal

/-- The zero both programs take their maxima against: the value of the f32 word of `0.0`. -/
abbrev zero : EReal := Ideal.ofBits .f32 0x00000000#32

/-- `x · W1` at row `k`, column `j`. -/
def support1 (x : Mat 10000 128) (W1 : Mat 128 64) (k : Fin 10000) (j : Fin 64) : EReal :=
  ∑ f : Fin 128, x (ix2 k f) * W1 (ix2 f j)

/-- `max (adj · support1 + b1) 0` at row `r`, column `j`. -/
def hidden1 (adj : Mat 10000 10000) (x : Mat 10000 128) (W1 : Mat 128 64) (b1 : Vect 64) (r : Fin 10000) (j : Fin 64) : EReal :=
  max (∑ k : Fin 10000, adj (ix2 r k) * support1 x W1 k j + b1 (ix1 j)) zero

/-- `hidden1 · W2` at row `r`, column `o`. -/
def support2 (adj : Mat 10000 10000) (x : Mat 10000 128) (W1 : Mat 128 64) (b1 : Vect 64) (W2 : Mat 64 16)
    (r : Fin 10000) (o : Fin 16) : EReal :=
  ∑ j : Fin 64, hidden1 adj x W1 b1 r j * W2 (ix2 j o)

/-- `max (adj · support2 + b2) 0` at row `r`, column `o`. -/
def hidden2 (adj : Mat 10000 10000) (x : Mat 10000 128) (W1 : Mat 128 64) (b1 : Vect 64) (W2 : Mat 64 16) (b2 : Vect 16)
    (r : Fin 10000) (o : Fin 16) : EReal :=
  max (∑ k : Fin 10000, adj (ix2 r k) * support2 adj x W1 b1 W2 k o + b2 (ix1 o)) zero

/-- `hidden2 · Wd` at row `r`, column `o'`. -/
def proj (adj : Mat 10000 10000) (x : Mat 10000 128) (W1 : Mat 128 64) (b1 : Vect 64) (W2 : Mat 64 16) (b2 : Vect 16)
    (Wd : Mat 16 16) (r : Fin 10000) (o' : Fin 16) : EReal :=
  ∑ o : Fin 16, hidden2 adj x W1 b1 W2 b2 r o * Wd (ix2 o o')

/-- The result: `proj · hidden2ᵀ`, the whole array as one function of the seven arguments. -/
def score (adj : Mat 10000 10000) (x : Mat 10000 128) (W1 : Mat 128 64) (b1 : Vect 64) (W2 : Mat 64 16) (b2 : Vect 16)
    (Wd : Mat 16 16) : Mat 10000 10000 :=
  fun i => ∑ o' : Fin 16, proj adj x W1 b1 W2 b2 Wd (i 0) o' * hidden2 adj x W1 b1 W2 b2 (i 1) o'

end Cert.GcnSpec

end
-- ==== Proof.KernelIdeal.PayloadValue.lean ====
/-
  Each value the kernel body stores, read at one index on the extended reals.

  The body works on a block of 80 rows of the adjacency matrix at a time and stores four values. Each of them is a short
  chain of matrix products into a zero accumulator, a transpose, reshapes to the same shape, a bias row repeated down the
  80 rows, an addition and a maximum against the zero word. Read at one index (row `p`, column `q`), a product into the
  zero accumulator is the finite sum over the contracted coordinate `k` of the left operand at `(p, k)` times the right
  operand at `(k, q)` — or at `(q, k)` when the right operand is contracted along its second axis, that is, when the
  product is by the transposed matrix. The six products of the body are read this way first; the four stored values
  follow by reading the layout operations at the index and the elementwise operations pointwise:

    value 1 = (x · W1)ᵀ                                  [64 × 10000]    support1, transposed
    value 2 = max (a · s1tᵀ + b1) 0 · W2                 [80 × 16]       a block of support2
    value 3 = max (a · s2 + b2) 0                        [80 × 16]       a block of hidden2
    value 4 = (h · Wd) · h2ᵀ                             [80 × 10000]    a block of the score

  In every product the factors stay in the order left operand times right operand, so the sums meet the specification's
  term by term.
-/
import proofs.«149746_g67903432950113_cont_9to1_m_218_26_alg».proof.Proof.Gen.KernelIdeal.Skeleton
import proofs.«149746_g67903432950113_cont_9to1_m_218_26_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayloadValue

open Idealize.ShloMosaic Idealize.ShloMosaic.ValueIdx Cert.KernelIdeal Cert.KernelIdeal.Gen
open scoped BigOperators

/-! ## The six matrix products at an index -/

/-- The first layer's feature product `x · W1`: a `10000 × 128` matrix times a `128 × 64` one into the zero accumulator, read at row `p`, column `q`, is the sum over the 128 features. -/
theorem mm_x_W1 (l : FVec Ideal S10000x128 .f32) (r : FVec Ideal S128x64 .f32) (p : Fin 10000) (q : Fin 64) :
    FloatOps.matmul dot_S10000x128_S128x64_S10000x64_1_0_0_1_n_n none l r (constant (F := Ideal) S10000x64 .f32 0x00000000#32) (ix2 p q)
      = ∑ k : Fin 128, l (ix2 p k) * r (ix2 k q) := by
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k :=
    funext fun a => Fin.ext (by
    match a with
    | ⟨0, _⟩ =>
      show (dot_S10000x128_S128x64_S10000x64_1_0_0_1_n_n.lhsIdx _ _ 0).val = p.val
      unfold DotDims.lhsIdx
      rw [dif_neg (show ¬(0 : Fin S10000x128.rank) ∈ dot_S10000x128_S128x64_S10000x64_1_0_0_1_n_n.lhsBatch by decide),
        dif_pos (show (0 : Fin S10000x128.rank) ∈ dot_S10000x128_S128x64_S10000x64_1_0_0_1_n_n.lhsNonContracting by decide)]
      rfl
    | ⟨1, _⟩ => exact (dot_S10000x128_S128x64_S10000x64_1_0_0_1_n_n.lhsIdx_val_of_single rfl _ _).trans hk)
  have er : dot_S10000x128_S128x64_S10000x64_1_0_0_1_n_n.rhsIdx (ix2 p q) ((contrEquiv1 dot_S10000x128_S128x64_S10000x64_1_0_0_1_n_n 128 rfl rfl).symm k) = ix2 k q :=
    funext fun a => Fin.ext (by
    match a with
    | ⟨0, _⟩ =>
      exact (dot_S10000x128_S128x64_S10000x64_1_0_0_1_n_n.rhsIdx_val_of_single rfl _ _).trans hk
    | ⟨1, _⟩ =>
      show (dot_S10000x128_S128x64_S10000x64_1_0_0_1_n_n.rhsIdx _ _ 1).val = q.val
      unfold DotDims.rhsIdx
      rw [dif_neg (show ¬(1 : Fin S128x64.rank) ∈ dot_S10000x128_S128x64_S10000x64_1_0_0_1_n_n.rhsBatch by decide),
        dif_pos (show (1 : Fin S128x64.rank) ∈ dot_S10000x128_S128x64_S10000x64_1_0_0_1_n_n.rhsNonContracting by decide)]
      rfl)
  rw [el, er]

/-- The first layer's aggregation `adj · support1` on a block of 80 rows, with `support1` held transposed (`64 × 10000`): both operands are contracted along their second axis, so row `p`, column `q` is the sum over the 10000 nodes of `l (p, k) * r (q, k)`. -/
theorem mm_a_s1t (l : FVec Ideal S80x10000 .f32) (r : FVec Ideal S64x10000 .f32) (p : Fin 80) (q : Fin 64) :
    FloatOps.matmul dot_S80x10000_S64x10000_S80x64_1_1_0_0_n_n none l r (constant (F := Ideal) S80x64 .f32 0x00000000#32) (ix2 p q)
      = ∑ k : Fin 10000, l (ix2 p k) * r (ix2 q k) := by
  rw [Ideal.matmul_constant_zero_apply, ← Equiv.sum_comp (contrEquiv1 dot_S80x10000_S64x10000_S80x64_1_1_0_0_n_n 10000 rfl rfl).symm]
  refine Finset.sum_congr rfl fun k _ => ?_
  have hk := contrEquiv1_symm_val dot_S80x10000_S64x10000_S80x64_1_1_0_0_n_n 10000 rfl rfl k
  have el : dot_S80x10000_S64x10000_S80x64_1_1_0_0_n_n.lhsIdx (ix2 p q) ((contrEquiv1 dot_S80x10000_S64x10000_S80x64_1_1_0_0_n_n 10000 rfl rfl).symm k) = ix2 p k :=
    funext fun a => Fin.ext (by
    match a with
    | ⟨0, _⟩ =>
      show (dot_S80x10000_S64x10000_S80x64_1_1_0_0_n_n.lhsIdx _ _ 0).val = p.val
      unfold DotDims.lhsIdx
      rw [dif_neg (show ¬(0 : Fin S80x10000.rank) ∈ dot_S80x10000_S64x10000_S80x64_1_1_0_0_n_n.lhsBatch by decide),
        dif_pos (show (0 : Fin S80x10000.rank) ∈ dot_S80x10000_S64x10000_S80x64_1_1_0_0_n_n.lhsNonContracting by decide)]
      rfl
    | ⟨1, _⟩ => exact (dot_S80x10000_S64x10000_S80x64_1_1_0_0_n_n.lhsIdx_val_of_single rfl _ _).trans hk)
  have er : dot_S80x10000_S64x10000_S80x64_1_1_0_0_n_n.rhsIdx (ix2 p q) ((contrEquiv1 dot_S80x10000_S64x10000_S80x64_1_1_0_0_n_n 10000 rfl rfl).symm k) = ix2 q k :=
    funext fun a => Fin.ext (by
    match a with
    | ⟨0, _⟩ =>
      show (dot_S80x10000_S64x10000_S80x64_1_1_0_0_n_n.rhsIdx _ _ 0).val = q.val
      unfold DotDims.rhsIdx
      rw [dif_neg (show ¬(0 : Fin S64x10000.rank) ∈ dot_S80x10000_S64x10000_S80x64_1_1_0_0_n_n.rhsBatch by decide),
        dif_pos (show (0 : Fin S64x10000.rank) ∈ dot_S80x10000_S64x10000_S80x64_1_1_0_0_n_n.rhsNonContracting by decide)]
      rfl
    | ⟨1, _⟩ =>
      exact (dot_S80x10000_S64x10000_S80x64_1_1_0_0_n_n.rhsIdx_val_of_single rfl _ _).trans hk)
  rw [el, er]

/-- The second layer's feature product `hidden1 · W2` on a block of 80 rows: an `80 × 64` matrix times a `64 × 16` one, read at row `p`, column `q`, is the sum over the 64 hidden features. -/
theorem mm_h1_W2 (l : FVec Ideal S80x64 .f32) (r : FVec Ideal S64x16 .f32) (p : Fin 80) (q : Fin 16) :
    FloatOps.matmul dot_S80x64_S64x16_S80x16_1_0_0_1_n_n none l r (constant (F := Ideal) S80x16 .f32 0x00000000#32) (ix2 p q)
      = ∑ k : Fin 64, l (ix2 p k) * r (ix2 k q) := by
  rw [Ideal.matmul_constant_zero_apply, ← Equiv.sum_comp (contrEquiv1 dot_S80x64_S64x16_S80x16_1_0_0_1_n_n 64 rfl rfl).symm]
  refine Finset.sum_congr rfl fun k _ => ?_
  have hk := contrEquiv1_symm_val dot_S80x64_S64x16_S80x16_1_0_0_1_n_n 64 rfl rfl k
  have el : dot_S80x64_S64x16_S80x16_1_0_0_1_n_n.lhsIdx (ix2 p q) ((contrEquiv1 dot_S80x64_S64x16_S80x16_1_0_0_1_n_n 64 rfl rfl).symm k) = ix2 p k :=
    funext fun a => Fin.ext (by
    match a with
    | ⟨0, _⟩ =>
      show (dot_S80x64_S64x16_S80x16_1_0_0_1_n_n.lhsIdx _ _ 0).val = p.val
      unfold DotDims.lhsIdx
      rw [dif_neg (show ¬(0 : Fin S80x64.rank) ∈ dot_S80x64_S64x16_S80x16_1_0_0_1_n_n.lhsBatch by decide),
        dif_pos (show (0 : Fin S80x64.rank) ∈ dot_S80x64_S64x16_S80x16_1_0_0_1_n_n.lhsNonContracting by decide)]
      rfl
    | ⟨1, _⟩ => exact (dot_S80x64_S64x16_S80x16_1_0_0_1_n_n.lhsIdx_val_of_single rfl _ _).trans hk)
  have er : dot_S80x64_S64x16_S80x16_1_0_0_1_n_n.rhsIdx (ix2 p q) ((contrEquiv1 dot_S80x64_S64x16_S80x16_1_0_0_1_n_n 64 rfl rfl).symm k) = ix2 k q :=
    funext fun a => Fin.ext (by
    match a with
    | ⟨0, _⟩ =>
      exact (dot_S80x64_S64x16_S80x16_1_0_0_1_n_n.rhsIdx_val_of_single rfl _ _).trans hk
    | ⟨1, _⟩ =>
      show (dot_S80x64_S64x16_S80x16_1_0_0_1_n_n.rhsIdx _ _ 1).val = q.val
      unfold DotDims.rhsIdx
      rw [dif_neg (show ¬(1 : Fin S64x16.rank) ∈ dot_S80x64_S64x16_S80x16_1_0_0_1_n_n.rhsBatch by decide),
        dif_pos (show (1 : Fin S64x16.rank) ∈ dot_S80x64_S64x16_S80x16_1_0_0_1_n_n.rhsNonContracting by decide)]
      rfl)
  rw [el, er]

/-- The second layer's aggregation `adj · support2` on a block of 80 rows: an `80 × 10000` matrix times a `10000 × 16` one, read at row `p`, column `q`, is the sum over the 10000 nodes. -/
theorem mm_a_s2 (l : FVec Ideal S80x10000 .f32) (r : FVec Ideal S10000x16 .f32) (p : Fin 80) (q : Fin 16) :
    FloatOps.matmul dot_S80x10000_S10000x16_S80x16_1_0_0_1_n_n none l r (constant (F := Ideal) S80x16 .f32 0x00000000#32) (ix2 p q)
      = ∑ k : Fin 10000, l (ix2 p k) * r (ix2 k q) := by
  rw [Ideal.matmul_constant_zero_apply, ← Equiv.sum_comp (contrEquiv1 dot_S80x10000_S10000x16_S80x16_1_0_0_1_n_n 10000 rfl rfl).symm]
  refine Finset.sum_congr rfl fun k _ => ?_
  have hk := contrEquiv1_symm_val dot_S80x10000_S10000x16_S80x16_1_0_0_1_n_n 10000 rfl rfl k
  have el : dot_S80x10000_S10000x16_S80x16_1_0_0_1_n_n.lhsIdx (ix2 p q) ((contrEquiv1 dot_S80x10000_S10000x16_S80x16_1_0_0_1_n_n 10000 rfl rfl).symm k) = ix2 p k :=
    funext fun a => Fin.ext (by
    match a with
    | ⟨0, _⟩ =>
      show (dot_S80x10000_S10000x16_S80x16_1_0_0_1_n_n.lhsIdx _ _ 0).val = p.val
      unfold DotDims.lhsIdx
      rw [dif_neg (show ¬(0 : Fin S80x10000.rank) ∈ dot_S80x10000_S10000x16_S80x16_1_0_0_1_n_n.lhsBatch by decide),
        dif_pos (show (0 : Fin S80x10000.rank) ∈ dot_S80x10000_S10000x16_S80x16_1_0_0_1_n_n.lhsNonContracting by decide)]
      rfl
    | ⟨1, _⟩ => exact (dot_S80x10000_S10000x16_S80x16_1_0_0_1_n_n.lhsIdx_val_of_single rfl _ _).trans hk)
  have er : dot_S80x10000_S10000x16_S80x16_1_0_0_1_n_n.rhsIdx (ix2 p q) ((contrEquiv1 dot_S80x10000_S10000x16_S80x16_1_0_0_1_n_n 10000 rfl rfl).symm k) = ix2 k q :=
    funext fun a => Fin.ext (by
    match a with
    | ⟨0, _⟩ =>
      exact (dot_S80x10000_S10000x16_S80x16_1_0_0_1_n_n.rhsIdx_val_of_single rfl _ _).trans hk
    | ⟨1, _⟩ =>
      show (dot_S80x10000_S10000x16_S80x16_1_0_0_1_n_n.rhsIdx _ _ 1).val = q.val
      unfold DotDims.rhsIdx
      rw [dif_neg (show ¬(1 : Fin S10000x16.rank) ∈ dot_S80x10000_S10000x16_S80x16_1_0_0_1_n_n.rhsBatch by decide),
        dif_pos (show (1 : Fin S10000x16.rank) ∈ dot_S80x10000_S10000x16_S80x16_1_0_0_1_n_n.rhsNonContracting by decide)]
      rfl)
  rw [el, er]

/-- The decoder's projection `hidden2 · Wd` on a block of 80 rows: an `80 × 16` matrix times a `16 × 16` one, read at row `p`, column `q`, is the sum over the 16 output features. -/
theorem mm_h2_Wd (l : FVec Ideal S80x16 .f32) (r : FVec Ideal S16x16 .f32) (p : Fin 80) (q : Fin 16) :
    FloatOps.matmul dot_S80x16_S16x16_S80x16_1_0_0_1_n_n none l r (constant (F := Ideal) S80x16 .f32 0x00000000#32) (ix2 p q)
      = ∑ k : Fin 16, l (ix2 p k) * r (ix2 k q) := by
  rw [Ideal.matmul_constant_zero_apply, ← Equiv.sum_comp (contrEquiv1 dot_S80x16_S16x16_S80x16_1_0_0_1_n_n 16 rfl rfl).symm]
  refine Finset.sum_congr rfl fun k _ => ?_
  have hk := contrEquiv1_symm_val dot_S80x16_S16x16_S80x16_1_0_0_1_n_n 16 rfl rfl k
  have el : dot_S80x16_S16x16_S80x16_1_0_0_1_n_n.lhsIdx (ix2 p q) ((contrEquiv1 dot_S80x16_S16x16_S80x16_1_0_0_1_n_n 16 rfl rfl).symm k) = ix2 p k :=
    funext fun a => Fin.ext (by
    match a with
    | ⟨0, _⟩ =>
      show (dot_S80x16_S16x16_S80x16_1_0_0_1_n_n.lhsIdx _ _ 0).val = p.val
      unfold DotDims.lhsIdx
      rw [dif_neg (show ¬(0 : Fin S80x16.rank) ∈ dot_S80x16_S16x16_S80x16_1_0_0_1_n_n.lhsBatch by decide),
        dif_pos (show (0 : Fin S80x16.rank) ∈ dot_S80x16_S16x16_S80x16_1_0_0_1_n_n.lhsNonContracting by decide)]
      rfl
    | ⟨1, _⟩ => exact (dot_S80x16_S16x16_S80x16_1_0_0_1_n_n.lhsIdx_val_of_single rfl _ _).trans hk)
  have er : dot_S80x16_S16x16_S80x16_1_0_0_1_n_n.rhsIdx (ix2 p q) ((contrEquiv1 dot_S80x16_S16x16_S80x16_1_0_0_1_n_n 16 rfl rfl).symm k) = ix2 k q :=
    funext fun a => Fin.ext (by
    match a with
    | ⟨0, _⟩ =>
      exact (dot_S80x16_S16x16_S80x16_1_0_0_1_n_n.rhsIdx_val_of_single rfl _ _).trans hk
    | ⟨1, _⟩ =>
      show (dot_S80x16_S16x16_S80x16_1_0_0_1_n_n.rhsIdx _ _ 1).val = q.val
      unfold DotDims.rhsIdx
      rw [dif_neg (show ¬(1 : Fin S16x16.rank) ∈ dot_S80x16_S16x16_S80x16_1_0_0_1_n_n.rhsBatch by decide),
        dif_pos (show (1 : Fin S16x16.rank) ∈ dot_S80x16_S16x16_S80x16_1_0_0_1_n_n.rhsNonContracting by decide)]
      rfl)
  rw [el, er]

/-- The decoder's score `proj · hidden2ᵀ` on a block of 80 rows: both operands are contracted along their second axis, so row `p`, column `q` is the sum over the 16 output features of `l (p, k) * r (q, k)`. -/
theorem mm_proj_h2t (l : FVec Ideal S80x16 .f32) (r : FVec Ideal S10000x16 .f32) (p : Fin 80) (q : Fin 10000) :
    FloatOps.matmul dot_S80x16_S10000x16_S80x10000_1_1_0_0_n_n none l r (constant (F := Ideal) S80x10000 .f32 0x00000000#32) (ix2 p q)
      = ∑ k : Fin 16, l (ix2 p k) * r (ix2 q k) := by
  rw [Ideal.matmul_constant_zero_apply, ← Equiv.sum_comp (contrEquiv1 dot_S80x16_S10000x16_S80x10000_1_1_0_0_n_n 16 rfl rfl).symm]
  refine Finset.sum_congr rfl fun k _ => ?_
  have hk := contrEquiv1_symm_val dot_S80x16_S10000x16_S80x10000_1_1_0_0_n_n 16 rfl rfl k
  have el : dot_S80x16_S10000x16_S80x10000_1_1_0_0_n_n.lhsIdx (ix2 p q) ((contrEquiv1 dot_S80x16_S10000x16_S80x10000_1_1_0_0_n_n 16 rfl rfl).symm k) = ix2 p k :=
    funext fun a => Fin.ext (by
    match a with
    | ⟨0, _⟩ =>
      show (dot_S80x16_S10000x16_S80x10000_1_1_0_0_n_n.lhsIdx _ _ 0).val = p.val
      unfold DotDims.lhsIdx
      rw [dif_neg (show ¬(0 : Fin S80x16.rank) ∈ dot_S80x16_S10000x16_S80x10000_1_1_0_0_n_n.lhsBatch by decide),
        dif_pos (show (0 : Fin S80x16.rank) ∈ dot_S80x16_S10000x16_S80x10000_1_1_0_0_n_n.lhsNonContracting by decide)]
      rfl
    | ⟨1, _⟩ => exact (dot_S80x16_S10000x16_S80x10000_1_1_0_0_n_n.lhsIdx_val_of_single rfl _ _).trans hk)
  have er : dot_S80x16_S10000x16_S80x10000_1_1_0_0_n_n.rhsIdx (ix2 p q) ((contrEquiv1 dot_S80x16_S10000x16_S80x10000_1_1_0_0_n_n 16 rfl rfl).symm k) = ix2 q k :=
    funext fun a => Fin.ext (by
    match a with
    | ⟨0, _⟩ =>
      show (dot_S80x16_S10000x16_S80x10000_1_1_0_0_n_n.rhsIdx _ _ 0).val = q.val
      unfold DotDims.rhsIdx
      rw [dif_neg (show ¬(0 : Fin S10000x16.rank) ∈ dot_S80x16_S10000x16_S80x10000_1_1_0_0_n_n.rhsBatch by decide),
        dif_pos (show (0 : Fin S10000x16.rank) ∈ dot_S80x16_S10000x16_S80x10000_1_1_0_0_n_n.rhsNonContracting by decide)]
      rfl
    | ⟨1, _⟩ =>
      exact (dot_S80x16_S10000x16_S80x10000_1_1_0_0_n_n.rhsIdx_val_of_single rfl _ _).trans hk)
  rw [el, er]

/-! ## The bias rows -/

/-- The first layer's bias row broadcast down 80 rows reads the row's entry of the column. -/
theorem bias64_apply (b : Vec Ideal S1x64 .f32) (h : S1x64.Broadcasts S80x64) (p : Fin 80) (j : Fin 64) :
    broadcastTo S80x64 b h (ix2 p j) = b (ix2 (0 : Fin 1) j) :=
  broadcastTo_apply b h (ix2 p j) (ix2 (0 : Fin 1) j) (fun a => by
    match a with
    | ⟨0, _⟩ => show 0 = if (1 : Nat) = 1 then 0 else _; rw [if_pos rfl]
    | ⟨1, _⟩ => show j.val = if (64 : Nat) = 1 then 0 else j.val; rw [if_neg (by decide)])

/-- The second layer's bias row broadcast down 80 rows reads the row's entry of the column. -/
theorem bias16_apply (b : Vec Ideal S1x16 .f32) (h : S1x16.Broadcasts S80x16) (p : Fin 80) (o : Fin 16) :
    broadcastTo S80x16 b h (ix2 p o) = b (ix2 (0 : Fin 1) o) :=
  broadcastTo_apply b h (ix2 p o) (ix2 (0 : Fin 1) o) (fun a => by
    match a with
    | ⟨0, _⟩ => show 0 = if (1 : Nat) = 1 then 0 else _; rw [if_pos rfl]
    | ⟨1, _⟩ => show o.val = if (16 : Nat) = 1 then 0 else o.val; rw [if_neg (by decide)])

/-! ## The four stored values -/

/-- The first stored value is `support1` transposed: the product `x · W1`, transposed to `64 × 10000` and passed through
    an identity reshape, read at feature `j` and node `k` is `support1` at row `k`, column `j`. -/
theorem pay1_apply (x : Vec Ideal S10000x128 .f32) (W1 : Vec Ideal S128x64 .f32) (j : Fin 64) (k : Fin 10000) :
    k0_pay1 (F := Ideal) x W1 (ix2 j k) = Cert.GcnSpec.support1 x W1 k j := by
  unfold k0_pay1
  rw [shapeCast_self]
  refine (transpose_apply _ _ _ (ix2 j k) (ix2 k j) (fun b => by
    match b with
    | ⟨0, _⟩ => rfl
    | ⟨1, _⟩ => rfl)).trans ?_
  exact mm_x_W1 x W1 k j

/-- The second stored value is `support2` on a block of 80 rows: the first layer (the aggregation of the transposed
    `support1` plus the bias row, clamped below at zero) times `W2`. -/
theorem pay2_apply (a : Vec Ideal S80x10000 .f32) (s1t : Vec Ideal S64x10000 .f32) (b1r : Vec Ideal S1x64 .f32)
    (W2 : Vec Ideal S64x16 .f32) (p : Fin 80) (o : Fin 16) :
    k0_pay2 (F := Ideal) a s1t b1r W2 (ix2 p o)
      = ∑ j : Fin 64, max (∑ k : Fin 10000, a (ix2 p k) * s1t (ix2 j k) + b1r (ix2 (0 : Fin 1) j)) Cert.GcnSpec.zero
          * W2 (ix2 j o) := by
  unfold k0_pay2
  rw [shapeCast_self, shapeCast_self]
  refine (mm_h1_W2 _ W2 p o).trans ?_
  refine Finset.sum_congr rfl fun j _ => ?_
  rw [maximumf_apply, addf_apply, broadcast_apply, bias64_apply]
  exact congrArg (fun t => max (t + b1r (ix2 (0 : Fin 1) j)) Cert.GcnSpec.zero * W2 (ix2 j o)) (mm_a_s1t a s1t p j)

/-- The third stored value is the second layer on a block of 80 rows: the aggregation `adj · support2` plus the bias
    row, clamped below at zero. -/
theorem pay3_apply (a : Vec Ideal S80x10000 .f32) (s2 : Vec Ideal S10000x16 .f32) (b2r : Vec Ideal S1x16 .f32)
    (p : Fin 80) (o : Fin 16) :
    k0_pay3 (F := Ideal) a s2 b2r (ix2 p o)
      = max (∑ k : Fin 10000, a (ix2 p k) * s2 (ix2 k o) + b2r (ix2 (0 : Fin 1) o)) Cert.GcnSpec.zero := by
  unfold k0_pay3
  rw [shapeCast_self, shapeCast_self, maximumf_apply, addf_apply, broadcast_apply, bias16_apply]
  exact congrArg (fun t => max (t + b2r (ix2 (0 : Fin 1) o)) Cert.GcnSpec.zero) (mm_a_s2 a s2 p o)

/-- The fourth stored value is the decoder's score on a block of 80 rows: the projection `hidden2 · Wd` of the block
    times the whole `hidden2` transposed. -/
theorem pay4_apply (h : Vec Ideal S80x16 .f32) (Wd : Vec Ideal S16x16 .f32) (h2 : Vec Ideal S10000x16 .f32)
    (p : Fin 80) (c : Fin 10000) :
    k0_pay4 (F := Ideal) h Wd h2 (ix2 p c)
      = ∑ o' : Fin 16, (∑ o : Fin 16, h (ix2 p o) * Wd (ix2 o o')) * h2 (ix2 c o') := by
  unfold k0_pay4
  refine (mm_proj_h2t _ h2 p c).trans ?_
  refine Finset.sum_congr rfl fun o' _ => ?_
  exact congrArg (· * h2 (ix2 c o')) (mm_h2_Wd h Wd p o')

end Cert.KernelIdeal.PayloadValue

end
-- ==== Proof.KernelIdeal.SpecValue.lean ====
/-
  The body's arithmetic over the whole arrays is the specification, on the extended reals.

  The body computes in row blocks of 80 rows (125 blocks of an array of 10000 rows) and keeps three scratch arrays: the
  first holds `support1 = x · W1` transposed; block `b` of the second is computed from block `b` of the adjacency matrix
  and the whole first scratch array; block `b` of the third from block `b` of the adjacency matrix and the whole second
  scratch array; output block `b` from block `b` of the third scratch array and the whole third scratch array. Reading
  each stored value at one index as a finite sum, and a row `r` as `80 (r / 80) + r % 80`, the three scratch arrays are
  the specification's `support1` (transposed), `support2` and `hidden2`, and output block `b` at place `p` is the
  specification's score at row `80 b + p`. The sums and maxima are in the specification's own arrangement, so each step
  is a rewriting under the sum by the previous layer's equation; no algebra on the extended reals is used.
-/
import proofs.«149746_g67903432950113_cont_9to1_m_218_26_alg».proof.Proof.KernelIdeal.BodySpec
import proofs.«149746_g67903432950113_cont_9to1_m_218_26_alg».proof.Proof.KernelIdeal.PayloadValue
import proofs.«149746_g67903432950113_cont_9to1_m_218_26_alg».proof.Proof.Spec

noncomputable section

namespace Cert.KernelIdeal.SpecValue

open Idealize.ShloMosaic Idealize.ShloMosaic.ValueIdx Cert.KernelIdeal Cert.KernelIdeal.Gen Cert.KernelIdeal.Body
  Cert.KernelIdeal.PayloadValue
open scoped BigOperators

/-! ## The biases as vectors, rows and row blocks -/

/-- The first layer's bias, held by the body as a row `[1, 64]`, read back as a vector of length 64. -/
def biasRow64 (A : Args Ideal) : Cert.GcnSpec.Vect 64 := fun i => A.b1 (ix2 (0 : Fin 1) (i 0 : Fin 64))
/-- The second layer's bias, held by the body as a row `[1, 16]`, read back as a vector of length 16. -/
def biasRow16 (A : Args Ideal) : Cert.GcnSpec.Vect 16 := fun i => A.b2 (ix2 (0 : Fin 1) (i 0 : Fin 16))

theorem biasRow64_apply (A : Args Ideal) (j : Fin 64) : biasRow64 A (ix1 j) = A.b1 (ix2 (0 : Fin 1) j) := rfl
theorem biasRow16_apply (A : Args Ideal) (o : Fin 16) : biasRow16 A (ix1 o) = A.b2 (ix2 (0 : Fin 1) o) := rfl

/-- Place `p`, column `q` of row block `b` is row `80 b + p`, column `q` of the array. -/
theorem rowBlock_apply {C : ℕ} {α : Type} (X : (⟨2, ![10000, C]⟩ : Shape).Idx → α) (b : Fin 125) (p : Fin 80) (q : Fin C)
    (h : 80 * b.val + p.val < 10000) : rowBlock X b (ix2 p q) = X (ix2 ⟨80 * b.val + p.val, h⟩ q) := rfl

/-- Every row `r < 10000` is `80 b + p` for its block `b = r / 80` and its place `p = r % 80`. -/
theorem row_split (r : Fin 10000) :
    ∃ (b : Fin 125) (p : Fin 80) (h : 80 * b.val + p.val < 10000), (⟨80 * b.val + p.val, h⟩ : Fin 10000) = r :=
  ⟨⟨r.val / 80, by have := r.isLt; omega⟩, ⟨r.val % 80, Nat.mod_lt _ (by decide)⟩,
    by have := r.isLt; show 80 * (r.val / 80) + r.val % 80 < 10000; omega, Fin.ext (Nat.div_add_mod r.val 80)⟩

/-! ## The three scratch arrays and the output blocks are the specification's layers -/

/-- The first scratch array is `support1 = x · W1`, transposed. -/
theorem s1Spec_apply (A : Args Ideal) (j : Fin 64) (k : Fin 10000) :
    s1Spec A (ix2 j k) = Cert.GcnSpec.support1 A.x A.w1 k j := pay1_apply A.x A.w1 j k

/-- The second scratch array at row `80 b + p` is `support2 = hidden1 · W2` there: the block's aggregation runs over the
    whole first scratch array, which is `support1` transposed, and the block's rows of the adjacency matrix are the
    array's rows `80 b + p`. -/
theorem s2Spec_row_apply (A : Args Ideal) (b : Fin 125) (p : Fin 80) (o : Fin 16) (h : 80 * b.val + p.val < 10000) :
    s2Spec A (ix2 ⟨80 * b.val + p.val, h⟩ o)
      = Cert.GcnSpec.support2 A.adj A.x A.w1 (biasRow64 A) A.w2 ⟨80 * b.val + p.val, h⟩ o := by
  rw [s2Spec_row, pay2_apply]
  unfold Cert.GcnSpec.support2 Cert.GcnSpec.hidden1
  refine Finset.sum_congr rfl fun j _ => ?_
  refine congrArg (fun t => max (t + A.b1 (ix2 (0 : Fin 1) j)) Cert.GcnSpec.zero * A.w2 (ix2 j o)) ?_
  refine Finset.sum_congr rfl fun k _ => ?_
  rw [s1Spec_apply, rowBlock_apply _ b p k h]

/-- The second scratch array is `support2`. -/
theorem s2Spec_apply (A : Args Ideal) (r : Fin 10000) (o : Fin 16) :
    s2Spec A (ix2 r o) = Cert.GcnSpec.support2 A.adj A.x A.w1 (biasRow64 A) A.w2 r o := by
  obtain ⟨b, p, h, rfl⟩ := row_split r
  exact s2Spec_row_apply A b p o h

/-- The third scratch array at row `80 b + p` is `hidden2 = max (adj · support2 + b2) 0` there: the block's aggregation
    runs over the whole second scratch array, which is `support2`. -/
theorem s3Spec_row_apply (A : Args Ideal) (b : Fin 125) (p : Fin 80) (o : Fin 16) (h : 80 * b.val + p.val < 10000) :
    s3Spec A (ix2 ⟨80 * b.val + p.val, h⟩ o)
      = Cert.GcnSpec.hidden2 A.adj A.x A.w1 (biasRow64 A) A.w2 (biasRow16 A) ⟨80 * b.val + p.val, h⟩ o := by
  rw [s3Spec_row, pay3_apply]
  unfold Cert.GcnSpec.hidden2
  refine congrArg (fun t => max (t + A.b2 (ix2 (0 : Fin 1) o)) Cert.GcnSpec.zero) ?_
  refine Finset.sum_congr rfl fun k _ => ?_
  rw [s2Spec_apply, rowBlock_apply _ b p k h]

/-- The third scratch array is `hidden2`. -/
theorem s3Spec_apply (A : Args Ideal) (r : Fin 10000) (o : Fin 16) :
    s3Spec A (ix2 r o) = Cert.GcnSpec.hidden2 A.adj A.x A.w1 (biasRow64 A) A.w2 (biasRow16 A) r o := by
  obtain ⟨b, p, h, rfl⟩ := row_split r
  exact s3Spec_row_apply A b p o h

/-- Output block `b` at place `p`, column `c` is the score at row `80 b + p`, column `c`: the projection of the block's
    rows of `hidden2` by `Wd`, times the whole `hidden2` transposed. -/
theorem outSpec_apply (A : Args Ideal) (b : Fin 125) (p : Fin 80) (c : Fin 10000) (h : 80 * b.val + p.val < 10000) :
    outSpec A b (ix2 p c)
      = Cert.GcnSpec.score A.adj A.x A.w1 (biasRow64 A) A.w2 (biasRow16 A) A.wd (ix2 ⟨80 * b.val + p.val, h⟩ c) := by
  unfold outSpec
  rw [pay4_apply]
  show _ = ∑ o' : Fin 16, Cert.GcnSpec.proj A.adj A.x A.w1 (biasRow64 A) A.w2 (biasRow16 A) A.wd ⟨80 * b.val + p.val, h⟩ o'
      * Cert.GcnSpec.hidden2 A.adj A.x A.w1 (biasRow64 A) A.w2 (biasRow16 A) c o'
  refine Finset.sum_congr rfl fun o' _ => ?_
  rw [s3Spec_apply A c o']
  unfold Cert.GcnSpec.proj
  refine congrArg (· * Cert.GcnSpec.hidden2 A.adj A.x A.w1 (biasRow64 A) A.w2 (biasRow16 A) c o') ?_
  refine Finset.sum_congr rfl fun o _ => ?_
  rw [rowBlock_apply _ b p o h, s3Spec_apply]

end Cert.KernelIdeal.SpecValue

end
-- ==== Proof.KernelIdeal.ArgsValue.lean ====
/-
  The arrays the region finds are the launch memory's arguments; the two bias rows are the bias vectors.

  Before the region the host program does two things only: it recasts the first bias, a vector of length 64, to a row
  `[1, 64]`, and the second bias, a vector of length 16, to a row `[1, 16]`. The other five arrays (the adjacency matrix,
  the features and the three weight matrices) are written by no host operation, so the region finds them as launched. A
  vector recast to one row keeps its entries in order, so each bias row read back at `(0, j)` is entry `j` of the bias
  vector. Hence the specification's score, evaluated at the arrays the region finds with the bias rows read back as
  vectors, is the score of the seven launched arguments.
-/
import proofs.«149746_g67903432950113_cont_9to1_m_218_26_alg».proof.Proof.KernelIdeal.SpecValue
import Idealize.ShloMosaic.Lib.StableHlo.Run
import Idealize.ShloMosaic.Lib.Pipeline.Value
import Idealize.ShloMosaic.Lib.ValueLayout

noncomputable section

namespace Cert.KernelIdeal.ArgsValue

open Idealize.ShloMosaic Idealize.ShloMosaic.TcCoe Idealize.ShloMosaic.ValueIdx Idealize.SL.Sem
open Cert.KernelIdeal Cert.KernelIdeal.Gen Cert.KernelIdeal.Body Cert.KernelIdeal.SpecValue

variable (m : (ℓ : Loc nD τ sig) → Buf (Elt Ideal) ℓ)

/-! ## The five arrays no host operation writes -/

/-- The adjacency matrix the region finds is the launch memory's first argument. -/
theorem argsOf_adj (c : Dev nD) : (argsOf m c).adj = m ((c : Thread nD τ).loc main_arg0) := V_main_arg0 m c
/-- The features are the second argument. -/
theorem argsOf_x (c : Dev nD) : (argsOf m c).x = m ((c : Thread nD τ).loc main_arg1) := V_main_arg1 m c
/-- The first layer's weights are the third argument. -/
theorem argsOf_w1 (c : Dev nD) : (argsOf m c).w1 = m ((c : Thread nD τ).loc main_arg2) := V_main_arg2 m c
/-- The second layer's weights are the fifth argument. -/
theorem argsOf_w2 (c : Dev nD) : (argsOf m c).w2 = m ((c : Thread nD τ).loc main_arg4) := V_main_arg4 m c
/-- The decoder's weights are the seventh argument. -/
theorem argsOf_wd (c : Dev nD) : (argsOf m c).wd = m ((c : Thread nD τ).loc main_arg6) := V_main_arg6 m c

/-! ## The two bias rows -/

/-- The first bias row the region finds is the fourth argument, a vector of length 64, recast to `[1, 64]`. -/
theorem b1_row (c : Dev nD) :
    (V m c main_v0 : S1x64.Idx → EReal) = shapeCast S1x64 (m ((c : Thread nD τ).loc main_arg3)) shapeCasts_S64_S1x64 := by
  dsimp only [Gen.V, Gen.hostOps0]; after_results; rfl

/-- The second bias row the region finds is the sixth argument, a vector of length 16, recast to `[1, 16]`. -/
theorem b2_row (c : Dev nD) :
    (V m c main_v1 : S1x16.Idx → EReal) = shapeCast S1x16 (m ((c : Thread nD τ).loc main_arg5)) shapeCasts_S16_S1x16 := by
  dsimp only [Gen.V, Gen.hostOps0]; after_results; rfl

/-- Entry `j` of the first bias row, read back as a vector, is entry `j` of the fourth argument: a vector recast to one row
    keeps its entries in order. -/
theorem biasRow64_argsOf_apply (c : Dev nD) (j : Fin 64) :
    biasRow64 (argsOf m c) (ix1 j) = (m ((c : Thread nD τ).loc main_arg3) : S64.Idx → EReal) (ix1 j) := by
  show (V m c main_v0 : S1x64.Idx → EReal) (ix2 (0 : Fin 1) j) = _
  rw [b1_row]
  exact shapeCast_a_1a_apply _ _ 0 j

/-- The same for the second bias row and the sixth argument. -/
theorem biasRow16_argsOf_apply (c : Dev nD) (o : Fin 16) :
    biasRow16 (argsOf m c) (ix1 o) = (m ((c : Thread nD τ).loc main_arg5) : S16.Idx → EReal) (ix1 o) := by
  show (V m c main_v1 : S1x16.Idx → EReal) (ix2 (0 : Fin 1) o) = _
  rw [b2_row]
  exact shapeCast_a_1a_apply _ _ 0 o

/-- The first bias, read back from its row, is the fourth argument. -/
theorem biasRow64_argsOf (c : Dev nD) : biasRow64 (argsOf m c) = m ((c : Thread nD τ).loc main_arg3) := by
  funext i
  rw [eq_ix1 i]
  exact biasRow64_argsOf_apply m c (i 0)

/-- The second bias, read back from its row, is the sixth argument. -/
theorem biasRow16_argsOf (c : Dev nD) : biasRow16 (argsOf m c) = m ((c : Thread nD τ).loc main_arg5) := by
  funext i
  rw [eq_ix1 i]
  exact biasRow16_argsOf_apply m c (i 0)

/-! ## The specification at the arrays the region finds -/

/-- The score computed from the arrays the region finds is the score of the launch memory's seven arguments. -/
theorem score_argsOf (c : Dev nD) :
    Cert.GcnSpec.score (argsOf m c).adj (argsOf m c).x (argsOf m c).w1 (biasRow64 (argsOf m c)) (argsOf m c).w2
        (biasRow16 (argsOf m c)) (argsOf m c).wd
      = Cert.GcnSpec.score (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  rw [argsOf_adj, argsOf_x, argsOf_w1, argsOf_w2, argsOf_wd, biasRow64_argsOf, biasRow16_argsOf]

end Cert.KernelIdeal.ArgsValue

end
-- ==== Proof.KernelIdeal.FinalValue.lean ====
/-
  From blocks to the array: the result array after the run is the specification's score.

  The result is a `10000 × 10000` array written in 125 blocks of 80 whole rows. The run has 375 points; the result's
  window is idle at the first 250 and, at point `t ≥ 250`, sits on row block `t - 250 = t % 125` and is written back
  there. What that point writes is output block `t % 125` of the body's arithmetic, which is row block `t % 125` of the
  specification's score: so every point that writes back writes its block of ONE whole-array function, the score. Row
  `r` of the array lies in the block of point `250 + r / 80`, so the blocks of the points that write back cover the
  array, and the array ends holding the score — whatever the window holds at the idle points, which write nothing.
  Everything is stated for any proof data whose result window holds, after the body at a point `t ≥ 250`, output block
  `t % 125`; the last two statements read it off a frame run.
-/
import proofs.«149746_g67903432950113_cont_9to1_m_218_26_alg».proof.Proof.KernelIdeal.ArgsValue

set_option maxRecDepth 16384

noncomputable section

namespace Cert.KernelIdeal.FinalValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Body Cert.KernelIdeal.SpecValue Cert.KernelIdeal.ArgsValue

/-! ## The blocks of the result window -/

/-- An index of the result array is in point `t`'s block iff each coordinate is in the block's range on its axis. -/
theorem mem_blk7 (t : Fin cfg0.N) (i : S10000x10000.Idx) :
    i ∈ ((cfg0.win 7).blk t).view.set ↔ ∀ a : Fin 2, win0_7.index t a * S80x10000.size a ≤ (i a).val
      ∧ (i a).val < win0_7.index t a * S80x10000.size a + S80x10000.size a := by
  show i ∈ ((View.whole main_v2).slice (win0_7.rect t)).set ↔ _
  rw [View.set_slice_whole, Rect.mem_set_unit]
  exact Iff.rfl

/-- Every index of the result array is in the block of a point that writes back: row `r` is in the block of point
    `250 + r / 80`. -/
theorem cover7 (i : S10000x10000.Idx) :
    ∃ t : Fin cfg0.N, (cfg0.win 7).flush t = true ∧ i ∈ ((cfg0.win 7).blk t).view.set := by
  have hi0 : (i 0).val < 10000 := (i 0).isLt
  have hi1 : (i 1).val < 10000 := (i 1).isLt
  have hN : cfg0.N = 375 := by decide +kernel
  let t : Fin cfg0.N := ⟨250 + (i 0).val / 80, by rw [hN]; omega⟩
  have ht : 250 ≤ t.val := Nat.le_add_right _ _
  obtain ⟨e0, e1⟩ := index7_eq t ht
  refine ⟨t, flush7 t ht, ?_⟩
  rw [mem_blk7]
  intro a
  match a with
  | ⟨0, _⟩ =>
    show win0_7.index t 0 * 80 ≤ (i 0).val ∧ (i 0).val < win0_7.index t 0 * 80 + 80
    rw [e0]; show (250 + (i 0).val / 80 - 250) * 80 ≤ (i 0).val ∧ (i 0).val < (250 + (i 0).val / 80 - 250) * 80 + 80
    omega
  | ⟨1, _⟩ =>
    show win0_7.index t 1 * 10000 ≤ (i 1).val ∧ (i 1).val < win0_7.index t 1 * 10000 + 10000
    rw [e1]; omega

/-! ## What a point writes back, and the array -/

/-- Output block `b` is row block `b` of the specification's score: place `p`, column `q` of the block is the score at
    row `80 b + p`, column `q`. -/
theorem outSpec_eq_rowBlock (A : Args Ideal) (b : Fin 125) :
    outSpec A b = rowBlock (Cert.GcnSpec.score A.adj A.x A.w1 (biasRow64 A) A.w2 (biasRow16 A) A.wd) b := by
  funext x
  have h : 80 * b.val + (x 0).val < 10000 := by have := idx2_lt0 x; have := b.isLt; omega
  rw [eq_ix2 x]
  exact outSpec_apply A b (x 0) (x 1) h

/-- At a point `t ≥ 250` the result window is on row block `t - 250 = t % 125`: row block `t % 125` of a whole array,
    written back, is the array read through the point's block. -/
theorem cut_rowBlock7 (G : S10000x10000.Idx → EReal) (t : Fin cfg0.N) (ht : 250 ≤ t.val) :
    (cfg0.win 7).cut (grid0.coords t) (rowBlock G ⟨t.val % 125, Nat.mod_lt _ (by decide)⟩)
      = ((cfg0.win 7).blk t).view.read (Elt Ideal) G := by
  have hN : cfg0.N = 375 := by decide +kernel
  have htN : t.val < 375 := hN ▸ t.isLt
  obtain ⟨e0, e1⟩ := index7_eq t ht
  funext y
  show G _ = G (((cfg0.win 7).blk t).view.emb y)
  refine congrArg G (funext fun a => Fin.ext ?_)
  match a with
  | ⟨0, _⟩ =>
    show 80 * (t.val % 125) + (y 0).val = win0_7.index t 0 * 80 + 1 * (y 0).val
    rw [e0]; omega
  | ⟨1, _⟩ =>
    show (y 1).val = win0_7.index t 1 * 10000 + 1 * (y 1).val
    rw [e1]; omega

/-- What a point that writes back writes is its block of the score, for any proof data whose result window holds, after
    the body at a point `t ≥ 250`, output block `t % 125`. -/
theorem flushed7_of {c : Dev nD} (dat : Dat τ (Elt Ideal) Unit ℕ (UR sig nD τ) ℕ cfg0 c) (A : Args Ideal)
    (hafter : ∀ t : Fin cfg0.N, 250 ≤ t.val → dat.after 7 t = outSpec A ⟨t.val % 125, Nat.mod_lt _ (by decide)⟩)
    (t : Fin cfg0.N) (hf : (cfg0.win 7).flush t = true) :
    dat.flushed 7 t = ((cfg0.win 7).blk t).view.read (Elt Ideal)
      (Cert.GcnSpec.score A.adj A.x A.w1 (biasRow64 A) A.w2 (biasRow16 A) A.wd) := by
  have ht : 250 ≤ t.val := by
    refine Nat.le_of_not_lt fun h => ?_
    rw [noFlush7 t h] at hf
    exact Bool.noConfusion hf
  show (cfg0.win 7).cut (grid0.coords t) (dat.after 7 t) = _
  rw [hafter t ht, outSpec_eq_rowBlock]
  exact cut_rowBlock7 _ t ht

/-- The result array after the run is the specification's score of the arrays, for any such proof data. -/
theorem final7_of {c : Dev nD} (dat : Dat τ (Elt Ideal) Unit ℕ (UR sig nD τ) ℕ cfg0 c) (A : Args Ideal)
    (hafter : ∀ t : Fin cfg0.N, 250 ≤ t.val → dat.after 7 t = outSpec A ⟨t.val % 125, Nat.mod_lt _ (by decide)⟩) :
    dat.arrAt 7 cfg0.N = Cert.GcnSpec.score A.adj A.x A.w1 (biasRow64 A) A.w2 (biasRow16 A) A.wd :=
  dat.arrAt_eq_of_cover 7 _ (flushed7_of dat A hafter) cover7

/-! ## The run -/

variable (m : (ℓ : Loc nD τ sig) → Buf (Elt Ideal) ℓ) (ρ : Dev nD → PrngReg)

/-- After a frame run the result array is the specification's score of the arrays the region finds, for any proof data
    whose result window holds, after the body at a point `t ≥ 250`, output block `t % 125` of those arrays. -/
theorem post7_of (dats : (p : Fin 1) → (c : Dev nD) → Dat τ (Elt Ideal) Unit ℕ (UR sig nD τ) ℕ (cfgs p) c)
    (A : Dev nD → Args Ideal)
    (hafter : ∀ (c : Dev nD) (t : Fin cfg0.N), 250 ≤ t.val →
      (dats 0 c).after 7 t = outSpec (A c) ⟨t.val % 125, Nat.mod_lt _ (by decide)⟩)
    (V' : (c : Dev nD) → (b : Ref sig .tc) → Buf (Elt Ideal) ((c.tc : Thread nD τ).loc b))
    (r : PUnit × MemSt nD τ sig (Elt Ideal)) (h : Pipeline.FramePost cfgs dats 0 V' r) (c : Dev nD) :
    r.2.mem ((c.tc : Thread nD τ).loc main_v2)
      = Cert.GcnSpec.score (A c).adj (A c).x (A c).w1 (biasRow64 (A c)) (A c).w2 (biasRow16 (A c)) (A c).wd :=
  ((h c).1 7).trans (final7_of (dats 0 c) (A c) (hafter c))

/-- THE VALUE from a frame run: with the arrays the region finds (the launched arguments, the two biases recast to rows)
    the result array ends holding the specification's score of the seven launched arguments. -/
theorem value_of (dats : (p : Fin 1) → (c : Dev nD) → Dat τ (Elt Ideal) Unit ℕ (UR sig nD τ) ℕ (cfgs p) c)
    (hafter : ∀ (c : Dev nD) (t : Fin cfg0.N), 250 ≤ t.val →
      (dats 0 c).after 7 t = outSpec (argsOf m c) ⟨t.val % 125, Nat.mod_lt _ (by decide)⟩)
    (h : θ_run defs (onTc (τ := τ) (main (F := Ideal))) (s₀ m ρ) (Pipeline.FramePost cfgs dats 0 (V m))) :
    θ_run defs (onTc (τ := τ) (main (F := Ideal))) ⟨m, fun _ => 0, ρ⟩ (fun r => ∀ c : Dev nD,
      r.2.mem ((c.tc : Thread nD τ).loc main_v2)
        = Cert.GcnSpec.score (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))) :=
  (θ_run defs _ _).mono (fun r hr c =>
    (post7_of dats (argsOf m) hafter (V m) r hr c).trans (score_argsOf m c)) h

end Cert.KernelIdeal.FinalValue

end
-- ==== Proof.KernelIdeal.RunValue.lean ====
/-
  The idealized kernel's run with its result named: on the extended reals the result array ends at the specification
  `score` of the seven launch arguments. The frame run leaves the output array at what the write-backs of phase 2 made
  of it; those 125 blocks of 80 rows are the row blocks of `score` of the arrays the region found, and those arrays are
  the launch arguments (the two biases through their reshape to a row).
-/
import proofs.«149746_g67903432950113_cont_9to1_m_218_26_alg».proof.Proof.KernelIdeal.BodyData
import proofs.«149746_g67903432950113_cont_9to1_m_218_26_alg».proof.Proof.KernelIdeal.FinalValue

noncomputable section

namespace Cert.KernelIdeal.RunValue

open Idealize.ShloMosaic Idealize.ShloMosaic.TcCoe Idealize.SL.Sem
open Cert.KernelIdeal Cert.KernelIdeal.Gen Cert.KernelIdeal.Body Cert.KernelIdeal.SpecValue Cert.KernelIdeal.ArgsValue Cert.KernelIdeal.FinalValue

variable (m : (ℓ : Loc nD τ sig) → Buf (Elt Ideal) ℓ) (ρ : Dev nD → PrngReg)

/-- The output array after the last write-back is `score` of the launch arguments. -/
theorem final7 (c : Dev nD) :
    (dats m 0 c).arrAt 7 cfg0.N = Cert.GcnSpec.score (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (final7_of (dats m 0 c) (argsOf m c) (fun t _ => after0_7 m c t)).trans (score_argsOf m c)

/-- Every weakly fair execution of the idealized kernel's @main terminates without a fault, with the result array at
    `score` of the arguments and the arguments as they were. -/
theorem run_value : θ_run defs (onTc (τ := τ) (main (F := Ideal))) ⟨m, fun _ => 0, ρ⟩ (fun r => ∀ c : Dev nD,
      r.2.mem ((c.tc : Thread nD τ).loc main_v2) = Cert.GcnSpec.score (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 7).trans (final7 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).1 6).trans (((dats m 0 c).arrAt_in 6 rfl _).trans ((A_eq m c 6).trans (V_main_arg6 m c)))⟩) (run_main m ρ)

end Cert.KernelIdeal.RunValue

end
-- ==== Proof.RefValue.lean ====
/-
  The reference program computes the specification.

  The reference is read one operation at a time, each operation at an index written from explicit coordinates, and each
  layer of the two-layer graph convolution is identified with the specification's function of the same name:

    x · W1                        = support1
    max (adj · support1 + b1) 0   = hidden1
    hidden1 · W2                  = support2
    max (adj · support2 + b2) 0   = hidden2
    hidden2 · Wd                  = proj
    proj · hidden2ᵀ               = score

  No algebra is involved: on both sides a product is the same finite sum of the same products in the same order, the bias
  is added on the right, and the maximum is taken against the value of the f32 word 0x00000000. What has to be shown is
  only that the index each operation reads its operands at is the index built from the coordinates the specification names.
-/
import proofs.«149746_g67903432950113_cont_9to1_m_218_26_alg».proof.Proof.Gen.ReferenceIdeal.Read
import proofs.«149746_g67903432950113_cont_9to1_m_218_26_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Read Cert.GcnSpec Idealize.ShloMosaic Idealize.ShloMosaic.ValueIdx

/-- Layer `support1`: the first product `x · W1`, read at row `k`, column `j`, is the sum over the 128 features. -/
theorem support1_eq (x1 : (⟨S10000x128, .f32⟩ : BufTy).Contents (Elt Ideal)) (x2 : (⟨S128x64, .f32⟩ : BufTy).Contents (Elt Ideal)) (k : Fin 10000) (j : Fin 64) :
    val_main_v0 (F := Ideal) x1 x2 (ix2 k j) = support1 x1 x2 k j := by
  rw [val_main_v0_apply]
  unfold support1
  refine Finset.sum_congr rfl fun f _ => ?_
  have el : lidx_main_v0 (ix2 k j) f = ix2 k f := funext fun a => by match a with | ⟨0, _⟩ => rfl | ⟨1, _⟩ => rfl
  have er : ridx_main_v0 (ix2 k j) f = ix2 f j := funext fun a => by match a with | ⟨0, _⟩ => rfl | ⟨1, _⟩ => rfl
  rw [el, er]

/-- Layer `hidden1`: the product with the adjacency matrix, the bias of column `j` (broadcast along the rows) added on the
    right, and the maximum against the zero word, read at row `r`, column `j`. -/
theorem hidden1_eq (x0 : (⟨S10000x10000, .f32⟩ : BufTy).Contents (Elt Ideal)) (x1 : (⟨S10000x128, .f32⟩ : BufTy).Contents (Elt Ideal)) (x2 : (⟨S128x64, .f32⟩ : BufTy).Contents (Elt Ideal)) (x3 : (⟨S64, .f32⟩ : BufTy).Contents (Elt Ideal)) (r : Fin 10000) (j : Fin 64) :
    val_main_v5 (F := Ideal) x0 x1 x2 x3 (ix2 r j) = hidden1 x0 x1 x2 x3 r j := by
  rw [val_main_v5_apply, val_main_v4_apply, val_main_v1_apply, val_main_v3_apply, val_main_v2_apply,
    val_main_call0_v0_apply, val_main_call0_cst_apply, Ideal.maximumf_def, Ideal.addf_def, Ideal.ofBits_def]
  unfold hidden1
  have eb : idx_main_v2 (idx_main_v3 (ix2 r j)) = ix1 j := funext fun a => by match a with | ⟨0, _⟩ => rfl
  have hs : (∑ k : Fin 10000, x0 (lidx_main_v1 (ix2 r j) k) * val_main_v0 (F := Ideal) x1 x2 (ridx_main_v1 (ix2 r j) k))
      = ∑ k : Fin 10000, x0 (ix2 r k) * support1 x1 x2 k j := Finset.sum_congr rfl fun k _ => by
    have el : lidx_main_v1 (ix2 r j) k = ix2 r k := funext fun a => by match a with | ⟨0, _⟩ => rfl | ⟨1, _⟩ => rfl
    have er : ridx_main_v1 (ix2 r j) k = ix2 k j := funext fun a => by match a with | ⟨0, _⟩ => rfl | ⟨1, _⟩ => rfl
    rw [el, er, support1_eq]
  rw [hs, eb]

/-- Layer `support2`: the product `hidden1 · W2`, read at row `r`, column `o`, is the sum over the 64 hidden features. -/
theorem support2_eq (x0 : (⟨S10000x10000, .f32⟩ : BufTy).Contents (Elt Ideal)) (x1 : (⟨S10000x128, .f32⟩ : BufTy).Contents (Elt Ideal)) (x2 : (⟨S128x64, .f32⟩ : BufTy).Contents (Elt Ideal)) (x3 : (⟨S64, .f32⟩ : BufTy).Contents (Elt Ideal)) (x4 : (⟨S64x16, .f32⟩ : BufTy).Contents (Elt Ideal)) (r : Fin 10000) (o : Fin 16) :
    val_main_v6 (F := Ideal) x0 x1 x2 x3 x4 (ix2 r o) = support2 x0 x1 x2 x3 x4 r o := by
  rw [val_main_v6_apply]
  unfold support2
  refine Finset.sum_congr rfl fun j _ => ?_
  have el : lidx_main_v6 (ix2 r o) j = ix2 r j := funext fun a => by match a with | ⟨0, _⟩ => rfl | ⟨1, _⟩ => rfl
  have er : ridx_main_v6 (ix2 r o) j = ix2 j o := funext fun a => by match a with | ⟨0, _⟩ => rfl | ⟨1, _⟩ => rfl
  rw [el, er, hidden1_eq]

/-- Layer `hidden2`: the product with the adjacency matrix, the bias of column `o` added on the right, and the maximum
    against the zero word, read at row `r`, column `o`. -/
theorem hidden2_eq (x0 : (⟨S10000x10000, .f32⟩ : BufTy).Contents (Elt Ideal)) (x1 : (⟨S10000x128, .f32⟩ : BufTy).Contents (Elt Ideal)) (x2 : (⟨S128x64, .f32⟩ : BufTy).Contents (Elt Ideal)) (x3 : (⟨S64, .f32⟩ : BufTy).Contents (Elt Ideal)) (x4 : (⟨S64x16, .f32⟩ : BufTy).Contents (Elt Ideal)) (x5 : (⟨S16, .f32⟩ : BufTy).Contents (Elt Ideal)) (r : Fin 10000) (o : Fin 16) :
    val_main_v11 (F := Ideal) x0 x1 x2 x3 x4 x5 (ix2 r o) = hidden2 x0 x1 x2 x3 x4 x5 r o := by
  rw [val_main_v11_apply, val_main_v10_apply, val_main_v7_apply, val_main_v9_apply, val_main_v8_apply,
    val_main_call1_v0_apply, val_main_call1_cst_apply, Ideal.maximumf_def, Ideal.addf_def, Ideal.ofBits_def]
  unfold hidden2
  have eb : idx_main_v8 (idx_main_v9 (ix2 r o)) = ix1 o := funext fun a => by match a with | ⟨0, _⟩ => rfl
  have hs : (∑ k : Fin 10000, x0 (lidx_main_v7 (ix2 r o) k) * val_main_v6 (F := Ideal) x0 x1 x2 x3 x4 (ridx_main_v7 (ix2 r o) k))
      = ∑ k : Fin 10000, x0 (ix2 r k) * support2 x0 x1 x2 x3 x4 k o := Finset.sum_congr rfl fun k _ => by
    have el : lidx_main_v7 (ix2 r o) k = ix2 r k := funext fun a => by match a with | ⟨0, _⟩ => rfl | ⟨1, _⟩ => rfl
    have er : ridx_main_v7 (ix2 r o) k = ix2 k o := funext fun a => by match a with | ⟨0, _⟩ => rfl | ⟨1, _⟩ => rfl
    rw [el, er, support2_eq]
  rw [hs, eb]

/-- Layer `proj`: the product `hidden2 · Wd`, read at row `r`, column `o'`, is the sum over the 16 output features. -/
theorem proj_eq (x0 : (⟨S10000x10000, .f32⟩ : BufTy).Contents (Elt Ideal)) (x1 : (⟨S10000x128, .f32⟩ : BufTy).Contents (Elt Ideal)) (x2 : (⟨S128x64, .f32⟩ : BufTy).Contents (Elt Ideal)) (x3 : (⟨S64, .f32⟩ : BufTy).Contents (Elt Ideal)) (x4 : (⟨S64x16, .f32⟩ : BufTy).Contents (Elt Ideal)) (x5 : (⟨S16, .f32⟩ : BufTy).Contents (Elt Ideal)) (x6 : (⟨S16x16, .f32⟩ : BufTy).Contents (Elt Ideal)) (r : Fin 10000) (o' : Fin 16) :
    val_main_v12 (F := Ideal) x0 x1 x2 x3 x4 x5 x6 (ix2 r o') = proj x0 x1 x2 x3 x4 x5 x6 r o' := by
  rw [val_main_v12_apply]
  unfold proj
  refine Finset.sum_congr rfl fun o _ => ?_
  have el : lidx_main_v12 (ix2 r o') o = ix2 r o := funext fun a => by match a with | ⟨0, _⟩ => rfl | ⟨1, _⟩ => rfl
  have er : ridx_main_v12 (ix2 r o') o = ix2 o o' := funext fun a => by match a with | ⟨0, _⟩ => rfl | ⟨1, _⟩ => rfl
  rw [el, er, hidden2_eq]

/-- The transpose of `hidden2`, read at row `o`, column `c`, is `hidden2` at row `c`, column `o`. -/
theorem hidden2T_eq (x0 : (⟨S10000x10000, .f32⟩ : BufTy).Contents (Elt Ideal)) (x1 : (⟨S10000x128, .f32⟩ : BufTy).Contents (Elt Ideal)) (x2 : (⟨S128x64, .f32⟩ : BufTy).Contents (Elt Ideal)) (x3 : (⟨S64, .f32⟩ : BufTy).Contents (Elt Ideal)) (x4 : (⟨S64x16, .f32⟩ : BufTy).Contents (Elt Ideal)) (x5 : (⟨S16, .f32⟩ : BufTy).Contents (Elt Ideal)) (o : Fin 16) (c : Fin 10000) :
    val_main_v13 (F := Ideal) x0 x1 x2 x3 x4 x5 (ix2 o c) = hidden2 x0 x1 x2 x3 x4 x5 c o := by
  rw [val_main_v13_apply]
  have e : idx_main_v13 (ix2 o c) = ix2 c o := funext fun a => by match a with | ⟨0, _⟩ => rfl | ⟨1, _⟩ => rfl
  rw [e, hidden2_eq]

/-- The last product `proj · hidden2ᵀ`, read at row `a`, column `b`, is the sum over the 16 output features of `proj` at
    row `a` times `hidden2` at row `b`. -/
theorem score_apply_eq (x0 : (⟨S10000x10000, .f32⟩ : BufTy).Contents (Elt Ideal)) (x1 : (⟨S10000x128, .f32⟩ : BufTy).Contents (Elt Ideal)) (x2 : (⟨S128x64, .f32⟩ : BufTy).Contents (Elt Ideal)) (x3 : (⟨S64, .f32⟩ : BufTy).Contents (Elt Ideal)) (x4 : (⟨S64x16, .f32⟩ : BufTy).Contents (Elt Ideal)) (x5 : (⟨S16, .f32⟩ : BufTy).Contents (Elt Ideal)) (x6 : (⟨S16x16, .f32⟩ : BufTy).Contents (Elt Ideal)) (a b : Fin 10000) :
    val_main_v14 (F := Ideal) x0 x1 x2 x3 x4 x5 x6 (ix2 a b)
      = ∑ o' : Fin 16, proj x0 x1 x2 x3 x4 x5 x6 a o' * hidden2 x0 x1 x2 x3 x4 x5 b o' := by
  rw [val_main_v14_apply]
  refine Finset.sum_congr rfl fun o' _ => ?_
  have el : lidx_main_v14 (ix2 a b) o' = ix2 a o' := funext fun a => by match a with | ⟨0, _⟩ => rfl | ⟨1, _⟩ => rfl
  have er : ridx_main_v14 (ix2 a b) o' = ix2 o' b := funext fun a => by match a with | ⟨0, _⟩ => rfl | ⟨1, _⟩ => rfl
  rw [el, er, proj_eq, hidden2T_eq]

/-- The reference computes the specification: its result, as a function of the seven argument arrays, is `score`. -/
theorem result_eq (x0 : (⟨S10000x10000, .f32⟩ : BufTy).Contents (Elt Ideal)) (x1 : (⟨S10000x128, .f32⟩ : BufTy).Contents (Elt Ideal)) (x2 : (⟨S128x64, .f32⟩ : BufTy).Contents (Elt Ideal)) (x3 : (⟨S64, .f32⟩ : BufTy).Contents (Elt Ideal)) (x4 : (⟨S64x16, .f32⟩ : BufTy).Contents (Elt Ideal)) (x5 : (⟨S16, .f32⟩ : BufTy).Contents (Elt Ideal)) (x6 : (⟨S16x16, .f32⟩ : BufTy).Contents (Elt Ideal)) :
    Cert.ReferenceIdeal.Read.val_main_v14 (F := Ideal) x0 x1 x2 x3 x4 x5 x6 = Cert.GcnSpec.score x0 x1 x2 x3 x4 x5 x6 := by
  funext i
  obtain ⟨a, b, rfl⟩ : ∃ a b, i = ix2 a b := ⟨_, _, eq_ix2 i⟩
  exact score_apply_eq x0 x1 x2 x3 x4 x5 x6 a b

end Cert.ReferenceIdeal.RefValue

end
-- ==== Proof.lean ====
/-
  The certificate of a two-layer graph convolution with a bilinear decoder,

      score = (h2 · Wd) · h2ᵀ,   h2 = max (adj · (h1 · W2) + b2) 0,   h1 = max (adj · (x · W1) + b1) 0,

  computed by one kernel over a grid of 3 phases × 125 row blocks of 80 rows against the plain matrix products.

  The kernel keeps three buffers of its own across the grid. Phase 0 stores `(x · W1)ᵀ` once, at the first point, and at
  each of its points the 80 rows `max (adj_rows · (x · W1) + b1) 0 · W2` of the second buffer; phase 1 stores at each
  point the 80 rows `max (adj_rows · second + b2) 0` of the third; phase 2 stores at each point the output block
  `(third_rows · Wd) · thirdᵀ`. The output window sits on block 0 through phases 0 and 1, where nothing is stored into
  it and it is not written back; phase 2 writes back block `b` at point `250 + b`.

  The frames (both the word-level kernel's and the idealized one's, the same text at two float instances): the body is
  run in its four cases — the first point, the rest of phase 0, phase 1, phase 2 — under an invariant that says, before
  point `n`, that the first buffer holds `(x · W1)ᵀ` and that the rows of the other two written so far (the second's
  below `80 n`, the third's below `80 (n - 125)`) hold the body's own arithmetic of the argument arrays. A store of 80
  rows keeps the rows below it and sets its own; from point 125 on the second buffer is complete, from point 250 on the
  third, so what phase 2 stores is a function of the arguments alone.

  The values, on the extended reals: each stored payload read at one index is a finite sum of products (a matrix
  product into a zero accumulator is the sum over the contracted coordinate, a product by a transposed operand the same
  sum with that operand's coordinates exchanged), so the three buffers are `x · W1` transposed, `h1 · W2` and `h2`, and
  output block `b` is rows `[80 b, 80 b + 80)` of `score`; the 125 blocks cover the array. The reference's operations
  read at an index give the same sums of the same products in the same order: no law of arithmetic is used, and the
  precondition (finite inputs) is not needed.

  The idealization rewrote no operation, so that conjunct is trivial.
-/
import proofs.«149746_g67903432950113_cont_9to1_m_218_26_alg».proof.Defs
import proofs.«149746_g67903432950113_cont_9to1_m_218_26_alg».proof.Proof.Gen.Kernel
import proofs.«149746_g67903432950113_cont_9to1_m_218_26_alg».proof.Proof.Gen.KernelIdeal
import proofs.«149746_g67903432950113_cont_9to1_m_218_26_alg».proof.Proof.Gen.ReferenceIdeal
import proofs.«149746_g67903432950113_cont_9to1_m_218_26_alg».proof.Proof.Gen.Pre_finite_inputs
import proofs.«149746_g67903432950113_cont_9to1_m_218_26_alg».proof.Proof.Kernel.BodyData
import proofs.«149746_g67903432950113_cont_9to1_m_218_26_alg».proof.Proof.KernelIdeal.RunValue
import proofs.«149746_g67903432950113_cont_9to1_m_218_26_alg».proof.Proof.RefValue
import Idealize.ShloMosaic.Adequacy
import Idealize.ShloMosaic.Init

noncomputable section

namespace Cert.Proof

open Idealize.ShloMosaic Idealize.SL.Sem

/-- The word-level kernel runs to the end without a fault and leaves its arguments as they were. -/
theorem frame_kernel : Cert.frame_Kernel := fun m ρ _ => Cert.Kernel.Body.frame (F := Bits) m ρ

/-- So does the idealized kernel. -/
theorem frame_kernelIdeal : Cert.frame_KernelIdeal := fun m ρ _ => Cert.KernelIdeal.Body.frame (F := Ideal) m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals the two programs, from memories that agree on the arguments, both end with the result array
    at `score` of the arguments. -/
theorem algebraic : Cert.algebraic_KernelIdeal_ReferenceIdeal := by
  intro m ρ m' ρ' _ hagree
  refine ⟨_, Cert.KernelIdeal.RunValue.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq,
    (hagree c).1, (hagree c).2.1, (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
